-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S5000x256 : Shape := ⟨2, ![5000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 82
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S50000x256, .bf16⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .bf16⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .bf16⟩
  | .local _ .vmem, ⟨4, _⟩ => ⟨S5000x256, .bf16⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S5000x256_S5000x256_0_0 : (Rect.unit (s := S5000x256) ![0, 0] S5000x256.size inb_S5000x256_S5000x256_0_0).PackedRows (EltTy.packing .bf16)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S5000x256_S5000x256 : S5000x256.ShapeCasts S5000x256
  broadcasts_S1x256_S5000x256 : S1x256.Broadcasts S5000x256
  reduces_S5000x256_S256 : S5000x256.Reduces [0] S256
  bcast_S_S1x256 : S_.BroadcastsInDim S1x256 (![] : Fin 0 → Fin S1x256.rank)
  dot_S5000x256_S256x256_S5000x256_1_1_0_0_n_n_wf : DotDims.WF S5000x256 S256x256 S5000x256 [1] [1] [0] [0] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S50000x256.size a
  hwx2_6 : ∀ i : grid2.Coords, EltTy.bits .f32 = 32 ∨ (Rect.block (s := S50000x256) S5000x256.size (cc2_transform_6 i) (hinb2_6 i)).WholeWords (EltTy.packing .f32)

variable [Facts₀]

def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S1x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v44) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S256x256, .f32⟩
  | .hbm, ⟨14, _⟩ => ⟨S50000x256, .f32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  transposes_S256x256_S256x256_1_0 : S256x256.Transposes [1, 0] S256x256
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.K.Reg0.lean ====
import proofs.«157023_j2937757631000_1_alg».proof.Proof.Gen.Kernel.Launch
import proofs.«157023_j2937757631000_1_alg».proof.Proof.Gen.Kernel.Skeleton
import proofs.«157023_j2937757631000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection `x · Wᵀ` block by block (pipeline 0), at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the point before, so the block kept there is the block here. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block kept there is the block here. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x256 := Rect.unit (s := S5000x256) ![0, 0] S5000x256.size inb_S5000x256_S5000x256_0_0
abbrev r0_1 : Rect S256x256 := Rect.unit (s := S256x256) ![0, 0] S256x256.size inb_S256x256_S256x256_0_0

/-! ## What the body leaves in the output window's buffer -/

/-- Window 2's staging buffer after the body, from the input windows' blocks: its one store, of the rounded
    product of the rounded row block with the rounded weight matrix, over the whole buffer. -/
def out0_2 (x0 : Vec F S5000x256 .f32) (x1 : Vec F S256x256 .f32) : Vec F S5000x256 .bf16 :=
  View.canon [⟨r0_0, k0_pay1 (View.ld x0 r0_0) (View.ld x1 r0_1)⟩]

/-- The store's rectangle is the whole buffer, so it covers it. -/
theorem cover0_2 (p0 : Vec F S5000x256 .bf16) (y : S5000x256.Idx) :
    ∃ pc ∈ ([⟨r0_0, p0⟩] : List (View.Piece (Elt F) S5000x256 .bf16)), y ∈ pc.1.set :=
  View.cover_of_tiled [⟨r0_0, p0⟩] S5000x256.size (by rfl) y

/-! ## The body's triple -/

set_option maxHeartbeats 4000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S5000x256 .f32) (harg1 : arg1.IsWhole) (arg2 : Memref sig .tc .vmem S256x256 .f32) (harg2 : arg2.IsWhole) (arg3 : Memref sig .tc .vmem S5000x256 .bf16) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
import proofs.«157023_j2937757631000_1_alg».proof.Proof.Gen.Kernel.Launch
import proofs.«157023_j2937757631000_1_alg».proof.Proof.Gen.Kernel.Skeleton
import proofs.«157023_j2937757631000_1_alg».proof.Proof.Gen.Kernel.Points
import Idealize.ShloMosaic.Lib.Pipeline.FrameBody
import Idealize.ShloMosaic.Lib.Ring
import Idealize.ShloMosaic.Lib.Tactic

-- membership in a rectangle of these extents is decided structurally, once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-statistics region: what its three control cases share

The region walks the 10 row blocks of the aggregated features. Its body branches twice on the grid coordinate:
at the first block it clears the two running rows (sum and sum of squares), at every block it adds the block's
column sums to them, and at the last block it copies them to the two output rows. -/

/-! ## The body's branch conditions -/

/-- The first branch is taken when the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second branch is taken when the grid coordinate is 9. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle: nothing is stored into them, -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
/-- and they are not written back there. -/
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

/-- One staging buffer of each output row, through which its contents are stated (the choice does not matter:
    a covered buffer reads the same through any view of its shape). -/
abbrev VO1_2 : View sig .tc .vmem S1x256 .f32 := (Memref.whole cc1_stg2_0 : Memref sig .tc .vmem S1x256 .f32).view
abbrev VO1_3 : View sig .tc .vmem S1x256 .f32 := (Memref.whole cc1_stg3_0 : Memref sig .tc .vmem S1x256 .f32).view
/-- Each window's current staging memref at point `t`, and its wholeness. -/
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
/-- The two running rows: whole scoped buffers of the kernel's own, passed beside the windows. -/
abbrev scM1_0 : Memref sig .tc .vmem S1x256 .f32 := Memref.whole cc1_scratch0
abbrev scM1_1 : Memref sig .tc .vmem S1x256 .f32 := Memref.whole cc1_scratch1
/-- The same as views: what they hold is stated through these. -/
abbrev VS1_0 : View sig .tc .vmem S1x256 .f32 := scM1_0.view
abbrev VS1_1 : View sig .tc .vmem S1x256 .f32 := scM1_1.view

/-! ## The region's invariant, with the two running rows singled out -/

/-- The core's scoped buffers that belong to the other two regions, each whole at some contents: this region
    never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The invariant the launch hands the region is: the two running rows at some contents, the other regions'
    scoped buffers at some contents, and the generator register at some state. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 (F := F) c) ∗ (∃ r, prngReg c r)) := by
  unfold Pipeline.ΦA others1; rw [scopedRest1_eq]; simp only [scM1_0, scM1_1, owns_whole]
  refine BI.equiv_iff.mp ⟨?_, ?_⟩
  · change BIBase.Entails (PROP := sProp 𝕄) _ _
    iintro ⟨⟨A0, A1, A2, A3, A4, S0, S1, B0, B1, B2, B3, B4, B5, B6, B7, B8⟩, Hg⟩
    isplitr [Hg]
    · isplitl [S0]; · iexact S0
      isplitl [S1]; · iexact S1
      isplitl [A0]; · iexact A0
      isplitl [A1]; · iexact A1
      isplitl [A2]; · iexact A2
      isplitl [A3]; · iexact A3
      isplitl [A4]; · iexact A4
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact Hg
  · change BIBase.Entails (PROP := sProp 𝕄) _ _
    iintro ⟨⟨S0, S1, A0, A1, A2, A3, A4, B0, B1, B2, B3, B4, B5, B6, B7, B8⟩, Hg⟩
    isplitr [Hg]
    · isplitl [A0]; · iexact A0
      isplitl [A1]; · iexact A1
      isplitl [A2]; · iexact A2
      isplitl [A3]; · iexact A3
      isplitl [A4]; · iexact A4
      isplitl [S0]; · iexact S0
      isplitl [S1]; · iexact S1
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact Hg

end Cert.Kernel.Hand

end
-- ==== Proof.K.Reg1RunA.lean ====
import proofs.«157023_j2937757631000_1_alg».proof.Proof.K.Reg1Runs

-- membership in a rectangle of these extents is decided structurally, once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at the first point

Both running rows are cleared, then read back and the block's column sums added; the output rows are not touched. -/

set_option maxHeartbeats 1000000 in
/-- What the body's stores leave in the two running rows at the first point, as pieces (last first), with the proof
    that on whole memrefs — the inputs' at their contents `x0`, `x1`, the two output rows' at contents handed back
    untouched, the running rows at anything — the body runs to a continuation holding the inputs' as they were, the
    output rows' as they were and each running row with its pieces written. -/
noncomputable def kernelRun1_A (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) :
    Σ' (LS0 : List (View.Piece (Elt F) S1x256 .f32)), { LS1 : List (View.Piece (Elt F) S1x256 .f32) //
      ∀ (xi2 xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.Reg1RunB.lean ====
import proofs.«157023_j2937757631000_1_alg».proof.Proof.K.Reg1RunA

-- membership in a rectangle of these extents is decided structurally, once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at a middle point

Neither branch is taken: each running row is read and the block's column sums added to it; the output rows are not
touched. -/

set_option maxHeartbeats 1000000 in
/-- What the body's stores leave in the two running rows at a middle point, as pieces (last first), with the proof
    that on whole memrefs — the inputs' at their contents `x0`, `x1`, the two output rows' at contents handed back
    untouched, the running rows at what the point before left (`xs0`, `xs1`) — the body runs to a continuation holding
    the inputs' as they were, the output rows' as they were and each running row with its pieces written. -/
noncomputable def kernelRun1_B (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) :
    Σ' (LS0 : List (View.Piece (Elt F) S1x256 .f32)), { LS1 : List (View.Piece (Elt F) S1x256 .f32) //
      ∀ (xi2 xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.Reg1RunC.lean ====
import proofs.«157023_j2937757631000_1_alg».proof.Proof.K.Reg1RunB

-- membership in a rectangle of these extents is decided structurally, once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at the last point

The first branch is not taken, the second is: each running row is read and the block's column sums added to it, then
each is copied to its output row. -/

set_option maxHeartbeats 1000000 in
/-- What the body's stores leave in the two output rows and the two running rows at the last point, as pieces (last
    first), with the proof that on whole memrefs — the inputs' at their contents `x0`, `x1`, the output rows' at
    anything, the running rows at what the point before left (`xs0`, `xs1`) — the body runs to a continuation holding
    the inputs' as they were and each output row and each running row with its pieces written. -/
noncomputable def kernelRun1_C (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) :
    Σ' (L2 : List (View.Piece (Elt F) S1x256 .f32)) (L3 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.Reg1.lean ====
import proofs.«157023_j2937757631000_1_alg».proof.Proof.K.Reg1RunC

-- membership in a rectangle of these extents is decided structurally, once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-statistics region at the contents it is entered with

Everything below is stated at a parameter `V`: what the core's buffers hold when the region is entered. The region
reads the aggregated features (50000 rows, in 10 blocks of 5000) and the bias row, keeps two running rows between
grid points — the column sums and the column sums of squares of `features + bias` over the blocks seen so far — and
writes them to its two output rows at the last point. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, fetched there or not: its block index never
    moves, so what the first point fetched is still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the running rows and the output rows -/

/-- At the first point the pieces stored into the running sum row cover it (each is the whole row). -/
theorem scover1_A_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) (y : S1x256.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x256.size (by sl_kernel_rfl) y

/-- What the first point leaves in the running sum row: its pieces read back. -/
def sout1_A_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) : Vec F S1x256 .f32 :=
  VS1_0.read (Elt F) (VS1_0.writes (Elt F) VS1_0.junk (kernelRun1_A c i arg1 harg1 arg2 harg2 arg3 harg3 arg4 harg4 arg5 harg5 arg6 harg6 hc0 hc1 x0 x1).1)

/-- At the first point the pieces stored into the running sum-of-squares row cover it. -/
theorem scover1_A_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) (y : S1x256.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x256.size (by sl_kernel_rfl) y

/-- What the first point leaves in the running sum-of-squares row. -/
def sout1_A_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) : Vec F S1x256 .f32 :=
  VS1_1.read (Elt F) (VS1_1.writes (Elt F) VS1_1.junk (kernelRun1_A c i arg1 harg1 arg2 harg2 arg3 harg3 arg4 harg4 arg5 harg5 arg6 harg6 hc0 hc1 x0 x1).2.1)

/-- At a middle point the piece stored into the running sum row covers it. -/
theorem scover1_B_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) (y : S1x256.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x256.size (by sl_kernel_rfl) y

/-- What a middle point leaves in the running sum row. -/
def sout1_B_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) : Vec F S1x256 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)

/-- At a middle point the piece stored into the running sum-of-squares row covers it. -/
theorem scover1_B_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) (y : S1x256.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x256.size (by sl_kernel_rfl) y

/-- What a middle point leaves in the running sum-of-squares row. -/
def sout1_B_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) : Vec F S1x256 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

/-- At the last point the piece stored into the first output row covers it. -/
theorem cover1_C_2 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x256.size (by sl_kernel_rfl) y

/-- What the last point leaves in the first output row's staging buffer. -/
def out1_C_2 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- At the last point the piece stored into the second output row covers it. -/
theorem cover1_C_3 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x256.size (by sl_kernel_rfl) y

/-- What the last point leaves in the second output row's staging buffer. -/
def out1_C_3 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- At the last point the piece stored into the running sum row covers it. -/
theorem scover1_C_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x256.size (by sl_kernel_rfl) y

/-- What the last point leaves in the running sum row. -/
def sout1_C_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- At the last point the piece stored into the running sum-of-squares row covers it. -/
theorem scover1_C_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x256.size (by sl_kernel_rfl) y

/-- What the last point leaves in the running sum-of-squares row. -/
def sout1_C_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the rows hold after each point -/

/-- THE ACCUMULATION. After the body at position `n`: (first output row, second output row, running sum row, running
    sum-of-squares row). The first point starts from nothing; every later point runs over what the point before left
    in the two running rows. Away from the last point the output rows are idle (neither stored into nor written
    back), and their two components just repeat the running rows; nothing reads them there. -/
def outsAt1 (c : Dev nD) : (n : ℕ) → n < cfg1.N → Vec F S1x256 .f32 × Vec F S1x256 .f32 × Vec F S1x256 .f32 × Vec F S1x256 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 9 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 9) :
    outsAt1 V c t.val t.isLt = (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 9) :
    outsAt1 V c t.val t.isLt = (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 9) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point what the launch hands over (both running rows
    at anything); afterwards the two running rows at what the point before left in them, the other regions' scoped
    buffers at anything and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the running rows at that point's contents. -/
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ others1 (F := F) c) ∗ (∃ r, prngReg c r)) := rfl

/-- Before a point that is not the first: the running rows at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ others1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output rows' at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is the first, a middle one or the last,
    so the matching run applies; the invariant hands the body the two running rows at what the point before left
    (at anything at the first point) and takes them back at this point's contents; the output rows pass through
    untouched except at the last point, where they are stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 10 := lt_of_lt_of_eq t.isLt (show cfg1.N = 10 from N_1)
  by_cases h0 : t.val = 0
  · have h1 : ¬t.val = 9 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1; (try dsimp only)
    rw [PhiS1_castSucc V c t, PhiS1_zero V c _ _ h0, PhiA1_eq]
    iintro ⟨⟨⟨HS0, HS1, Hoth⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        iexact Hoth
      iexact Hg
    isplitl [Ho]; · iexact Ho
    isplitl [H0]; · iexact H0
    isplitl [H1]; · iexact H1
    isplitl [H2]; · iexists _; iexact H2
    iexists _; iexact H3
  · by_cases h1 : t.val = 9
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      rw [PhiS1_castSucc V c t, PhiS1_pos V c _ _ h0]
      iintro ⟨⟨⟨HS0, HS1, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ h0]
      iintro ⟨⟨⟨HS0, HS1, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the running rows' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitr [Hg]
  · isplitl [HS0]; · iexists _; iexact HS0
    isplitl [HS1]; · iexists _; iexact HS1
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.K.Reg2.lean ====
import proofs.«157023_j2937757631000_1_alg».proof.Proof.Gen.Kernel.Launch
import proofs.«157023_j2937757631000_1_alg».proof.Proof.Gen.Kernel.Skeleton
import proofs.«157023_j2937757631000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: normalise, scale, shift and clamp at zero, block by block (pipeline 2), at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the window is not fetched its block
    index has not moved since the point before, so the block kept there is the block here. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the point before, so the block kept there is the block here. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the point before, so the block kept there is the block here. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where the window is not fetched its block
    index has not moved since the point before, so the block kept there is the block here. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where the window is not fetched its block
    index has not moved since the point before, so the block kept there is the block here. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: where the window is not fetched its block
    index has not moved since the point before, so the block kept there is the block here. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x256 := Rect.unit (s := S5000x256) ![0, 0] S5000x256.size inb_S5000x256_S5000x256_0_0
abbrev r2_1 : Rect S1x256 := Rect.unit (s := S1x256) ![0, 0] S1x256.size inb_S1x256_S1x256_0_0

/-! ## What the body leaves in the output window's buffer -/

/-- Window 6's staging buffer after the body, from the input windows' blocks in window order (the rows, the bias,
    the mean, the reciprocal deviation, the scale, the shift): its one store, over the whole buffer. The payload
    takes its row operands in the order the body loads them: bias, scale, mean, reciprocal deviation, shift. -/
def out2_6 (x0 : Vec F S5000x256 .f32) (x1 x2 x3 x4 x5 : Vec F S1x256 .f32) : Vec F S5000x256 .f32 :=
  View.canon [⟨r2_0, k2_pay1 (View.ld x0 r2_0) (View.ld x1 r2_1) (View.ld x4 r2_1) (View.ld x2 r2_1) (View.ld x3 r2_1) (View.ld x5 r2_1)⟩]

/-- The store's rectangle is the whole buffer, so it covers it. -/
theorem cover2_6 (p0 : Vec F S5000x256 .f32) (y : S5000x256.Idx) :
    ∃ pc ∈ ([⟨r2_0, p0⟩] : List (View.Piece (Elt F) S5000x256 .f32)), y ∈ pc.1.set :=
  View.cover_of_tiled [⟨r2_0, p0⟩] S5000x256.size (by rfl) y

/-! ## The body's triple -/

set_option maxHeartbeats 4000000 in
/-- The kernel body on whole staging memrefs, the inputs' at read contents `x0` … `x5` and the output's at anything,
    runs to the continuation holding the inputs' as they were and the output's at `out2_6` of the inputs'. -/
theorem sound_kernel2 (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S5000x256 .f32) (harg7 : arg7.IsWhole)
    (x0 : Vec F S5000x256 .f32) (x1 x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at `out2_6` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The kernel program's run, from the launch to the return, with every buffer's final contents named.

  The program is three pipelined regions among four stretches of host operations. The contents of a core's unscoped
  buffers at each of the eight boundaries are a fold from the launch memory: a host stretch applies its operations
  in order; a region leaves each of its arrays at what its write-backs leave (an input as it was entered) and every
  other buffer as it was entered. Each region is entered from the state "every unscoped buffer held whole at the
  boundary's contents, the generator register at some state, nothing owed" and left at the next boundary's; the
  regions' body obligations and invariants are those of the three region modules. The run's post says that every
  unscoped buffer ends at the last boundary's contents; the argument arrays, which no stretch and no region writes,
  read back through the fold to the launch memory, and the result array is what the last region's write-backs leave.
-/
import proofs.«157023_j2937757631000_1_alg».proof.Proof.Gen.Kernel.Regions
import proofs.«157023_j2937757631000_1_alg».proof.Proof.K.Reg0
import proofs.«157023_j2937757631000_1_alg».proof.Proof.K.Reg1
import proofs.«157023_j2937757631000_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: region 0 is entered from them (no host operation comes before it). -/
abbrev Bd0 : Dev nD → Valuation τ sig (Elt F) := fun c b => (s₀ m ρ).mem ((c : Dev nD), b)
/-- The same read at the TensorCore's references. -/
abbrev En0 : (c : Dev nD) → (b : Ref sig .tc) → Buf (Elt F) ((c : Thread nD τ).loc b) := fun c b => Bd0 m ρ c b

/-- At region 0's exit: its arrays at what the pipeline leaves (an input as entered, an output's write-backs folded), every
    other buffer as entered. -/
def Bd1 (c : Dev nD) : Valuation τ sig (Elt F) :=
  Pipeline.withArrays spec0 c (Bd0 m ρ c) fun w => (dat0 (En0 m ρ) c).arrAt w cfg0.N
theorem Bd1_arr (c : Dev nD) (w : Fin cfg0.W) :
    Bd1 m ρ c (Proc.devRef .tc (Pipeline.arrRef spec0 w)) = (dat0 (En0 m ρ) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m ρ c (Proc.devRef .tc b) = Bd0 m ρ c (Proc.devRef .tc b) := by
  unfold Bd1; exact Pipeline.withArrays_of_ne spec0 c _ _ b hb
/-- The same read at the TensorCore's references. -/
abbrev Ex1 : (c : Dev nD) → (b : Ref sig .tc) → Buf (Elt F) ((c : Thread nD τ).loc b) := fun c b => Bd1 m ρ c b
theorem hF0 (c : Dev nD) (w : Fin cfg0.W) : (dat0 (En0 m ρ) c).arrAt w cfg0.N = Ex1 m ρ c (Pipeline.arrRef spec0 w) :=
  (Bd1_arr m ρ c w).symm
theorem hrest0 (c : Dev nD) : ∀ b, b ∉ Finset.univ.image (Pipeline.arrRef spec0) → Ex1 m ρ c b = En0 m ρ c b :=
  fun b hb => Bd1_of_ne m ρ c b fun w e => hb (Finset.mem_image.mpr ⟨w, Finset.mem_univ _, e⟩)

/-- After the three host stretches between regions 0 and 1. -/
abbrev Bd2 : Dev nD → Valuation τ sig (Elt F) := fun c => StableHlo.after hostOps1 (Bd1 m ρ c)
abbrev Bd3 : Dev nD → Valuation τ sig (Elt F) := fun c => StableHlo.after hostOps1_1 (Bd2 m ρ c)
abbrev Bd4 : Dev nD → Valuation τ sig (Elt F) := fun c => StableHlo.after hostOps1_2 (Bd3 m ρ c)
abbrev En4 : (c : Dev nD) → (b : Ref sig .tc) → Buf (Elt F) ((c : Thread nD τ).loc b) := fun c b => Bd4 m ρ c b

/-- At region 1's exit: its arrays at what the pipeline leaves (an input as entered, an output's write-backs folded), every
    other buffer as entered. -/
def Bd5 (c : Dev nD) : Valuation τ sig (Elt F) :=
  Pipeline.withArrays spec1 c (Bd4 m ρ c) fun w => (dat1 (En4 m ρ) c).arrAt w cfg1.N
theorem Bd5_arr (c : Dev nD) (w : Fin cfg1.W) :
    Bd5 m ρ c (Proc.devRef .tc (Pipeline.arrRef spec1 w)) = (dat1 (En4 m ρ) c).arrAt w cfg1.N := by
  unfold Bd5; exact Pipeline.withArrays_arr spec1 launch1.win.arr_inj c _ _ w
theorem Bd5_of_ne (c : Dev nD) (b : Ref sig .tc) (hb : ∀ w, Pipeline.arrRef spec1 w ≠ b) :
    Bd5 m ρ c (Proc.devRef .tc b) = Bd4 m ρ c (Proc.devRef .tc b) := by
  unfold Bd5; exact Pipeline.withArrays_of_ne spec1 c _ _ b hb
/-- The same read at the TensorCore's references. -/
abbrev Ex5 : (c : Dev nD) → (b : Ref sig .tc) → Buf (Elt F) ((c : Thread nD τ).loc b) := fun c b => Bd5 m ρ c b
theorem hF1 (c : Dev nD) (w : Fin cfg1.W) : (dat1 (En4 m ρ) c).arrAt w cfg1.N = Ex5 m ρ c (Pipeline.arrRef spec1 w) :=
  (Bd5_arr m ρ c w).symm
theorem hrest1 (c : Dev nD) : ∀ b, b ∉ Finset.univ.image (Pipeline.arrRef spec1) → Ex5 m ρ c b = En4 m ρ c b :=
  fun b hb => Bd5_of_ne m ρ c b fun w e => hb (Finset.mem_image.mpr ⟨w, Finset.mem_univ _, e⟩)

/-- After the host stretch between regions 1 and 2. -/
abbrev Bd6 : Dev nD → Valuation τ sig (Elt F) := fun c => StableHlo.after hostOps2 (Bd5 m ρ c)
abbrev En6 : (c : Dev nD) → (b : Ref sig .tc) → Buf (Elt F) ((c : Thread nD τ).loc b) := fun c b => Bd6 m ρ c b

/-- At region 2's exit: its arrays at what the pipeline leaves (an input as entered, an output's write-backs folded), every
    other buffer as entered. -/
def Bd7 (c : Dev nD) : Valuation τ sig (Elt F) :=
  Pipeline.withArrays spec2 c (Bd6 m ρ c) fun w => (dat2 (En6 m ρ) c).arrAt w cfg2.N
theorem Bd7_arr (c : Dev nD) (w : Fin cfg2.W) :
    Bd7 m ρ c (Proc.devRef .tc (Pipeline.arrRef spec2 w)) = (dat2 (En6 m ρ) c).arrAt w cfg2.N := by
  unfold Bd7; exact Pipeline.withArrays_arr spec2 launch2.win.arr_inj c _ _ w
theorem Bd7_of_ne (c : Dev nD) (b : Ref sig .tc) (hb : ∀ w, Pipeline.arrRef spec2 w ≠ b) :
    Bd7 m ρ c (Proc.devRef .tc b) = Bd6 m ρ c (Proc.devRef .tc b) := by
  unfold Bd7; exact Pipeline.withArrays_of_ne spec2 c _ _ b hb
/-- The same read at the TensorCore's references. -/
abbrev Ex7 : (c : Dev nD) → (b : Ref sig .tc) → Buf (Elt F) ((c : Thread nD τ).loc b) := fun c b => Bd7 m ρ c b
theorem hF2 (c : Dev nD) (w : Fin cfg2.W) : (dat2 (En6 m ρ) c).arrAt w cfg2.N = Ex7 m ρ c (Pipeline.arrRef spec2 w) :=
  (Bd7_arr m ρ c w).symm
theorem hrest2 (c : Dev nD) : ∀ b, b ∉ Finset.univ.image (Pipeline.arrRef spec2) → Ex7 m ρ c b = En6 m ρ c b :=
  fun b hb => Bd7_of_ne m ρ c b fun w e => hb (Finset.mem_image.mpr ⟨w, Finset.mem_univ _, e⟩)

/-! ## The arguments end as launched -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := Bd7_of_ne m ρ c main_arg0 (by decide)
    _ = Bd5 m ρ c (Proc.devRef .tc main_arg0) := StableHlo.after_of_writes_sub hostOps2 _ Gen.hostOps2_writes (by decide)
    _ = Bd4 m ρ c (Proc.devRef .tc main_arg0) := Bd5_of_ne m ρ c main_arg0 (by decide)
    _ = Bd3 m ρ c (Proc.devRef .tc main_arg0) := StableHlo.after_of_writes_sub hostOps1_2 _ Gen.hostOps1_2_writes (by decide)
    _ = Bd2 m ρ c (Proc.devRef .tc main_arg0) := StableHlo.after_of_writes_sub hostOps1_1 _ Gen.hostOps1_1_writes (by decide)
    _ = Bd1 m ρ c (Proc.devRef .tc main_arg0) := StableHlo.after_of_writes_sub hostOps1 _ Gen.hostOps1_writes (by decide)
    _ = Bd0 m ρ c (Proc.devRef .tc main_arg0) := (Bd1_arr m ρ c 0).trans (((dat0 (En0 m ρ) c).arrAt_in 0 rfl _).trans (A_eq0 (En0 m ρ) c 0))
    _ = m ((c : Thread nD τ).loc main_arg0) := rfl

theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := Bd7_of_ne m ρ c main_arg1 (by decide)
    _ = Bd5 m ρ c (Proc.devRef .tc main_arg1) := StableHlo.after_of_writes_sub hostOps2 _ Gen.hostOps2_writes (by decide)
    _ = Bd4 m ρ c (Proc.devRef .tc main_arg1) := Bd5_of_ne m ρ c main_arg1 (by decide)
    _ = Bd3 m ρ c (Proc.devRef .tc main_arg1) := StableHlo.after_of_writes_sub hostOps1_2 _ Gen.hostOps1_2_writes (by decide)
    _ = Bd2 m ρ c (Proc.devRef .tc main_arg1) := StableHlo.after_of_writes_sub hostOps1_1 _ Gen.hostOps1_1_writes (by decide)
    _ = Bd1 m ρ c (Proc.devRef .tc main_arg1) := StableHlo.after_of_writes_sub hostOps1 _ Gen.hostOps1_writes (by decide)
    _ = Bd0 m ρ c (Proc.devRef .tc main_arg1) := Bd1_of_ne m ρ c main_arg1 (by decide)
    _ = m ((c : Thread nD τ).loc main_arg1) := rfl

theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := Bd7_of_ne m ρ c main_arg2 (by decide)
    _ = Bd5 m ρ c (Proc.devRef .tc main_arg2) := StableHlo.after_of_writes_sub hostOps2 _ Gen.hostOps2_writes (by decide)
    _ = Bd4 m ρ c (Proc.devRef .tc main_arg2) := Bd5_of_ne m ρ c main_arg2 (by decide)
    _ = Bd3 m ρ c (Proc.devRef .tc main_arg2) := StableHlo.after_of_writes_sub hostOps1_2 _ Gen.hostOps1_2_writes (by decide)
    _ = Bd2 m ρ c (Proc.devRef .tc main_arg2) := StableHlo.after_of_writes_sub hostOps1_1 _ Gen.hostOps1_1_writes (by decide)
    _ = Bd1 m ρ c (Proc.devRef .tc main_arg2) := StableHlo.after_of_writes_sub hostOps1 _ Gen.hostOps1_writes (by decide)
    _ = Bd0 m ρ c (Proc.devRef .tc main_arg2) := (Bd1_arr m ρ c 1).trans (((dat0 (En0 m ρ) c).arrAt_in 1 rfl _).trans (A_eq0 (En0 m ρ) c 1))
    _ = m ((c : Thread nD τ).loc main_arg2) := rfl

theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := Bd7_of_ne m ρ c main_arg3 (by decide)
    _ = Bd5 m ρ c (Proc.devRef .tc main_arg3) := StableHlo.after_of_writes_sub hostOps2 _ Gen.hostOps2_writes (by decide)
    _ = Bd4 m ρ c (Proc.devRef .tc main_arg3) := Bd5_of_ne m ρ c main_arg3 (by decide)
    _ = Bd3 m ρ c (Proc.devRef .tc main_arg3) := StableHlo.after_of_writes_sub hostOps1_2 _ Gen.hostOps1_2_writes (by decide)
    _ = Bd2 m ρ c (Proc.devRef .tc main_arg3) := StableHlo.after_of_writes_sub hostOps1_1 _ Gen.hostOps1_1_writes (by decide)
    _ = Bd1 m ρ c (Proc.devRef .tc main_arg3) := StableHlo.after_of_writes_sub hostOps1 _ Gen.hostOps1_writes (by decide)
    _ = Bd0 m ρ c (Proc.devRef .tc main_arg3) := Bd1_of_ne m ρ c main_arg3 (by decide)
    _ = m ((c : Thread nD τ).loc main_arg3) := rfl

theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := Bd7_of_ne m ρ c main_arg4 (by decide)
    _ = Bd5 m ρ c (Proc.devRef .tc main_arg4) := StableHlo.after_of_writes_sub hostOps2 _ Gen.hostOps2_writes (by decide)
    _ = Bd4 m ρ c (Proc.devRef .tc main_arg4) := Bd5_of_ne m ρ c main_arg4 (by decide)
    _ = Bd3 m ρ c (Proc.devRef .tc main_arg4) := StableHlo.after_of_writes_sub hostOps1_2 _ Gen.hostOps1_2_writes (by decide)
    _ = Bd2 m ρ c (Proc.devRef .tc main_arg4) := StableHlo.after_of_writes_sub hostOps1_1 _ Gen.hostOps1_1_writes (by decide)
    _ = Bd1 m ρ c (Proc.devRef .tc main_arg4) := StableHlo.after_of_writes_sub hostOps1 _ Gen.hostOps1_writes (by decide)
    _ = Bd0 m ρ c (Proc.devRef .tc main_arg4) := Bd1_of_ne m ρ c main_arg4 (by decide)
    _ = m ((c : Thread nD τ).loc main_arg4) := rfl

theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := Bd7_of_ne m ρ c main_arg5 (by decide)
    _ = Bd5 m ρ c (Proc.devRef .tc main_arg5) := StableHlo.after_of_writes_sub hostOps2 _ Gen.hostOps2_writes (by decide)
    _ = Bd4 m ρ c (Proc.devRef .tc main_arg5) := Bd5_of_ne m ρ c main_arg5 (by decide)
    _ = Bd3 m ρ c (Proc.devRef .tc main_arg5) := StableHlo.after_of_writes_sub hostOps1_2 _ Gen.hostOps1_2_writes (by decide)
    _ = Bd2 m ρ c (Proc.devRef .tc main_arg5) := StableHlo.after_of_writes_sub hostOps1_1 _ Gen.hostOps1_1_writes (by decide)
    _ = Bd1 m ρ c (Proc.devRef .tc main_arg5) := StableHlo.after_of_writes_sub hostOps1 _ Gen.hostOps1_writes (by decide)
    _ = Bd0 m ρ c (Proc.devRef .tc main_arg5) := Bd1_of_ne m ρ c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (En0 m ρ) c
  | ⟨1, _⟩ => fun c => dat1 (En4 m ρ) c
  | ⟨2, _⟩ => fun c => dat2 (En6 m ρ) c
/-- No core owes another anything: no level is assigned. -/
abbrev Lnone : GSem nD τ sig → Finset Unit := fun _ => ∅
abbrev lvl0 : GSem nD τ sig → Unit → ℕ := fun _ _ => 0
/-- What rides beside the buffers through every segment: the generator register at some state and the core's dues, at nothing. -/
abbrev Rst (c : Dev nD) : sProp 𝕄 := iprop((∃ r, prngReg c r) ∗ ∃ W, owes (c : Thread nD τ) (0 : CellTallies nD τ sig Unit) W)
/-- A host stretch as a segment over the unscoped references from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tlast (c : Dev nD) : sProp 𝕄 := iprop(StableHlo.held (c : Thread nD τ) (Pipeline.ucRefs τ sig) (Bd7 m ρ c) ∗ ∃ r, prngReg c r)

/-! ## The regions as segments -/

set_option backward.isDefEq.respectTransparency.types false in
/-- Region 0 over the thread state: its arrays are split out of the unscoped buffers at the entry contents and put back at
    the exit contents; the generator register goes into the region's invariant and comes back; nothing is owed; the kernel has
    no semaphore of its own. -/
def reg0 : Pipeline.RegionSeg (pcfgs (F := F)) Gen.adm (pdats m ρ) () defs₀ Variants.none Lnone lvl0 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Lnone lvl0 0 fun _ _ => rfl
  pre c := iprop(StableHlo.held (c : Thread nD τ) (Pipeline.ucRefs τ sig) (Bd0 m ρ c) ∗ Rst c)
  post c := iprop(StableHlo.held (c : Thread nD τ) (Pipeline.ucRefs τ sig) (Bd1 m ρ c) ∗ Rst c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (En0 m ρ c) (Ex1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at the entry contents and put back at
    the exit contents; the generator register goes into the region's invariant and comes back; nothing is owed; the kernel has
    no semaphore of its own. -/
def reg1 : Pipeline.RegionSeg (pcfgs (F := F)) Gen.adm (pdats m ρ) () defs₀ Variants.none Lnone lvl0 1 where
  win := launch1.win.to₀
  block_pos := launch1.block_pos
  stage_whole := launch1.stage_whole
  K := PEmpty
  osem k := k.elim
  ho := Pipeline.OwnSemFacts.none _
  hbody c := (body_obligation1 (En4 m ρ) c).loose
  hwaits := Pipeline.hwaits_of_owed_zero _ _ _ _ Lnone lvl0 1 fun _ _ => rfl
  pre c := iprop(StableHlo.held (c : Thread nD τ) (Pipeline.ucRefs τ sig) (Bd4 m ρ c) ∗ Rst c)
  post c := iprop(StableHlo.held (c : Thread nD τ) (Pipeline.ucRefs τ sig) (Bd5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (En4 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En4 m ρ) c)
    unfold Pipeline.ΦA
    iintro ⟨Hp, -, Hr⟩
    isplitl [Hr]; · iexact Hr
    iexact Hp
  hout c := by
    rw [Pipeline.ownSems0_none]
    refine BIBase.Entails.trans (hout1 (En4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (En4 m ρ c) (Ex5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at the entry contents and put back at
    the exit contents; the generator register goes into the region's invariant and comes back; nothing is owed; the kernel has
    no semaphore of its own. -/
def reg2 : Pipeline.RegionSeg (pcfgs (F := F)) Gen.adm (pdats m ρ) () defs₀ Variants.none Lnone lvl0 2 where
  win := launch2.win.to₀
  block_pos := launch2.block_pos
  stage_whole := launch2.stage_whole
  K := PEmpty
  osem k := k.elim
  ho := Pipeline.OwnSemFacts.none _
  hbody c := (body_obligation2 (En6 m ρ) c).loose
  hwaits := Pipeline.hwaits_of_owed_zero _ _ _ _ Lnone lvl0 2 fun _ _ => rfl
  pre c := iprop(StableHlo.held (c : Thread nD τ) (Pipeline.ucRefs τ sig) (Bd6 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (En6 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (En6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (En6 m ρ c) (Ex7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) Gen.adm (pdats m ρ) () defs₀ Variants.none Lnone lvl0) :=
  [ .region (reg0 m ρ),
    .host (hostSeg hostOps1 hostOps1_sub Gen.hostOps1_fresh (Bd1 m ρ)),
    .host (hostSeg hostOps1_1 hostOps1_1_sub Gen.hostOps1_1_fresh (Bd2 m ρ)),
    .host (hostSeg hostOps1_2 hostOps1_2_sub Gen.hostOps1_2_fresh (Bd3 m ρ)),
    .region (reg1 m ρ),
    .host (hostSeg hostOps2 hostOps2_sub Gen.hostOps2_fresh (Bd5 m ρ)),
    .region (reg2 m ρ) ]
theorem main_run (c : Dev nD) : main (F := F) c = Pipeline.Seg.run (segsH m ρ) := (main_chain c).trans (by chain_rfl)

set_option backward.isDefEq.respectTransparency.types false in
/-- Every weakly fair execution of the program from the memory m with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) Gen.adm (pdats m ρ) () cellOf_inj emb₁ defs₀ Variants.none Lnone lvl0 m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tlast m ρ)
    (hch := ⟨fun _ => .rfl, fun _ => .rfl, fun _ => .rfl, fun _ => .rfl, fun _ => .rfl, fun _ => .rfl, fun _ => .rfl, fun _ => .rfl⟩)
    (hinit := by
      refine Pipeline.initEach Lnone lvl0 fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Bd7_main_arg0 m ρ c),
     (h c _ (mem_uc main_arg1 (by decide))).trans (Bd7_main_arg1 m ρ c),
     (h c _ (mem_uc main_arg2 (by decide))).trans (Bd7_main_arg2 m ρ c),
     (h c _ (mem_uc main_arg3 (by decide))).trans (Bd7_main_arg3 m ρ c),
     (h c _ (mem_uc main_arg4 (by decide))).trans (Bd7_main_arg4 m ρ c),
     (h c _ (mem_uc main_arg5 (by decide))).trans (Bd7_main_arg5 m ρ c)⟩) (run_all m ρ)

/-- The run with the result named: the result array ends at what region 2's write-backs leave, the arguments as launched. -/
theorem run_value : θ_run defs (onTc (τ := τ) (main (F := F))) ⟨m, fun _ => 0, ρ⟩ (fun r => ∀ c : Dev nD,
      r.2.mem ((c.tc : Thread nD τ).loc main_v58) = (dat2 (En6 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v58 (by decide))).trans (Bd7_arr m ρ c 6),
     (h c _ (mem_uc main_arg0 (by decide))).trans (Bd7_main_arg0 m ρ c),
     (h c _ (mem_uc main_arg1 (by decide))).trans (Bd7_main_arg1 m ρ c),
     (h c _ (mem_uc main_arg2 (by decide))).trans (Bd7_main_arg2 m ρ c),
     (h c _ (mem_uc main_arg3 (by decide))).trans (Bd7_main_arg3 m ρ c),
     (h c _ (mem_uc main_arg4 (by decide))).trans (Bd7_main_arg4 m ρ c),
     (h c _ (mem_uc main_arg5 (by decide))).trans (Bd7_main_arg5 m ρ c)⟩) (run_all m ρ)

end Cert.Kernel.Hand

end
-- ==== Proof.KI.Reg0.lean ====
import proofs.«157023_j2937757631000_1_alg».proof.Proof.Gen.KernelIdeal.Launch
import proofs.«157023_j2937757631000_1_alg».proof.Proof.Gen.KernelIdeal.Skeleton
import proofs.«157023_j2937757631000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection `x · Wᵀ` block by block (pipeline 0), at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the point before, so the block kept there is the block here. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block kept there is the block here. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x256 := Rect.unit (s := S5000x256) ![0, 0] S5000x256.size inb_S5000x256_S5000x256_0_0
abbrev r0_1 : Rect S256x256 := Rect.unit (s := S256x256) ![0, 0] S256x256.size inb_S256x256_S256x256_0_0

/-! ## What the body leaves in the output window's buffer -/

/-- Window 2's staging buffer after the body, from the input windows' blocks: its one store, of the rounded
    product of the rounded row block with the rounded weight matrix, over the whole buffer. -/
def out0_2 (x0 : Vec F S5000x256 .f32) (x1 : Vec F S256x256 .f32) : Vec F S5000x256 .bf16 :=
  View.canon [⟨r0_0, k0_pay1 (View.ld x0 r0_0) (View.ld x1 r0_1)⟩]

/-- The store's rectangle is the whole buffer, so it covers it. -/
theorem cover0_2 (p0 : Vec F S5000x256 .bf16) (y : S5000x256.Idx) :
    ∃ pc ∈ ([⟨r0_0, p0⟩] : List (View.Piece (Elt F) S5000x256 .bf16)), y ∈ pc.1.set :=
  View.cover_of_tiled [⟨r0_0, p0⟩] S5000x256.size (by rfl) y

/-! ## The body's triple -/

set_option maxHeartbeats 4000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S5000x256 .f32) (harg1 : arg1.IsWhole) (arg2 : Memref sig .tc .vmem S256x256 .f32) (harg2 : arg2.IsWhole) (arg3 : Memref sig .tc .vmem S5000x256 .bf16) (harg3 : arg3.IsWhole)
    (x0 : Vec F S5000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
import proofs.«157023_j2937757631000_1_alg».proof.Proof.Gen.KernelIdeal.Launch
import proofs.«157023_j2937757631000_1_alg».proof.Proof.Gen.KernelIdeal.Skeleton
import proofs.«157023_j2937757631000_1_alg».proof.Proof.Gen.KernelIdeal.Points
import Idealize.ShloMosaic.Lib.Pipeline.FrameBody
import Idealize.ShloMosaic.Lib.Ring
import Idealize.ShloMosaic.Lib.Tactic

-- membership in a rectangle of these extents is decided structurally, once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-statistics region: what its three control cases share

The region walks the 10 row blocks of the aggregated features. Its body branches twice on the grid coordinate:
at the first block it clears the two running rows (sum and sum of squares), at every block it adds the block's
column sums to them, and at the last block it copies them to the two output rows. -/

/-! ## The body's branch conditions -/

/-- The first branch is taken when the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second branch is taken when the grid coordinate is 9. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle: nothing is stored into them, -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
/-- and they are not written back there. -/
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

/-- One staging buffer of each output row, through which its contents are stated (the choice does not matter:
    a covered buffer reads the same through any view of its shape). -/
abbrev VO1_2 : View sig .tc .vmem S1x256 .f32 := (Memref.whole cc1_stg2_0 : Memref sig .tc .vmem S1x256 .f32).view
abbrev VO1_3 : View sig .tc .vmem S1x256 .f32 := (Memref.whole cc1_stg3_0 : Memref sig .tc .vmem S1x256 .f32).view
/-- Each window's current staging memref at point `t`, and its wholeness. -/
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
/-- The two running rows: whole scoped buffers of the kernel's own, passed beside the windows. -/
abbrev scM1_0 : Memref sig .tc .vmem S1x256 .f32 := Memref.whole cc1_scratch0
abbrev scM1_1 : Memref sig .tc .vmem S1x256 .f32 := Memref.whole cc1_scratch1
/-- The same as views: what they hold is stated through these. -/
abbrev VS1_0 : View sig .tc .vmem S1x256 .f32 := scM1_0.view
abbrev VS1_1 : View sig .tc .vmem S1x256 .f32 := scM1_1.view

/-! ## The region's invariant, with the two running rows singled out -/

/-- The core's scoped buffers that belong to the other two regions, each whole at some contents: this region
    never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The invariant the launch hands the region is: the two running rows at some contents, the other regions'
    scoped buffers at some contents, and the generator register at some state. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 (F := F) c) ∗ (∃ r, prngReg c r)) := by
  unfold Pipeline.ΦA others1; rw [scopedRest1_eq]; simp only [scM1_0, scM1_1, owns_whole]
  refine BI.equiv_iff.mp ⟨?_, ?_⟩
  · change BIBase.Entails (PROP := sProp 𝕄) _ _
    iintro ⟨⟨A0, A1, A2, A3, A4, S0, S1, B0, B1, B2, B3, B4, B5, B6, B7, B8⟩, Hg⟩
    isplitr [Hg]
    · isplitl [S0]; · iexact S0
      isplitl [S1]; · iexact S1
      isplitl [A0]; · iexact A0
      isplitl [A1]; · iexact A1
      isplitl [A2]; · iexact A2
      isplitl [A3]; · iexact A3
      isplitl [A4]; · iexact A4
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact Hg
  · change BIBase.Entails (PROP := sProp 𝕄) _ _
    iintro ⟨⟨S0, S1, A0, A1, A2, A3, A4, B0, B1, B2, B3, B4, B5, B6, B7, B8⟩, Hg⟩
    isplitr [Hg]
    · isplitl [A0]; · iexact A0
      isplitl [A1]; · iexact A1
      isplitl [A2]; · iexact A2
      isplitl [A3]; · iexact A3
      isplitl [A4]; · iexact A4
      isplitl [S0]; · iexact S0
      isplitl [S1]; · iexact S1
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact Hg

end Cert.KernelIdeal.Hand

end
-- ==== Proof.KI.Reg1RunA.lean ====
import proofs.«157023_j2937757631000_1_alg».proof.Proof.KI.Reg1Runs

-- membership in a rectangle of these extents is decided structurally, once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at the first point

Both running rows are cleared, then read back and the block's column sums added; the output rows are not touched. -/

set_option maxHeartbeats 1000000 in
/-- What the body's stores leave in the two running rows at the first point, as pieces (last first), with the proof
    that on whole memrefs — the inputs' at their contents `x0`, `x1`, the two output rows' at contents handed back
    untouched, the running rows at anything — the body runs to a continuation holding the inputs' as they were, the
    output rows' as they were and each running row with its pieces written. -/
noncomputable def kernelRun1_A (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) :
    Σ' (LS0 : List (View.Piece (Elt F) S1x256 .f32)), { LS1 : List (View.Piece (Elt F) S1x256 .f32) //
      ∀ (xi2 xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Reg1RunB.lean ====
import proofs.«157023_j2937757631000_1_alg».proof.Proof.KI.Reg1RunA

-- membership in a rectangle of these extents is decided structurally, once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at a middle point

Neither branch is taken: each running row is read and the block's column sums added to it; the output rows are not
touched. -/

set_option maxHeartbeats 1000000 in
/-- What the body's stores leave in the two running rows at a middle point, as pieces (last first), with the proof
    that on whole memrefs — the inputs' at their contents `x0`, `x1`, the two output rows' at contents handed back
    untouched, the running rows at what the point before left (`xs0`, `xs1`) — the body runs to a continuation holding
    the inputs' as they were, the output rows' as they were and each running row with its pieces written. -/
noncomputable def kernelRun1_B (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) :
    Σ' (LS0 : List (View.Piece (Elt F) S1x256 .f32)), { LS1 : List (View.Piece (Elt F) S1x256 .f32) //
      ∀ (xi2 xi3 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Reg1RunC.lean ====
import proofs.«157023_j2937757631000_1_alg».proof.Proof.KI.Reg1RunB

-- membership in a rectangle of these extents is decided structurally, once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's run at the last point

The first branch is not taken, the second is: each running row is read and the block's column sums added to it, then
each is copied to its output row. -/

set_option maxHeartbeats 1000000 in
/-- What the body's stores leave in the two output rows and the two running rows at the last point, as pieces (last
    first), with the proof that on whole memrefs — the inputs' at their contents `x0`, `x1`, the output rows' at
    anything, the running rows at what the point before left (`xs0`, `xs1`) — the body runs to a continuation holding
    the inputs' as they were and each output row and each running row with its pieces written. -/
noncomputable def kernelRun1_C (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) :
    Σ' (L2 : List (View.Piece (Elt F) S1x256 .f32)) (L3 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Reg1.lean ====
import proofs.«157023_j2937757631000_1_alg».proof.Proof.KI.Reg1RunC

-- membership in a rectangle of these extents is decided structurally, once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-statistics region at the contents it is entered with

Everything below is stated at a parameter `V`: what the core's buffers hold when the region is entered. The region
reads the aggregated features (50000 rows, in 10 blocks of 5000) and the bias row, keeps two running rows between
grid points — the column sums and the column sums of squares of `features + bias` over the blocks seen so far — and
writes them to its two output rows at the last point. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, fetched there or not: its block index never
    moves, so what the first point fetched is still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the running rows and the output rows -/

/-- At the first point the pieces stored into the running sum row cover it (each is the whole row). -/
theorem scover1_A_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) (y : S1x256.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x256.size (by sl_kernel_rfl) y

/-- What the first point leaves in the running sum row: its pieces read back. -/
def sout1_A_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) : Vec F S1x256 .f32 :=
  VS1_0.read (Elt F) (VS1_0.writes (Elt F) VS1_0.junk (kernelRun1_A c i arg1 harg1 arg2 harg2 arg3 harg3 arg4 harg4 arg5 harg5 arg6 harg6 hc0 hc1 x0 x1).1)

/-- At the first point the pieces stored into the running sum-of-squares row cover it. -/
theorem scover1_A_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) (y : S1x256.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x256.size (by sl_kernel_rfl) y

/-- What the first point leaves in the running sum-of-squares row. -/
def sout1_A_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S5000x256 .f32) (x1 : Vec F S1x256 .f32) : Vec F S1x256 .f32 :=
  VS1_1.read (Elt F) (VS1_1.writes (Elt F) VS1_1.junk (kernelRun1_A c i arg1 harg1 arg2 harg2 arg3 harg3 arg4 harg4 arg5 harg5 arg6 harg6 hc0 hc1 x0 x1).2.1)

/-- At a middle point the piece stored into the running sum row covers it. -/
theorem scover1_B_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) (y : S1x256.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x256.size (by sl_kernel_rfl) y

/-- What a middle point leaves in the running sum row. -/
def sout1_B_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) : Vec F S1x256 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)

/-- At a middle point the piece stored into the running sum-of-squares row covers it. -/
theorem scover1_B_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) (y : S1x256.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x256.size (by sl_kernel_rfl) y

/-- What a middle point leaves in the running sum-of-squares row. -/
def sout1_B_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i)
    (x0 : Vec F S5000x256 .f32) (x1 : Vec F S1x256 .f32) (xs0 xs1 : Vec F S1x256 .f32) : Vec F S1x256 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

/-- At the last point the piece stored into the first output row covers it. -/
theorem cover1_C_2 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x256.size (by sl_kernel_rfl) y

/-- What the last point leaves in the first output row's staging buffer. -/
def out1_C_2 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- At the last point the piece stored into the second output row covers it. -/
theorem cover1_C_3 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x256.size (by sl_kernel_rfl) y

/-- What the last point leaves in the second output row's staging buffer. -/
def out1_C_3 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- At the last point the piece stored into the running sum row covers it. -/
theorem scover1_C_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x256.size (by sl_kernel_rfl) y

/-- What the last point leaves in the running sum row. -/
def sout1_C_0 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- At the last point the piece stored into the running sum-of-squares row covers it. -/
theorem scover1_C_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) (y : S1x256.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x256.size (by sl_kernel_rfl) y

/-- What the last point leaves in the running sum-of-squares row. -/
def sout1_C_1 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S5000x256 .f32) (x1 : Vec F S1x256 .f32) (xs0 xs1 : Vec F S1x256 .f32) : Vec F S1x256 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the rows hold after each point -/

/-- THE ACCUMULATION. After the body at position `n`: (first output row, second output row, running sum row, running
    sum-of-squares row). The first point starts from nothing; every later point runs over what the point before left
    in the two running rows. Away from the last point the output rows are idle (neither stored into nor written
    back), and their two components just repeat the running rows; nothing reads them there. -/
def outsAt1 (c : Dev nD) : (n : ℕ) → n < cfg1.N → Vec F S1x256 .f32 × Vec F S1x256 .f32 × Vec F S1x256 .f32 × Vec F S1x256 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 9 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 9) :
    outsAt1 V c t.val t.isLt = (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 9) :
    outsAt1 V c t.val t.isLt = (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 9) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point what the launch hands over (both running rows
    at anything); afterwards the two running rows at what the point before left in them, the other regions' scoped
    buffers at anything and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the running rows at that point's contents. -/
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ others1 (F := F) c) ∗ (∃ r, prngReg c r)) := rfl

/-- Before a point that is not the first: the running rows at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ others1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output rows' at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is the first, a middle one or the last,
    so the matching run applies; the invariant hands the body the two running rows at what the point before left
    (at anything at the first point) and takes them back at this point's contents; the output rows pass through
    untouched except at the last point, where they are stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 10 := lt_of_lt_of_eq t.isLt (show cfg1.N = 10 from N_1)
  by_cases h0 : t.val = 0
  · have h1 : ¬t.val = 9 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1; (try dsimp only)
    rw [PhiS1_castSucc V c t, PhiS1_zero V c _ _ h0, PhiA1_eq]
    iintro ⟨⟨⟨HS0, HS1, Hoth⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        iexact Hoth
      iexact Hg
    isplitl [Ho]; · iexact Ho
    isplitl [H0]; · iexact H0
    isplitl [H1]; · iexact H1
    isplitl [H2]; · iexists _; iexact H2
    iexists _; iexact H3
  · by_cases h1 : t.val = 9
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      rw [PhiS1_castSucc V c t, PhiS1_pos V c _ _ h0]
      iintro ⟨⟨⟨HS0, HS1, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ h0]
      iintro ⟨⟨⟨HS0, HS1, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the running rows' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitr [Hg]
  · isplitl [HS0]; · iexists _; iexact HS0
    isplitl [HS1]; · iexists _; iexact HS1
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.Reg2.lean ====
import proofs.«157023_j2937757631000_1_alg».proof.Proof.Gen.KernelIdeal.Launch
import proofs.«157023_j2937757631000_1_alg».proof.Proof.Gen.KernelIdeal.Skeleton
import proofs.«157023_j2937757631000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: normalise, scale, shift and clamp at zero, block by block (pipeline 2), at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the window is not fetched its block
    index has not moved since the point before, so the block kept there is the block here. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the point before, so the block kept there is the block here. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the point before, so the block kept there is the block here. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where the window is not fetched its block
    index has not moved since the point before, so the block kept there is the block here. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where the window is not fetched its block
    index has not moved since the point before, so the block kept there is the block here. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: where the window is not fetched its block
    index has not moved since the point before, so the block kept there is the block here. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x256 := Rect.unit (s := S5000x256) ![0, 0] S5000x256.size inb_S5000x256_S5000x256_0_0
abbrev r2_1 : Rect S1x256 := Rect.unit (s := S1x256) ![0, 0] S1x256.size inb_S1x256_S1x256_0_0

/-! ## What the body leaves in the output window's buffer -/

/-- Window 6's staging buffer after the body, from the input windows' blocks in window order (the rows, the bias,
    the mean, the reciprocal deviation, the scale, the shift): its one store, over the whole buffer. The payload
    takes its row operands in the order the body loads them: bias, scale, mean, reciprocal deviation, shift. -/
def out2_6 (x0 : Vec F S5000x256 .f32) (x1 x2 x3 x4 x5 : Vec F S1x256 .f32) : Vec F S5000x256 .f32 :=
  View.canon [⟨r2_0, k2_pay1 (View.ld x0 r2_0) (View.ld x1 r2_1) (View.ld x4 r2_1) (View.ld x2 r2_1) (View.ld x3 r2_1) (View.ld x5 r2_1)⟩]

/-- The store's rectangle is the whole buffer, so it covers it. -/
theorem cover2_6 (p0 : Vec F S5000x256 .f32) (y : S5000x256.Idx) :
    ∃ pc ∈ ([⟨r2_0, p0⟩] : List (View.Piece (Elt F) S5000x256 .f32)), y ∈ pc.1.set :=
  View.cover_of_tiled [⟨r2_0, p0⟩] S5000x256.size (by rfl) y

/-! ## The body's triple -/

set_option maxHeartbeats 4000000 in
/-- The kernel body on whole staging memrefs, the inputs' at read contents `x0` … `x5` and the output's at anything,
    runs to the continuation holding the inputs' as they were and the output's at `out2_6` of the inputs'. -/
theorem sound_kernel2 (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S5000x256 .f32) (harg7 : arg7.IsWhole)
    (x0 : Vec F S5000x256 .f32) (x1 x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at `out2_6` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The kernel program's run, from the launch to the return, with every buffer's final contents named.

  The program is three pipelined regions among four stretches of host operations. The contents of a core's unscoped
  buffers at each of the eight boundaries are a fold from the launch memory: a host stretch applies its operations
  in order; a region leaves each of its arrays at what its write-backs leave (an input as it was entered) and every
  other buffer as it was entered. Each region is entered from the state "every unscoped buffer held whole at the
  boundary's contents, the generator register at some state, nothing owed" and left at the next boundary's; the
  regions' body obligations and invariants are those of the three region modules. The run's post says that every
  unscoped buffer ends at the last boundary's contents; the argument arrays, which no stretch and no region writes,
  read back through the fold to the launch memory, and the result array is what the last region's write-backs leave.
-/
import proofs.«157023_j2937757631000_1_alg».proof.Proof.Gen.KernelIdeal.Regions
import proofs.«157023_j2937757631000_1_alg».proof.Proof.KI.Reg0
import proofs.«157023_j2937757631000_1_alg».proof.Proof.KI.Reg1
import proofs.«157023_j2937757631000_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: region 0 is entered from them (no host operation comes before it). -/
abbrev Bd0 : Dev nD → Valuation τ sig (Elt F) := fun c b => (s₀ m ρ).mem ((c : Dev nD), b)
/-- The same read at the TensorCore's references. -/
abbrev En0 : (c : Dev nD) → (b : Ref sig .tc) → Buf (Elt F) ((c : Thread nD τ).loc b) := fun c b => Bd0 m ρ c b

/-- At region 0's exit: its arrays at what the pipeline leaves (an input as entered, an output's write-backs folded), every
    other buffer as entered. -/
def Bd1 (c : Dev nD) : Valuation τ sig (Elt F) :=
  Pipeline.withArrays spec0 c (Bd0 m ρ c) fun w => (dat0 (En0 m ρ) c).arrAt w cfg0.N
theorem Bd1_arr (c : Dev nD) (w : Fin cfg0.W) :
    Bd1 m ρ c (Proc.devRef .tc (Pipeline.arrRef spec0 w)) = (dat0 (En0 m ρ) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m ρ c (Proc.devRef .tc b) = Bd0 m ρ c (Proc.devRef .tc b) := by
  unfold Bd1; exact Pipeline.withArrays_of_ne spec0 c _ _ b hb
/-- The same read at the TensorCore's references. -/
abbrev Ex1 : (c : Dev nD) → (b : Ref sig .tc) → Buf (Elt F) ((c : Thread nD τ).loc b) := fun c b => Bd1 m ρ c b
theorem hF0 (c : Dev nD) (w : Fin cfg0.W) : (dat0 (En0 m ρ) c).arrAt w cfg0.N = Ex1 m ρ c (Pipeline.arrRef spec0 w) :=
  (Bd1_arr m ρ c w).symm
theorem hrest0 (c : Dev nD) : ∀ b, b ∉ Finset.univ.image (Pipeline.arrRef spec0) → Ex1 m ρ c b = En0 m ρ c b :=
  fun b hb => Bd1_of_ne m ρ c b fun w e => hb (Finset.mem_image.mpr ⟨w, Finset.mem_univ _, e⟩)

/-- After the three host stretches between regions 0 and 1. -/
abbrev Bd2 : Dev nD → Valuation τ sig (Elt F) := fun c => StableHlo.after hostOps1 (Bd1 m ρ c)
abbrev Bd3 : Dev nD → Valuation τ sig (Elt F) := fun c => StableHlo.after hostOps1_1 (Bd2 m ρ c)
abbrev Bd4 : Dev nD → Valuation τ sig (Elt F) := fun c => StableHlo.after hostOps1_2 (Bd3 m ρ c)
abbrev En4 : (c : Dev nD) → (b : Ref sig .tc) → Buf (Elt F) ((c : Thread nD τ).loc b) := fun c b => Bd4 m ρ c b

/-- At region 1's exit: its arrays at what the pipeline leaves (an input as entered, an output's write-backs folded), every
    other buffer as entered. -/
def Bd5 (c : Dev nD) : Valuation τ sig (Elt F) :=
  Pipeline.withArrays spec1 c (Bd4 m ρ c) fun w => (dat1 (En4 m ρ) c).arrAt w cfg1.N
theorem Bd5_arr (c : Dev nD) (w : Fin cfg1.W) :
    Bd5 m ρ c (Proc.devRef .tc (Pipeline.arrRef spec1 w)) = (dat1 (En4 m ρ) c).arrAt w cfg1.N := by
  unfold Bd5; exact Pipeline.withArrays_arr spec1 launch1.win.arr_inj c _ _ w
theorem Bd5_of_ne (c : Dev nD) (b : Ref sig .tc) (hb : ∀ w, Pipeline.arrRef spec1 w ≠ b) :
    Bd5 m ρ c (Proc.devRef .tc b) = Bd4 m ρ c (Proc.devRef .tc b) := by
  unfold Bd5; exact Pipeline.withArrays_of_ne spec1 c _ _ b hb
/-- The same read at the TensorCore's references. -/
abbrev Ex5 : (c : Dev nD) → (b : Ref sig .tc) → Buf (Elt F) ((c : Thread nD τ).loc b) := fun c b => Bd5 m ρ c b
theorem hF1 (c : Dev nD) (w : Fin cfg1.W) : (dat1 (En4 m ρ) c).arrAt w cfg1.N = Ex5 m ρ c (Pipeline.arrRef spec1 w) :=
  (Bd5_arr m ρ c w).symm
theorem hrest1 (c : Dev nD) : ∀ b, b ∉ Finset.univ.image (Pipeline.arrRef spec1) → Ex5 m ρ c b = En4 m ρ c b :=
  fun b hb => Bd5_of_ne m ρ c b fun w e => hb (Finset.mem_image.mpr ⟨w, Finset.mem_univ _, e⟩)

/-- After the host stretch between regions 1 and 2. -/
abbrev Bd6 : Dev nD → Valuation τ sig (Elt F) := fun c => StableHlo.after hostOps2 (Bd5 m ρ c)
abbrev En6 : (c : Dev nD) → (b : Ref sig .tc) → Buf (Elt F) ((c : Thread nD τ).loc b) := fun c b => Bd6 m ρ c b

/-- At region 2's exit: its arrays at what the pipeline leaves (an input as entered, an output's write-backs folded), every
    other buffer as entered. -/
def Bd7 (c : Dev nD) : Valuation τ sig (Elt F) :=
  Pipeline.withArrays spec2 c (Bd6 m ρ c) fun w => (dat2 (En6 m ρ) c).arrAt w cfg2.N
theorem Bd7_arr (c : Dev nD) (w : Fin cfg2.W) :
    Bd7 m ρ c (Proc.devRef .tc (Pipeline.arrRef spec2 w)) = (dat2 (En6 m ρ) c).arrAt w cfg2.N := by
  unfold Bd7; exact Pipeline.withArrays_arr spec2 launch2.win.arr_inj c _ _ w
theorem Bd7_of_ne (c : Dev nD) (b : Ref sig .tc) (hb : ∀ w, Pipeline.arrRef spec2 w ≠ b) :
    Bd7 m ρ c (Proc.devRef .tc b) = Bd6 m ρ c (Proc.devRef .tc b) := by
  unfold Bd7; exact Pipeline.withArrays_of_ne spec2 c _ _ b hb
/-- The same read at the TensorCore's references. -/
abbrev Ex7 : (c : Dev nD) → (b : Ref sig .tc) → Buf (Elt F) ((c : Thread nD τ).loc b) := fun c b => Bd7 m ρ c b
theorem hF2 (c : Dev nD) (w : Fin cfg2.W) : (dat2 (En6 m ρ) c).arrAt w cfg2.N = Ex7 m ρ c (Pipeline.arrRef spec2 w) :=
  (Bd7_arr m ρ c w).symm
theorem hrest2 (c : Dev nD) : ∀ b, b ∉ Finset.univ.image (Pipeline.arrRef spec2) → Ex7 m ρ c b = En6 m ρ c b :=
  fun b hb => Bd7_of_ne m ρ c b fun w e => hb (Finset.mem_image.mpr ⟨w, Finset.mem_univ _, e⟩)

/-! ## The arguments end as launched -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := Bd7_of_ne m ρ c main_arg0 (by decide)
    _ = Bd5 m ρ c (Proc.devRef .tc main_arg0) := StableHlo.after_of_writes_sub hostOps2 _ Gen.hostOps2_writes (by decide)
    _ = Bd4 m ρ c (Proc.devRef .tc main_arg0) := Bd5_of_ne m ρ c main_arg0 (by decide)
    _ = Bd3 m ρ c (Proc.devRef .tc main_arg0) := StableHlo.after_of_writes_sub hostOps1_2 _ Gen.hostOps1_2_writes (by decide)
    _ = Bd2 m ρ c (Proc.devRef .tc main_arg0) := StableHlo.after_of_writes_sub hostOps1_1 _ Gen.hostOps1_1_writes (by decide)
    _ = Bd1 m ρ c (Proc.devRef .tc main_arg0) := StableHlo.after_of_writes_sub hostOps1 _ Gen.hostOps1_writes (by decide)
    _ = Bd0 m ρ c (Proc.devRef .tc main_arg0) := (Bd1_arr m ρ c 0).trans (((dat0 (En0 m ρ) c).arrAt_in 0 rfl _).trans (A_eq0 (En0 m ρ) c 0))
    _ = m ((c : Thread nD τ).loc main_arg0) := rfl

theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := Bd7_of_ne m ρ c main_arg1 (by decide)
    _ = Bd5 m ρ c (Proc.devRef .tc main_arg1) := StableHlo.after_of_writes_sub hostOps2 _ Gen.hostOps2_writes (by decide)
    _ = Bd4 m ρ c (Proc.devRef .tc main_arg1) := Bd5_of_ne m ρ c main_arg1 (by decide)
    _ = Bd3 m ρ c (Proc.devRef .tc main_arg1) := StableHlo.after_of_writes_sub hostOps1_2 _ Gen.hostOps1_2_writes (by decide)
    _ = Bd2 m ρ c (Proc.devRef .tc main_arg1) := StableHlo.after_of_writes_sub hostOps1_1 _ Gen.hostOps1_1_writes (by decide)
    _ = Bd1 m ρ c (Proc.devRef .tc main_arg1) := StableHlo.after_of_writes_sub hostOps1 _ Gen.hostOps1_writes (by decide)
    _ = Bd0 m ρ c (Proc.devRef .tc main_arg1) := Bd1_of_ne m ρ c main_arg1 (by decide)
    _ = m ((c : Thread nD τ).loc main_arg1) := rfl

theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := Bd7_of_ne m ρ c main_arg2 (by decide)
    _ = Bd5 m ρ c (Proc.devRef .tc main_arg2) := StableHlo.after_of_writes_sub hostOps2 _ Gen.hostOps2_writes (by decide)
    _ = Bd4 m ρ c (Proc.devRef .tc main_arg2) := Bd5_of_ne m ρ c main_arg2 (by decide)
    _ = Bd3 m ρ c (Proc.devRef .tc main_arg2) := StableHlo.after_of_writes_sub hostOps1_2 _ Gen.hostOps1_2_writes (by decide)
    _ = Bd2 m ρ c (Proc.devRef .tc main_arg2) := StableHlo.after_of_writes_sub hostOps1_1 _ Gen.hostOps1_1_writes (by decide)
    _ = Bd1 m ρ c (Proc.devRef .tc main_arg2) := StableHlo.after_of_writes_sub hostOps1 _ Gen.hostOps1_writes (by decide)
    _ = Bd0 m ρ c (Proc.devRef .tc main_arg2) := (Bd1_arr m ρ c 1).trans (((dat0 (En0 m ρ) c).arrAt_in 1 rfl _).trans (A_eq0 (En0 m ρ) c 1))
    _ = m ((c : Thread nD τ).loc main_arg2) := rfl

theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := Bd7_of_ne m ρ c main_arg3 (by decide)
    _ = Bd5 m ρ c (Proc.devRef .tc main_arg3) := StableHlo.after_of_writes_sub hostOps2 _ Gen.hostOps2_writes (by decide)
    _ = Bd4 m ρ c (Proc.devRef .tc main_arg3) := Bd5_of_ne m ρ c main_arg3 (by decide)
    _ = Bd3 m ρ c (Proc.devRef .tc main_arg3) := StableHlo.after_of_writes_sub hostOps1_2 _ Gen.hostOps1_2_writes (by decide)
    _ = Bd2 m ρ c (Proc.devRef .tc main_arg3) := StableHlo.after_of_writes_sub hostOps1_1 _ Gen.hostOps1_1_writes (by decide)
    _ = Bd1 m ρ c (Proc.devRef .tc main_arg3) := StableHlo.after_of_writes_sub hostOps1 _ Gen.hostOps1_writes (by decide)
    _ = Bd0 m ρ c (Proc.devRef .tc main_arg3) := Bd1_of_ne m ρ c main_arg3 (by decide)
    _ = m ((c : Thread nD τ).loc main_arg3) := rfl

theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := Bd7_of_ne m ρ c main_arg4 (by decide)
    _ = Bd5 m ρ c (Proc.devRef .tc main_arg4) := StableHlo.after_of_writes_sub hostOps2 _ Gen.hostOps2_writes (by decide)
    _ = Bd4 m ρ c (Proc.devRef .tc main_arg4) := Bd5_of_ne m ρ c main_arg4 (by decide)
    _ = Bd3 m ρ c (Proc.devRef .tc main_arg4) := StableHlo.after_of_writes_sub hostOps1_2 _ Gen.hostOps1_2_writes (by decide)
    _ = Bd2 m ρ c (Proc.devRef .tc main_arg4) := StableHlo.after_of_writes_sub hostOps1_1 _ Gen.hostOps1_1_writes (by decide)
    _ = Bd1 m ρ c (Proc.devRef .tc main_arg4) := StableHlo.after_of_writes_sub hostOps1 _ Gen.hostOps1_writes (by decide)
    _ = Bd0 m ρ c (Proc.devRef .tc main_arg4) := Bd1_of_ne m ρ c main_arg4 (by decide)
    _ = m ((c : Thread nD τ).loc main_arg4) := rfl

theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := Bd7_of_ne m ρ c main_arg5 (by decide)
    _ = Bd5 m ρ c (Proc.devRef .tc main_arg5) := StableHlo.after_of_writes_sub hostOps2 _ Gen.hostOps2_writes (by decide)
    _ = Bd4 m ρ c (Proc.devRef .tc main_arg5) := Bd5_of_ne m ρ c main_arg5 (by decide)
    _ = Bd3 m ρ c (Proc.devRef .tc main_arg5) := StableHlo.after_of_writes_sub hostOps1_2 _ Gen.hostOps1_2_writes (by decide)
    _ = Bd2 m ρ c (Proc.devRef .tc main_arg5) := StableHlo.after_of_writes_sub hostOps1_1 _ Gen.hostOps1_1_writes (by decide)
    _ = Bd1 m ρ c (Proc.devRef .tc main_arg5) := StableHlo.after_of_writes_sub hostOps1 _ Gen.hostOps1_writes (by decide)
    _ = Bd0 m ρ c (Proc.devRef .tc main_arg5) := Bd1_of_ne m ρ c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (En0 m ρ) c
  | ⟨1, _⟩ => fun c => dat1 (En4 m ρ) c
  | ⟨2, _⟩ => fun c => dat2 (En6 m ρ) c
/-- No core owes another anything: no level is assigned. -/
abbrev Lnone : GSem nD τ sig → Finset Unit := fun _ => ∅
abbrev lvl0 : GSem nD τ sig → Unit → ℕ := fun _ _ => 0
/-- What rides beside the buffers through every segment: the generator register at some state and the core's dues, at nothing. -/
abbrev Rst (c : Dev nD) : sProp 𝕄 := iprop((∃ r, prngReg c r) ∗ ∃ W, owes (c : Thread nD τ) (0 : CellTallies nD τ sig Unit) W)
/-- A host stretch as a segment over the unscoped references from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tlast (c : Dev nD) : sProp 𝕄 := iprop(StableHlo.held (c : Thread nD τ) (Pipeline.ucRefs τ sig) (Bd7 m ρ c) ∗ ∃ r, prngReg c r)

/-! ## The regions as segments -/

set_option backward.isDefEq.respectTransparency.types false in
/-- Region 0 over the thread state: its arrays are split out of the unscoped buffers at the entry contents and put back at
    the exit contents; the generator register goes into the region's invariant and comes back; nothing is owed; the kernel has
    no semaphore of its own. -/
def reg0 : Pipeline.RegionSeg (pcfgs (F := F)) Gen.adm (pdats m ρ) () defs₀ Variants.none Lnone lvl0 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Lnone lvl0 0 fun _ _ => rfl
  pre c := iprop(StableHlo.held (c : Thread nD τ) (Pipeline.ucRefs τ sig) (Bd0 m ρ c) ∗ Rst c)
  post c := iprop(StableHlo.held (c : Thread nD τ) (Pipeline.ucRefs τ sig) (Bd1 m ρ c) ∗ Rst c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (En0 m ρ c) (Ex1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at the entry contents and put back at
    the exit contents; the generator register goes into the region's invariant and comes back; nothing is owed; the kernel has
    no semaphore of its own. -/
def reg1 : Pipeline.RegionSeg (pcfgs (F := F)) Gen.adm (pdats m ρ) () defs₀ Variants.none Lnone lvl0 1 where
  win := launch1.win.to₀
  block_pos := launch1.block_pos
  stage_whole := launch1.stage_whole
  K := PEmpty
  osem k := k.elim
  ho := Pipeline.OwnSemFacts.none _
  hbody c := (body_obligation1 (En4 m ρ) c).loose
  hwaits := Pipeline.hwaits_of_owed_zero _ _ _ _ Lnone lvl0 1 fun _ _ => rfl
  pre c := iprop(StableHlo.held (c : Thread nD τ) (Pipeline.ucRefs τ sig) (Bd4 m ρ c) ∗ Rst c)
  post c := iprop(StableHlo.held (c : Thread nD τ) (Pipeline.ucRefs τ sig) (Bd5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (En4 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En4 m ρ) c)
    unfold Pipeline.ΦA
    iintro ⟨Hp, -, Hr⟩
    isplitl [Hr]; · iexact Hr
    iexact Hp
  hout c := by
    rw [Pipeline.ownSems0_none]
    refine BIBase.Entails.trans (hout1 (En4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (En4 m ρ c) (Ex5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at the entry contents and put back at
    the exit contents; the generator register goes into the region's invariant and comes back; nothing is owed; the kernel has
    no semaphore of its own. -/
def reg2 : Pipeline.RegionSeg (pcfgs (F := F)) Gen.adm (pdats m ρ) () defs₀ Variants.none Lnone lvl0 2 where
  win := launch2.win.to₀
  block_pos := launch2.block_pos
  stage_whole := launch2.stage_whole
  K := PEmpty
  osem k := k.elim
  ho := Pipeline.OwnSemFacts.none _
  hbody c := (body_obligation2 (En6 m ρ) c).loose
  hwaits := Pipeline.hwaits_of_owed_zero _ _ _ _ Lnone lvl0 2 fun _ _ => rfl
  pre c := iprop(StableHlo.held (c : Thread nD τ) (Pipeline.ucRefs τ sig) (Bd6 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (En6 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (En6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (En6 m ρ c) (Ex7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) Gen.adm (pdats m ρ) () defs₀ Variants.none Lnone lvl0) :=
  [ .region (reg0 m ρ),
    .host (hostSeg hostOps1 hostOps1_sub Gen.hostOps1_fresh (Bd1 m ρ)),
    .host (hostSeg hostOps1_1 hostOps1_1_sub Gen.hostOps1_1_fresh (Bd2 m ρ)),
    .host (hostSeg hostOps1_2 hostOps1_2_sub Gen.hostOps1_2_fresh (Bd3 m ρ)),
    .region (reg1 m ρ),
    .host (hostSeg hostOps2 hostOps2_sub Gen.hostOps2_fresh (Bd5 m ρ)),
    .region (reg2 m ρ) ]
theorem main_run (c : Dev nD) : main (F := F) c = Pipeline.Seg.run (segsH m ρ) := (main_chain c).trans (by chain_rfl)

set_option backward.isDefEq.respectTransparency.types false in
/-- Every weakly fair execution of the program from the memory m with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) Gen.adm (pdats m ρ) () cellOf_inj emb₁ defs₀ Variants.none Lnone lvl0 m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tlast m ρ)
    (hch := ⟨fun _ => .rfl, fun _ => .rfl, fun _ => .rfl, fun _ => .rfl, fun _ => .rfl, fun _ => .rfl, fun _ => .rfl, fun _ => .rfl⟩)
    (hinit := by
      refine Pipeline.initEach Lnone lvl0 fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Bd7_main_arg0 m ρ c),
     (h c _ (mem_uc main_arg1 (by decide))).trans (Bd7_main_arg1 m ρ c),
     (h c _ (mem_uc main_arg2 (by decide))).trans (Bd7_main_arg2 m ρ c),
     (h c _ (mem_uc main_arg3 (by decide))).trans (Bd7_main_arg3 m ρ c),
     (h c _ (mem_uc main_arg4 (by decide))).trans (Bd7_main_arg4 m ρ c),
     (h c _ (mem_uc main_arg5 (by decide))).trans (Bd7_main_arg5 m ρ c)⟩) (run_all m ρ)

/-- The run with the result named: the result array ends at what region 2's write-backs leave, the arguments as launched. -/
theorem run_value : θ_run defs (onTc (τ := τ) (main (F := F))) ⟨m, fun _ => 0, ρ⟩ (fun r => ∀ c : Dev nD,
      r.2.mem ((c.tc : Thread nD τ).loc main_v58) = (dat2 (En6 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v58 (by decide))).trans (Bd7_arr m ρ c 6),
     (h c _ (mem_uc main_arg0 (by decide))).trans (Bd7_main_arg0 m ρ c),
     (h c _ (mem_uc main_arg1 (by decide))).trans (Bd7_main_arg1 m ρ c),
     (h c _ (mem_uc main_arg2 (by decide))).trans (Bd7_main_arg2 m ρ c),
     (h c _ (mem_uc main_arg3 (by decide))).trans (Bd7_main_arg3 m ρ c),
     (h c _ (mem_uc main_arg4 (by decide))).trans (Bd7_main_arg4 m ρ c),
     (h c _ (mem_uc main_arg5 (by decide))).trans (Bd7_main_arg5 m ρ c)⟩) (run_all m ρ)

end Cert.KernelIdeal.Hand

end
-- ==== Proof.Spec.lean ====
/-
  The layer's three dense stages as plain formulas over the extended reals, index by index.

  For node features x [50000, 256], weights W [256, 256], an aggregate a [50000, 256] and rows
  [1, 256] (bias, mean, reciprocal deviation, gain, offset):
    * the projection: entry (r, e) of x · Wᵀ is the sum over k of x (r, k) · W (e, k);
    * the column statistics of y = a + bias: for column e, the sum over the 50000 rows of y (r, e),
      and the sum of its squares;
    * the normalisation followed by the rectifier: max (gain · (y − mean) · rdev + offset, 0).
  Nothing here mentions a program: both programs' values are proved equal to these.
-/
import Idealize.ShloMosaic.PureOps.Ideal
import Idealize.ShloMosaic.Lib.ValueIdx

noncomputable section

namespace Cert.Spec

open Idealize.ShloMosaic Idealize.ShloMosaic.ValueIdx
open scoped BigOperators

/-- Nodes by features. -/
abbrev SND : Shape := ⟨2, ![50000, 256]⟩
/-- The square weight matrix. -/
abbrev SDD : Shape := ⟨2, ![256, 256]⟩
/-- One row of features. -/
abbrev S1D : Shape := ⟨2, ![1, 256]⟩

/-- Entry (r, e) of x · Wᵀ: row r of x against row e of W. -/
def projAt (x : SND.Idx → EReal) (W : SDD.Idx → EReal) (r : Fin 50000) (e : Fin 256) : EReal :=
  ∑ k : Fin 256, x (ix2 r k) * W (ix2 e k)

/-- The sum over all rows of column e of a + bias. -/
def colSum (a : SND.Idx → EReal) (b : S1D.Idx → EReal) (e : Fin 256) : EReal :=
  ∑ r : Fin 50000, (a (ix2 r e) + b (ix2 (0 : Fin 1) e))

/-- The sum over all rows of the squares of column e of a + bias. -/
def colSumSq (a : SND.Idx → EReal) (b : S1D.Idx → EReal) (e : Fin 256) : EReal :=
  ∑ r : Fin 50000, (a (ix2 r e) + b (ix2 (0 : Fin 1) e)) * (a (ix2 r e) + b (ix2 (0 : Fin 1) e))

/-- Entry (r, e) of the normalised, rectified output: max (gain · (a + bias − mean) · rdev + offset, 0);
    the products associate to the left, the zero is the all-zero f32 word. -/
def applyAt (a : SND.Idx → EReal) (bias mean rdev gain offset : S1D.Idx → EReal) (r : Fin 50000) (e : Fin 256) : EReal :=
  max (gain (ix2 (0 : Fin 1) e) * ((a (ix2 r e) + bias (ix2 (0 : Fin 1) e)) - mean (ix2 (0 : Fin 1) e))
        * rdev (ix2 (0 : Fin 1) e) + offset (ix2 (0 : Fin 1) e))
      (Ideal.ofBits .f32 0x00000000#32)

/-- The mean row: the column sums of a + bias over the number of rows (the f32 word of 50000). -/
def meanRow (a : SND.Idx → EReal) (b : S1D.Idx → EReal) : S1D.Idx → EReal :=
  fun j => Ideal.div (colSum a b (j 1)) (Ideal.ofBits .f32 0x47435000#32)

/-- The reciprocal-deviation row in its one-pass form: the reciprocal square root of the mean of the
    squares minus the square of the mean plus the f32 word of 1e-5. -/
def rdevRow (a : SND.Idx → EReal) (b : S1D.Idx → EReal) : S1D.Idx → EReal :=
  fun j => Ideal.rsqrt (Ideal.div (colSumSq a b (j 1)) (Ideal.ofBits .f32 0x47435000#32)
      - meanRow a b j * meanRow a b j + Ideal.ofBits .f32 0x3727C5AC#32)

/-- A vector of 256 features as a row [1, 256]. -/
def rowOf (v : (⟨1, ![256]⟩ : Shape).Idx → EReal) : S1D.Idx → EReal := fun j => v (ix1 (j 1))

/-- The whole dense tail: from an aggregate and the three parameter vectors to the output entry. -/
def outAt (a : SND.Idx → EReal) (bias gain offset : (⟨1, ![256]⟩ : Shape).Idx → EReal) (r : Fin 50000) (e : Fin 256) : EReal :=
  applyAt a (rowOf bias) (meanRow a (rowOf bias)) (rdevRow a (rowOf bias)) (rowOf gain) (rowOf offset) r e

end Cert.Spec

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KI.Val1.lean ====
/-
  Region 1's two output rows after the region, at the ideal values, column by column: the first holds, for each
  of the 256 columns, the sum over all 50000 rows of a + bias; the second the sum of the squares. The region walks
  the rows in 10 blocks of 5000; two running rows carry the partial sums from block to block, cleared at the first
  block and copied out at the last, where alone the output rows are written back.
-/
import proofs.«157023_j2937757631000_1_alg».proof.Proof.KI.Reg1
import proofs.«157023_j2937757631000_1_alg».proof.Proof.Spec
import proofs.«157023_j2937757631000_1_alg».proof.Proof.LibBlockSums
import proofs.«157023_j2937757631000_1_alg».proof.Proof.LibLaneSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx
open scoped BigOperators

namespace Cert.KernelIdeal.HandVal

open Cert.KernelIdeal Cert.KernelIdeal.Gen Cert.KernelIdeal.Hand

/-! ## What each case of the body leaves, as the kernel's arithmetic (any float model) -/

section Pieces

variable {F : FTy → Type} [FloatOps F]

theorem hz1 : (![0, 0] : Fin 2 → Nat) = fun _ => 0 := funext fun a => by fin_cases a <;> rfl

/-- The first point leaves in the running sum row: the block's column sums added to the zero row. -/
theorem soutA0_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i) (x0 : Vec F S5000x256 .f32) (x1 : Vec F S1x256 .f32) :
    sout1_A_0 c i arg1 harg1 arg2 harg2 arg3 harg3 arg4 harg4 arg5 harg5 arg6 harg6 hc0 hc1 x0 x1 = k1_pay4 x0 x1 (k1_pay1 (F := F)) := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  try sl_unfold_words
  rw [View.canon_cons_unit_zero hz1, View.readCov_unit_zero (S := S1x256) _ hz1]
  simp only [View.readAt_eq_ld, harg1.read_unread, harg2.read_unread, harg5.read_unread, harg6.read_unread, View.ld_unit_zero (S := S5000x256) hz1, View.ld_unit_zero (S := S1x256) hz1]

/-- The first point leaves in the running sum-of-squares row: the block's column sums of squares added to the zero row. -/
theorem soutA1_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i) (x0 : Vec F S5000x256 .f32) (x1 : Vec F S1x256 .f32) :
    sout1_A_1 c i arg1 harg1 arg2 harg2 arg3 harg3 arg4 harg4 arg5 harg5 arg6 harg6 hc0 hc1 x0 x1 = k1_pay5 x0 x1 (k1_pay2 (F := F)) := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  try sl_unfold_words
  rw [View.canon_cons_unit_zero hz1, View.readCov_unit_zero (S := S1x256) _ hz1]
  simp only [View.readAt_eq_ld, harg1.read_unread, harg2.read_unread, harg5.read_unread, harg6.read_unread, View.ld_unit_zero (S := S5000x256) hz1, View.ld_unit_zero (S := S1x256) hz1]

/-- A middle point adds the block's column sums onto what the running sum row held. -/
theorem soutB0_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i) (x0 : Vec F S5000x256 .f32) (x1 : Vec F S1x256 .f32) (xs0 xs1 : Vec F S1x256 .f32) :
    sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  try sl_unfold_words
  rw [View.canon_unit_zero hz1]
  simp only [View.readAt_eq_ld, harg1.read_unread, harg2.read_unread, harg5.read_unread, harg6.read_unread, View.ld_unit_zero (S := S5000x256) hz1, View.ld_unit_zero (S := S1x256) hz1]

/-- A middle point adds the block's column sums of squares onto what the running sum-of-squares row held. -/
theorem soutB1_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : ¬cond1_1 i) (x0 : Vec F S5000x256 .f32) (x1 : Vec F S1x256 .f32) (xs0 xs1 : Vec F S1x256 .f32) :
    sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  try sl_unfold_words
  rw [View.canon_unit_zero hz1]
  simp only [View.readAt_eq_ld, harg1.read_unread, harg2.read_unread, harg5.read_unread, harg6.read_unread, View.ld_unit_zero (S := S5000x256) hz1, View.ld_unit_zero (S := S1x256) hz1]

/-- The last point does the same to the running sum row, -/
theorem soutC0_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i) (x0 : Vec F S5000x256 .f32) (x1 : Vec F S1x256 .f32) (xs0 xs1 : Vec F S1x256 .f32) :
    sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  try sl_unfold_words
  rw [View.canon_unit_zero hz1]
  simp only [View.readAt_eq_ld, harg1.read_unread, harg2.read_unread, harg5.read_unread, harg6.read_unread, View.ld_unit_zero (S := S5000x256) hz1, View.ld_unit_zero (S := S1x256) hz1]

/-- and to the running sum-of-squares row; -/
theorem soutC1_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i) (x0 : Vec F S5000x256 .f32) (x1 : Vec F S1x256 .f32) (xs0 xs1 : Vec F S1x256 .f32) :
    sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  try sl_unfold_words
  rw [View.canon_unit_zero hz1]
  simp only [View.readAt_eq_ld, harg1.read_unread, harg2.read_unread, harg5.read_unread, harg6.read_unread, View.ld_unit_zero (S := S5000x256) hz1, View.ld_unit_zero (S := S1x256) hz1]

/-- then it copies the running sum row, as just updated, to the first output row, -/
theorem outC2_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i) (x0 : Vec F S5000x256 .f32) (x1 : Vec F S1x256 .f32) (xs0 xs1 : Vec F S1x256 .f32) :
    out1_C_2 c i arg1 harg1 arg2 harg2 arg3 harg3 arg4 harg4 arg5 harg5 arg6 harg6 hc0 hc1 x0 x1 xs0 xs1 = k1_pay4 x0 x1 xs0 := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  try sl_unfold_words
  rw [View.canon_unit_zero hz1, View.readCov_unit_zero (S := S1x256) _ hz1]
  simp only [View.readAt_eq_ld, harg1.read_unread, harg2.read_unread, harg5.read_unread, harg6.read_unread, View.ld_unit_zero (S := S5000x256) hz1, View.ld_unit_zero (S := S1x256) hz1]

/-- and the running sum-of-squares row to the second. -/
theorem outC3_eq (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i) (x0 : Vec F S5000x256 .f32) (x1 : Vec F S1x256 .f32) (xs0 xs1 : Vec F S1x256 .f32) :
    out1_C_3 c i arg1 harg1 arg2 harg2 arg3 harg3 arg4 harg4 arg5 harg5 arg6 harg6 hc0 hc1 x0 x1 xs0 xs1 = k1_pay5 x0 x1 xs1 := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  try sl_unfold_words
  rw [View.canon_unit_zero hz1, View.readCov_unit_zero (S := S1x256) _ hz1]
  simp only [View.readAt_eq_ld, harg1.read_unread, harg2.read_unread, harg5.read_unread, harg6.read_unread, View.ld_unit_zero (S := S5000x256) hz1, View.ld_unit_zero (S := S1x256) hz1]

end Pieces

/-! ## The arithmetic at the ideal values, entry by entry -/

/-- The cleared running rows hold zero. -/
theorem pay11_apply (e : Fin 256) : k1_pay1 (F := Ideal) (ix2 (0 : Fin 1) e) = 0 := by
  unfold k1_pay1
  simp only [shapeCast_self, broadcast_apply]
  exact Ideal.ofBits_zero_f32

theorem pay12_apply (e : Fin 256) : k1_pay2 (F := Ideal) (ix2 (0 : Fin 1) e) = 0 := by
  unfold k1_pay2
  simp only [shapeCast_self, broadcast_apply]
  exact Ideal.ofBits_zero_f32

/-- Entry (p, e) of block + bias. -/
theorem pay13_apply (x0 : Vec Ideal S5000x256 .f32) (x1 : Vec Ideal S1x256 .f32) (p : Fin 5000) (e : Fin 256) :
    k1_pay3 (F := Ideal) x0 x1 (ix2 p e) = x0 (ix2 p e) + x1 (ix2 (0 : Fin 1) e) := by
  unfold k1_pay3
  simp only [shapeCast_self, addf_apply, broadcastTo_1b_ab_apply]

/-- The updated running sum row at column e: what it held plus the block's column sum of block + bias. -/
theorem pay14_apply (x0 : Vec Ideal S5000x256 .f32) (x1 acc : Vec Ideal S1x256 .f32) (e : Fin 256) :
    k1_pay4 (F := Ideal) x0 x1 acc (ix2 (0 : Fin 1) e)
      = acc (ix2 (0 : Fin 1) e) + ∑ p : Fin 5000, (x0 (ix2 p e) + x1 (ix2 (0 : Fin 1) e)) := by
  unfold k1_pay4
  simp only [shapeCast_self, addf_apply, shapeCast_a_1a_apply]
  refine congrArg (fun s => acc (ix2 (0 : Fin 1) e) + s) ?_
  refine (Cert.LaneSum.sum_first2 (k1_pay3 (F := Ideal) x0 x1) _ _ _ _ e).trans ?_
  exact Finset.sum_congr rfl fun p _ => pay13_apply x0 x1 p e

/-- The updated running sum-of-squares row at column e. -/
theorem pay15_apply (x0 : Vec Ideal S5000x256 .f32) (x1 acc : Vec Ideal S1x256 .f32) (e : Fin 256) :
    k1_pay5 (F := Ideal) x0 x1 acc (ix2 (0 : Fin 1) e)
      = acc (ix2 (0 : Fin 1) e) + ∑ p : Fin 5000, (x0 (ix2 p e) + x1 (ix2 (0 : Fin 1) e)) * (x0 (ix2 p e) + x1 (ix2 (0 : Fin 1) e)) := by
  unfold k1_pay5
  simp only [shapeCast_self, addf_apply, shapeCast_a_1a_apply]
  refine congrArg (fun s => acc (ix2 (0 : Fin 1) e) + s) ?_
  refine (Cert.LaneSum.sum_first2 (mulf (k1_pay3 (F := Ideal) x0 x1) (k1_pay3 (F := Ideal) x0 x1)) _ _ _ _ e).trans ?_
  refine Finset.sum_congr rfl fun p _ => ?_
  rw [mulf_apply, pay13_apply]

/-! ## The windows' blocks as entries of the arrays -/

variable (V : (c : Dev nD) → (b : Ref sig .tc) → Buf (Elt Ideal) ((c : Thread nD τ).loc b))

/-- The printed index maps over the grid: the feature window sits at block (t, 0), the three rows at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The feature window's block at point t is rows 5000 t … 5000 t + 4999 of a. -/
theorem iblk1_0_apply (c : Dev nD) (t : Fin cfg1.N) (p : Fin 5000) (k : Fin 256) (i : S50000x256.Idx)
    (h0 : (i 0).val = t.val * 5000 + p.val) (h1 : (i 1).val = k.val) :
    (iblk1 V c 0 t : Vec Ideal S5000x256 .f32) (ix2 p k) = (V c main_v44 : S50000x256.Idx → EReal) i := by
  obtain ⟨e0, e1, -⟩ := idx_facts1 t
  unfold iblk1
  rw [View.read_apply]
  show V c main_v44 _ = V c main_v44 _
  refine congrArg (V c main_v44) ?_
  funext a
  apply Fin.ext
  match a with
  | ⟨0, _⟩ => show win1_0.index t (0 : Fin 2) * 5000 + 1 * p.val = (i 0).val; rw [e0, h0]; omega
  | ⟨1, _⟩ => show win1_0.index t (1 : Fin 2) * 256 + 1 * k.val = (i 1).val; rw [e1, h1]; omega

/-- The bias window's block at every point is the whole bias row. -/
theorem iblk1_1_apply (c : Dev nD) (t : Fin cfg1.N) (e : Fin 256) :
    (iblk1 V c 1 t : Vec Ideal S1x256 .f32) (ix2 (0 : Fin 1) e) = (V c main_v45 : S1x256.Idx → EReal) (ix2 (0 : Fin 1) e) := by
  obtain ⟨-, -, e0, e1, -⟩ := idx_facts1 t
  unfold iblk1
  rw [View.read_apply]
  show V c main_v45 _ = V c main_v45 _
  refine congrArg (V c main_v45) ?_
  funext a
  apply Fin.ext
  match a with
  | ⟨0, _⟩ => show win1_1.index t (0 : Fin 2) * 1 + 1 * (0 : Fin 1).val = ((ix2 (0 : Fin 1) e : S1x256.Idx) 0).val; rw [e0]; rfl
  | ⟨1, _⟩ => show win1_1.index t (1 : Fin 2) * 256 + 1 * e.val = ((ix2 (0 : Fin 1) e : S1x256.Idx) 1).val; rw [e1]; show 0 * 256 + 1 * e.val = e.val; omega

/-! ## The running rows after each point, as the kernel's arithmetic on the point's blocks -/

/-- After the first point: the first block's contribution added to the cleared rows. -/
theorem sc_zero (c : Dev nD) (hn : 0 < cfg1.N) :
    (outsAt1 V c 0 hn).2.2.1 = k1_pay4 (F := Ideal) (iblk1 V c 0 ⟨0, hn⟩) (iblk1 V c 1 ⟨0, hn⟩) (k1_pay1 (F := Ideal))
    ∧ (outsAt1 V c 0 hn).2.2.2 = k1_pay5 (F := Ideal) (iblk1 V c 0 ⟨0, hn⟩) (iblk1 V c 1 ⟨0, hn⟩) (k1_pay2 (F := Ideal)) := by
  have h := outsAt1_A V c ⟨0, hn⟩ rfl (fun h => absurd h (by decide : ¬ (0 : ℕ) = 9))
  refine ⟨(congrArg (fun q => q.2.2.1) h).trans ?_, (congrArg (fun q => q.2.2.2) h).trans ?_⟩
  · dsimp only
    exact soutA0_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) _ _ (iblk1 V c 0 ⟨0, hn⟩) (iblk1 V c 1 ⟨0, hn⟩)
  · dsimp only
    exact soutA1_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) _ _ (iblk1 V c 0 ⟨0, hn⟩) (iblk1 V c 1 ⟨0, hn⟩)

/-- After a later point: the point's block's contribution added to what the point before left. -/
theorem sc_succ (c : Dev nD) (n : ℕ) (hn : n + 1 < cfg1.N) :
    (outsAt1 V c (n + 1) hn).2.2.1 = k1_pay4 (F := Ideal) (iblk1 V c 0 ⟨n + 1, hn⟩) (iblk1 V c 1 ⟨n + 1, hn⟩) (outsAt1 V c n (Nat.lt_of_succ_lt hn)).2.2.1
    ∧ (outsAt1 V c (n + 1) hn).2.2.2 = k1_pay5 (F := Ideal) (iblk1 V c 0 ⟨n + 1, hn⟩) (iblk1 V c 1 ⟨n + 1, hn⟩) (outsAt1 V c n (Nat.lt_of_succ_lt hn)).2.2.2 := by
  by_cases h9 : n + 1 = 9
  · have h := outsAt1_C V c ⟨n + 1, hn⟩ (Nat.succ_ne_zero n) h9
    refine ⟨(congrArg (fun q => q.2.2.1) h).trans ?_, (congrArg (fun q => q.2.2.2) h).trans ?_⟩
    · dsimp only
      exact soutC0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2
    · dsimp only
      exact soutC1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2
  · have h := outsAt1_B V c ⟨n + 1, hn⟩ (Nat.succ_ne_zero n) h9
    refine ⟨(congrArg (fun q => q.2.2.1) h).trans ?_, (congrArg (fun q => q.2.2.2) h).trans ?_⟩
    · dsimp only
      exact soutB0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2
    · dsimp only
      exact soutB1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2

/-- At the last point each output row receives its running row as just updated. -/
theorem out_last (c : Dev nD) (n : ℕ) (hn : n + 1 < cfg1.N) (h9 : n + 1 = 9) :
    (outsAt1 V c (n + 1) hn).1 = (outsAt1 V c (n + 1) hn).2.2.1
    ∧ (outsAt1 V c (n + 1) hn).2.1 = (outsAt1 V c (n + 1) hn).2.2.2 := by
  have h := outsAt1_C V c ⟨n + 1, hn⟩ (Nat.succ_ne_zero n) h9
  obtain ⟨s0, s1⟩ := sc_succ V c n hn
  refine ⟨((congrArg (fun q => q.1) h).trans ?_).trans s0.symm, ((congrArg (fun q => q.2.1) h).trans ?_).trans s1.symm⟩
  · dsimp only
    exact outC2_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2
  · dsimp only
    exact outC3_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) _ _ (iblk1 V c 0 ⟨n + 1, hn⟩) (iblk1 V c 1 ⟨n + 1, hn⟩) (outsAt1 V c n (Nat.lt_of_succ_lt hn)).2.2.1 (outsAt1 V c n (Nat.lt_of_succ_lt hn)).2.2.2

/-! ## The blocks' contributions, and the rows as partial sums -/

/-- Block k's contribution to column e's sum: the sum of a + bias over rows 5000 k … 5000 k + 4999. -/
def blockSum (a : S50000x256.Idx → EReal) (b : S1x256.Idx → EReal) (e : Fin 256) (k : ℕ) (hk : k < 10) : EReal :=
  ∑ p : Fin 5000, (a (ix2 (⟨k * 5000 + p.val, by have := p.isLt; omega⟩ : Fin 50000) e) + b (ix2 (0 : Fin 1) e))

/-- Block k's contribution to column e's sum of squares. -/
def blockSumSq (a : S50000x256.Idx → EReal) (b : S1x256.Idx → EReal) (e : Fin 256) (k : ℕ) (hk : k < 10) : EReal :=
  ∑ p : Fin 5000, (a (ix2 (⟨k * 5000 + p.val, by have := p.isLt; omega⟩ : Fin 50000) e) + b (ix2 (0 : Fin 1) e)) * (a (ix2 (⟨k * 5000 + p.val, by have := p.isLt; omega⟩ : Fin 50000) e) + b (ix2 (0 : Fin 1) e))

/-- The same, indexed by all naturals (zero beyond the grid). -/
def contrib (a : S50000x256.Idx → EReal) (b : S1x256.Idx → EReal) (e : Fin 256) (k : ℕ) : EReal :=
  if hk : k < 10 then blockSum a b e k hk else 0
def contribSq (a : S50000x256.Idx → EReal) (b : S1x256.Idx → EReal) (e : Fin 256) (k : ℕ) : EReal :=
  if hk : k < 10 then blockSumSq a b e k hk else 0

theorem lt10 (t : Fin cfg1.N) : t.val < 10 := lt_of_lt_of_eq t.isLt (show cfg1.N = 10 from N_1)

/-- Blocks that are rows 5000 k … of a and the row b contribute block k's contribution. -/
theorem blk_step (a : S50000x256.Idx → EReal) (b : S1x256.Idx → EReal) (x0 : Vec Ideal S5000x256 .f32) (x1 : Vec Ideal S1x256 .f32)
    (e : Fin 256) (k : ℕ) (hk : k < 10)
    (h0 : ∀ p : Fin 5000, x0 (ix2 p e) = a (ix2 (⟨k * 5000 + p.val, by have := p.isLt; omega⟩ : Fin 50000) e)) (h1 : x1 (ix2 (0 : Fin 1) e) = b (ix2 (0 : Fin 1) e)) :
    ∑ p : Fin 5000, (x0 (ix2 p e) + x1 (ix2 (0 : Fin 1) e)) = contrib a b e k := by
  unfold contrib
  rw [dif_pos hk]
  unfold blockSum
  exact Finset.sum_congr rfl fun p _ => by rw [h0 p, h1]

theorem blk_step_sq (a : S50000x256.Idx → EReal) (b : S1x256.Idx → EReal) (x0 : Vec Ideal S5000x256 .f32) (x1 : Vec Ideal S1x256 .f32)
    (e : Fin 256) (k : ℕ) (hk : k < 10)
    (h0 : ∀ p : Fin 5000, x0 (ix2 p e) = a (ix2 (⟨k * 5000 + p.val, by have := p.isLt; omega⟩ : Fin 50000) e)) (h1 : x1 (ix2 (0 : Fin 1) e) = b (ix2 (0 : Fin 1) e)) :
    ∑ p : Fin 5000, (x0 (ix2 p e) + x1 (ix2 (0 : Fin 1) e)) * (x0 (ix2 p e) + x1 (ix2 (0 : Fin 1) e)) = contribSq a b e k := by
  unfold contribSq
  rw [dif_pos hk]
  unfold blockSumSq
  exact Finset.sum_congr rfl fun p _ => by rw [h0 p, h1]

/-- Point t's feature block is rows 5000 t … of the aggregate, -/
theorem blk_rows (c : Dev nD) (e : Fin 256) (t : Fin cfg1.N) (p : Fin 5000) :
    (iblk1 V c 0 t : Vec Ideal S5000x256 .f32) (ix2 p e)
      = (V c main_v44 : S50000x256.Idx → EReal) (ix2 (⟨t.val * 5000 + p.val, by have := p.isLt; have := lt10 t; omega⟩ : Fin 50000) e) :=
  iblk1_0_apply V c t p e _ rfl rfl

/-- THE INVARIANT: after point n the running rows hold, at column e, the contributions of blocks 0 … n. -/
theorem inv1 (c : Dev nD) (e : Fin 256) : ∀ (n : ℕ) (hn : n < cfg1.N),
    (outsAt1 V c n hn).2.2.1 (ix2 (0 : Fin 1) e) = ∑ k ∈ Finset.range (n + 1), contrib (V c main_v44) (V c main_v45) e k
    ∧ (outsAt1 V c n hn).2.2.2 (ix2 (0 : Fin 1) e) = ∑ k ∈ Finset.range (n + 1), contribSq (V c main_v44) (V c main_v45) e k
  | 0, hn => by
    obtain ⟨h0, h1⟩ := sc_zero V c hn
    refine ⟨(congrFun h0 _).trans ((pay14_apply (iblk1 V c 0 ⟨0, hn⟩) (iblk1 V c 1 ⟨0, hn⟩) (k1_pay1 (F := Ideal)) e).trans ?_),
      (congrFun h1 _).trans ((pay15_apply (iblk1 V c 0 ⟨0, hn⟩) (iblk1 V c 1 ⟨0, hn⟩) (k1_pay2 (F := Ideal)) e).trans ?_)⟩
    · rw [pay11_apply, zero_add, Finset.sum_range_one]
      exact blk_step (V c main_v44) (V c main_v45) (iblk1 V c 0 ⟨0, hn⟩) (iblk1 V c 1 ⟨0, hn⟩) e 0 (by decide) (fun p => blk_rows V c e ⟨0, hn⟩ p) (iblk1_1_apply V c ⟨0, hn⟩ e)
    · rw [pay12_apply, zero_add, Finset.sum_range_one]
      exact blk_step_sq (V c main_v44) (V c main_v45) (iblk1 V c 0 ⟨0, hn⟩) (iblk1 V c 1 ⟨0, hn⟩) e 0 (by decide) (fun p => blk_rows V c e ⟨0, hn⟩ p) (iblk1_1_apply V c ⟨0, hn⟩ e)
  | n + 1, hn => by
    obtain ⟨ih0, ih1⟩ := inv1 c e n (Nat.lt_of_succ_lt hn)
    obtain ⟨h0, h1⟩ := sc_succ V c n hn
    refine ⟨(congrFun h0 _).trans ((pay14_apply (iblk1 V c 0 ⟨n + 1, hn⟩) (iblk1 V c 1 ⟨n + 1, hn⟩) (outsAt1 V c n (Nat.lt_of_succ_lt hn)).2.2.1 e).trans ?_),
      (congrFun h1 _).trans ((pay15_apply (iblk1 V c 0 ⟨n + 1, hn⟩) (iblk1 V c 1 ⟨n + 1, hn⟩) (outsAt1 V c n (Nat.lt_of_succ_lt hn)).2.2.2 e).trans ?_)⟩
    · rw [ih0, Finset.sum_range_succ _ (n + 1)]
      exact congrArg (fun s => (∑ k ∈ Finset.range (n + 1), contrib (V c main_v44) (V c main_v45) e k) + s)
        (blk_step (V c main_v44) (V c main_v45) (iblk1 V c 0 ⟨n + 1, hn⟩) (iblk1 V c 1 ⟨n + 1, hn⟩) e (n + 1) (lt10 ⟨n + 1, hn⟩) (fun p => blk_rows V c e ⟨n + 1, hn⟩ p) (iblk1_1_apply V c ⟨n + 1, hn⟩ e))
    · rw [ih1, Finset.sum_range_succ _ (n + 1)]
      exact congrArg (fun s => (∑ k ∈ Finset.range (n + 1), contribSq (V c main_v44) (V c main_v45) e k) + s)
        (blk_step_sq (V c main_v44) (V c main_v45) (iblk1 V c 0 ⟨n + 1, hn⟩) (iblk1 V c 1 ⟨n + 1, hn⟩) e (n + 1) (lt10 ⟨n + 1, hn⟩) (fun p => blk_rows V c e ⟨n + 1, hn⟩ p) (iblk1_1_apply V c ⟨n + 1, hn⟩ e))

/-- 50000 rows are 10 blocks of 5000. -/
theorem sum_blocks_50000 {M : Type*} [AddCommMonoid M] (f : Fin 50000 → M) :
    ∑ i : Fin 50000, f i = ∑ t : Fin 10, ∑ j : Fin 5000, f ⟨t.val * 5000 + j.val, by
      have := t.isLt; have := j.isLt; omega⟩ :=
  Cert.BlockSums.sum_blocks 10 5000 f

/-- The ten blocks' contributions are the sum over all 50000 rows. -/
theorem contrib_all (a : S50000x256.Idx → EReal) (b : S1x256.Idx → EReal) (e : Fin 256) :
    ∑ k ∈ Finset.range 10, contrib a b e k = Cert.Spec.colSum a b e := by
  rw [Finset.sum_range]
  unfold Cert.Spec.colSum
  refine Eq.trans ?_ (sum_blocks_50000 (fun r : Fin 50000 => (a (ix2 r e) + b (ix2 (0 : Fin 1) e)))).symm
  refine Finset.sum_congr rfl fun t _ => ?_
  unfold contrib
  rw [dif_pos t.isLt]
  unfold blockSum
  rfl

theorem contribSq_all (a : S50000x256.Idx → EReal) (b : S1x256.Idx → EReal) (e : Fin 256) :
    ∑ k ∈ Finset.range 10, contribSq a b e k = Cert.Spec.colSumSq a b e := by
  rw [Finset.sum_range]
  unfold Cert.Spec.colSumSq
  refine Eq.trans ?_ (sum_blocks_50000 (fun r : Fin 50000 => (a (ix2 r e) + b (ix2 (0 : Fin 1) e)) * (a (ix2 r e) + b (ix2 (0 : Fin 1) e)))).symm
  refine Finset.sum_congr rfl fun t _ => ?_
  unfold contribSq
  rw [dif_pos t.isLt]
  unfold blockSumSq
  rfl

/-! ## The output arrays after the region -/

theorem lt9 : 9 < cfg1.N := by rw [show cfg1.N = 10 from N_1]; decide

/-- What the last point leaves in the two output rows' staging buffers. -/
abbrev G1_2 (c : Dev nD) : Buf (Elt Ideal) ((c : Thread nD τ).loc main_v48_0) := (outsAt1 V c 9 lt9).1
abbrev G1_3 (c : Dev nD) : Buf (Elt Ideal) ((c : Thread nD τ).loc main_v48_1) := (outsAt1 V c 9 lt9).2.1

/-- The one write-back of the first output row, at point 9, writes that: block (0, 0) of a [1, 256] array read
    through zero offsets is the array. -/
theorem flushed1_2_eq (c : Dev nD) (t : Fin cfg1.N) (hf : (cfg1.win 2).flush t = true) :
    (dat1 V c).flushed 2 t = ((cfg1.win 2).blk t).view.read (Elt Ideal) (G1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v48_0.ty.shape.size a) = fun _ => 0 := funext fun a => by fin_cases a <;> decide
  exact (Memref.read_access_unit_zero (Elt Ideal) main_v48_0 hz' (fun a => by rw [congrFun hz' a]; simp) (G1_2 V c)).symm

theorem flushed1_3_eq (c : Dev nD) (t : Fin cfg1.N) (hf : (cfg1.win 3).flush t = true) :
    (dat1 V c).flushed 3 t = ((cfg1.win 3).blk t).view.read (Elt Ideal) (G1_3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v48_1.ty.shape.size a) = fun _ => 0 := funext fun a => by fin_cases a <;> decide
  exact (Memref.read_access_unit_zero (Elt Ideal) main_v48_1 hz' (fun a => by rw [congrFun hz' a]; simp) (G1_3 V c)).symm

/-- So each output array ends holding what the last point left: point 9's block is the whole array. -/
theorem final1_2 (c : Dev nD) : (dat1 V c).arrAt 2 cfg1.N = G1_2 V c :=
  (dat1 V c).arrAt_eq_of_cover 2 (G1_2 V c) (flushed1_2_eq V c) fun i =>
    ⟨t1_9, (flush1_2 t1_9).mpr rfl, by
      show i ∈ ((View.whole main_v48_0).slice (win1_2.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 256 from by decide +kernel]; omega⟩

theorem final1_3 (c : Dev nD) : (dat1 V c).arrAt 3 cfg1.N = G1_3 V c :=
  (dat1 V c).arrAt_eq_of_cover 3 (G1_3 V c) (flushed1_3_eq V c) fun i =>
    ⟨t1_9, (flush1_3 t1_9).mpr rfl, by
      show i ∈ ((View.whole main_v48_1).slice (win1_3.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 256 from by decide +kernel]; omega⟩

/-- THE VALUE, first output row: column e holds the sum over all 50000 rows of a + bias. -/
theorem final1_sum (c : Dev nD) (e : Fin 256) :
    (dat1 (F := Ideal) V c).arrAt 2 cfg1.N (ix2 (0 : Fin 1) e) = Cert.Spec.colSum (V c main_v44) (V c main_v45) e := by
  refine (congrFun (final1_2 V c) (ix2 (0 : Fin 1) e)).trans ?_
  refine (congrFun (out_last V c 8 lt9 rfl).1 (ix2 (0 : Fin 1) e)).trans ?_
  exact ((inv1 V c e 9 lt9).1).trans (contrib_all (V c main_v44) (V c main_v45) e)

/-- THE VALUE, second output row: column e holds the sum over all 50000 rows of the squares of a + bias. -/
theorem final1_sumsq (c : Dev nD) (e : Fin 256) :
    (dat1 (F := Ideal) V c).arrAt 3 cfg1.N (ix2 (0 : Fin 1) e) = Cert.Spec.colSumSq (V c main_v44) (V c main_v45) e := by
  refine (congrFun (final1_3 V c) (ix2 (0 : Fin 1) e)).trans ?_
  refine (congrFun (out_last V c 8 lt9 rfl).2 (ix2 (0 : Fin 1) e)).trans ?_
  exact ((inv1 V c e 9 lt9).2).trans (contribSq_all (V c main_v44) (V c main_v45) e)

end Cert.KernelIdeal.HandVal

end
-- ==== Proof.KI.Val2.lean ====
/-
  Region 2's output array after the region, at the ideal values, entry by entry: entry (r, e) is
  max (gain e · ((a (r, e) + bias e) − mean e) · rdev e + offset e, 0). Each grid point writes back this
  formula on its 5000-row block of a; the five [1, 256] rows are the same block at every point and are
  spread along the rows; the ten row blocks tile the 50000 rows.
-/
import proofs.«157023_j2937757631000_1_alg».proof.Proof.KI.Reg2
import proofs.«157023_j2937757631000_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The body's payload at entry (p, e) of a block. The payload's row operands come in the order the body loads
    them: bias, gain, mean, reciprocal deviation, offset. -/
theorem pay2_apply (x0 : Vec Ideal S5000x256 .f32) (b g m r o : Vec Ideal S1x256 .f32) (p : Fin 5000) (e : Fin 256) :
    k2_pay1 (F := Ideal) x0 b g m r o (ix2 p e)
      = max (g (ix2 (0 : Fin 1) e) * ((x0 (ix2 p e) + b (ix2 (0 : Fin 1) e)) - m (ix2 (0 : Fin 1) e)) * r (ix2 (0 : Fin 1) e)
          + o (ix2 (0 : Fin 1) e)) (Ideal.ofBits .f32 0x00000000#32) := by
  unfold k2_pay1
  simp only [shapeCast_self, maximumf_apply, addf_apply, mulf_apply, subf_apply, broadcast_apply, broadcastTo_1b_ab_apply]
  rfl

/-- The printed index maps over the grid: the row-block windows sit at block (t, 0), the five rows at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregate's window's block at point t is rows 5000 t … 5000 t + 4999 of a. -/
theorem iblk2_0_apply (c : Dev nD) (t : Fin cfg2.N) (p : Fin 5000) (k : Fin 256) (i : S50000x256.Idx)
    (h0 : (i 0).val = t.val * 5000 + p.val) (h1 : (i 1).val = k.val) :
    (iblk2 V c 0 t : Vec Ideal S5000x256 .f32) (ix2 p k) = (V c main_v44 : S50000x256.Idx → EReal) i := by
  obtain ⟨e0, e1, -⟩ := idx_facts2 t
  unfold iblk2
  rw [View.read_apply]
  show V c main_v44 _ = V c main_v44 _
  refine congrArg (V c main_v44) ?_
  funext a
  apply Fin.ext
  match a with
  | ⟨0, _⟩ => show win2_0.index t (0 : Fin 2) * 5000 + 1 * p.val = (i 0).val; rw [e0, h0]; omega
  | ⟨1, _⟩ => show win2_0.index t (1 : Fin 2) * 256 + 1 * k.val = (i 1).val; rw [e1, h1]; omega

/-- The bias window's block at every point is the whole bias row. -/
theorem iblk2_1_apply (c : Dev nD) (t : Fin cfg2.N) (e : Fin 256) (i : S1x256.Idx)
    (h0 : (i 0).val = 0) (h1 : (i 1).val = e.val) :
    (iblk2 V c 1 t : Vec Ideal S1x256 .f32) (ix2 (0 : Fin 1) e) = (V c main_v45 : S1x256.Idx → EReal) i := by
  obtain ⟨-, -, e0, e1, -⟩ := idx_facts2 t
  unfold iblk2
  rw [View.read_apply]
  show V c main_v45 _ = V c main_v45 _
  refine congrArg (V c main_v45) ?_
  funext a
  apply Fin.ext
  match a with
  | ⟨0, _⟩ => show win2_1.index t (0 : Fin 2) * 1 + 1 * (0 : Fin 1).val = (i 0).val; rw [e0, h0]; rfl
  | ⟨1, _⟩ => show win2_1.index t (1 : Fin 2) * 256 + 1 * e.val = (i 1).val; rw [e1, h1]; omega

/-- The mean window's block at every point is the whole mean row. -/
theorem iblk2_2_apply (c : Dev nD) (t : Fin cfg2.N) (e : Fin 256) (i : S1x256.Idx)
    (h0 : (i 0).val = 0) (h1 : (i 1).val = e.val) :
    (iblk2 V c 2 t : Vec Ideal S1x256 .f32) (ix2 (0 : Fin 1) e) = (V c main_v50 : S1x256.Idx → EReal) i := by
  obtain ⟨-, -, -, -, e0, e1, -⟩ := idx_facts2 t
  unfold iblk2
  rw [View.read_apply]
  show V c main_v50 _ = V c main_v50 _
  refine congrArg (V c main_v50) ?_
  funext a
  apply Fin.ext
  match a with
  | ⟨0, _⟩ => show win2_2.index t (0 : Fin 2) * 1 + 1 * (0 : Fin 1).val = (i 0).val; rw [e0, h0]; rfl
  | ⟨1, _⟩ => show win2_2.index t (1 : Fin 2) * 256 + 1 * e.val = (i 1).val; rw [e1, h1]; omega

/-- The reciprocal deviation window's block at every point is the whole reciprocal deviation row. -/
theorem iblk2_3_apply (c : Dev nD) (t : Fin cfg2.N) (e : Fin 256) (i : S1x256.Idx)
    (h0 : (i 0).val = 0) (h1 : (i 1).val = e.val) :
    (iblk2 V c 3 t : Vec Ideal S1x256 .f32) (ix2 (0 : Fin 1) e) = (V c main_v57 : S1x256.Idx → EReal) i := by
  obtain ⟨-, -, -, -, -, -, e0, e1, -⟩ := idx_facts2 t
  unfold iblk2
  rw [View.read_apply]
  show V c main_v57 _ = V c main_v57 _
  refine congrArg (V c main_v57) ?_
  funext a
  apply Fin.ext
  match a with
  | ⟨0, _⟩ => show win2_3.index t (0 : Fin 2) * 1 + 1 * (0 : Fin 1).val = (i 0).val; rw [e0, h0]; rfl
  | ⟨1, _⟩ => show win2_3.index t (1 : Fin 2) * 256 + 1 * e.val = (i 1).val; rw [e1, h1]; omega

/-- The gain window's block at every point is the whole gain row. -/
theorem iblk2_4_apply (c : Dev nD) (t : Fin cfg2.N) (e : Fin 256) (i : S1x256.Idx)
    (h0 : (i 0).val = 0) (h1 : (i 1).val = e.val) :
    (iblk2 V c 4 t : Vec Ideal S1x256 .f32) (ix2 (0 : Fin 1) e) = (V c main_v46 : S1x256.Idx → EReal) i := by
  obtain ⟨-, -, -, -, -, -, -, -, e0, e1, -⟩ := idx_facts2 t
  unfold iblk2
  rw [View.read_apply]
  show V c main_v46 _ = V c main_v46 _
  refine congrArg (V c main_v46) ?_
  funext a
  apply Fin.ext
  match a with
  | ⟨0, _⟩ => show win2_4.index t (0 : Fin 2) * 1 + 1 * (0 : Fin 1).val = (i 0).val; rw [e0, h0]; rfl
  | ⟨1, _⟩ => show win2_4.index t (1 : Fin 2) * 256 + 1 * e.val = (i 1).val; rw [e1, h1]; omega

/-- The offset window's block at every point is the whole offset row. -/
theorem iblk2_5_apply (c : Dev nD) (t : Fin cfg2.N) (e : Fin 256) (i : S1x256.Idx)
    (h0 : (i 0).val = 0) (h1 : (i 1).val = e.val) :
    (iblk2 V c 5 t : Vec Ideal S1x256 .f32) (ix2 (0 : Fin 1) e) = (V c main_v47 : S1x256.Idx → EReal) i := by
  obtain ⟨-, -, -, -, -, -, -, -, -, -, e0, e1, -⟩ := idx_facts2 t
  unfold iblk2
  rw [View.read_apply]
  show V c main_v47 _ = V c main_v47 _
  refine congrArg (V c main_v47) ?_
  funext a
  apply Fin.ext
  match a with
  | ⟨0, _⟩ => show win2_5.index t (0 : Fin 2) * 1 + 1 * (0 : Fin 1).val = (i 0).val; rw [e0, h0]; rfl
  | ⟨1, _⟩ => show win2_5.index t (1 : Fin 2) * 256 + 1 * e.val = (i 1).val; rw [e1, h1]; omega

/-- The output array as one function of the region's input arrays. -/
def G2 (c : Dev nD) : S50000x256.Idx → EReal :=
  fun i => Cert.Spec.applyAt (V c main_v44) (V c main_v45) (V c main_v50) (V c main_v57) (V c main_v46) (V c main_v47) (i 0) (i 1)

/-- What point t writes back is block t of `G2`. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S5000x256) hz2, View.ld_unit_zero (S := S1x256) hz2]
  funext j
  obtain ⟨p, e, rfl⟩ : ∃ (p : Fin 5000) (e : Fin 256), j = ix2 p e := ⟨j 0, j 1, eq_ix2 j⟩
  show k2_pay1 (F := Ideal) (iblk2 V c 0 t) (iblk2 V c 1 t) (iblk2 V c 4 t) (iblk2 V c 2 t) (iblk2 V c 3 t) (iblk2 V c 5 t) (ix2 p e)
    = G2 V c (((cfg2.win 6).blk t).view.emb (ix2 p e))
  obtain ⟨-, -, -, -, -, -, -, -, -, -, -, -, e12, e13⟩ := idx_facts2 t
  have hr : ((((cfg2.win 6).blk t).view.emb (ix2 p e)) 0).val = t.val * 5000 + p.val := by
    show win2_6.index t (0 : Fin 2) * 5000 + 1 * p.val = _; rw [e12]; omega
  have hc : ((((cfg2.win 6).blk t).view.emb (ix2 p e)) 1).val = e.val := by
    show win2_6.index t (1 : Fin 2) * 256 + 1 * e.val = _; rw [e13]; omega
  refine (pay2_apply _ _ _ _ _ _ p e).trans ?_
  unfold G2 Cert.Spec.applyAt
  exact congrArg (max · (Ideal.ofBits .f32 0x00000000#32))
    (congrArg₂ (· + ·)
      (congrArg₂ (· * ·)
        (congrArg₂ (· * ·) (iblk2_4_apply V c t e _ rfl hc)
          (congrArg₂ (· - ·)
            (congrArg₂ (· + ·) (iblk2_0_apply V c t p e _ hr hc) (iblk2_1_apply V c t e _ rfl hc))
            (iblk2_2_apply V c t e _ rfl hc)))
        (iblk2_3_apply V c t e _ rfl hc))
      (iblk2_5_apply V c t e _ rfl hc))

/-- An index of the array is in point t's block iff each coordinate is in the block's range on its axis. -/
theorem mem_blk2 (t : Fin cfg2.N) (i : S50000x256.Idx) :
    i ∈ ((cfg2.win 6).blk t).view.set ↔ ∀ a : Fin 2, win2_6.index t a * S5000x256.size a ≤ (i a).val ∧ (i a).val < win2_6.index t a * S5000x256.size a + S5000x256.size a := by
  show i ∈ ((View.whole main_v58).slice (win2_6.rect t)).set ↔ _
  rw [View.set_slice_whole, Rect.mem_set_unit]
  exact Iff.rfl

/-- Every entry lies in the block of the point its row falls in: row r in block r / 5000. -/
theorem cover2 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 10 := N_2
  refine ⟨⟨(i 0).val / 5000, by rw [hN]; omega⟩, flush2_6 _, ?_⟩
  rw [mem_blk2]
  obtain ⟨-, -, -, -, -, -, -, -, -, -, -, -, e12, e13⟩ := idx_facts2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e12]; show (i 0).val / 5000 * 5000 ≤ (i 0).val ∧ (i 0).val < (i 0).val / 5000 * 5000 + 5000; omega
  | ⟨1, _⟩ =>
    show win2_6.index _ (1 : Fin 2) * 256 ≤ (i 1).val ∧ (i 1).val < win2_6.index _ (1 : Fin 2) * 256 + 256
    rw [e13]; omega

/-- The output array after the region is `G2`. -/
theorem arr2_eq (c : Dev nD) : (dat2 (F := Ideal) V c).arrAt 6 cfg2.N = G2 V c :=
  (dat2 (F := Ideal) V c).arrAt_eq_of_cover 6 (G2 V c) (fun t _ => flushed2_eq V c t) cover2

/-- Entry (r, e) of the output after the region. -/
theorem final2 (c : Dev nD) (r : Fin 50000) (e : Fin 256) :
    (dat2 (F := Ideal) V c).arrAt 6 cfg2.N (ix2 r e)
      = Cert.Spec.applyAt (V c main_v44) (V c main_v45) (V c main_v50) (V c main_v57) (V c main_v46) (V c main_v47) r e :=
  congrFun (arr2_eq V c) (ix2 r e)

end Cert.KernelIdeal.HandVal

end
-- ==== Proof.KI.Stats.lean ====
/-
  The statistics rows the last host stretch computes from region 1's two outputs.

  Region 1 leaves, in two rows [1, 256], the column sums of y = aggregate + bias and of y². The stretch after
  it divides both by the row count, subtracts the square of the first quotient from the second, adds the small
  constant and takes the reciprocal square root. Read at a column, these are the mean row and the
  reciprocal-deviation row of the specification.
-/
import proofs.«157023_j2937757631000_1_alg».proof.Proof.KI.Run
import proofs.«157023_j2937757631000_1_alg».proof.Proof.Spec
import Idealize.ShloMosaic.Lib.StableHlo.Run
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The mean row as the stretch computes it: region 1's first output over the row count. -/
theorem v50_eq (c : Dev nD) : (En6 m ρ c main_v50 : S1x256.Idx → EReal)
    = Host.divf (F := Ideal) (Bd5 m ρ c (Proc.devRef .tc main_v48_0))
        (broadcastInDim S1x256 ![] bcast_S_S1x256 (constant (F := Ideal) S_ .f32 0x47435000#32)) := by
  after_results; rfl

/-- The reciprocal-deviation row as the stretch computes it. -/
theorem v57_eq (c : Dev nD) : (En6 m ρ c main_v57 : S1x256.Idx → EReal)
    = Host.rsqrt (F := Ideal) (addf (subf
        (Host.divf (F := Ideal) (Bd5 m ρ c (Proc.devRef .tc main_v48_1))
          (broadcastInDim S1x256 ![] bcast_S_S1x256 (constant (F := Ideal) S_ .f32 0x47435000#32)))
        (mulf (Host.divf (F := Ideal) (Bd5 m ρ c (Proc.devRef .tc main_v48_0))
            (broadcastInDim S1x256 ![] bcast_S_S1x256 (constant (F := Ideal) S_ .f32 0x47435000#32)))
          (Host.divf (F := Ideal) (Bd5 m ρ c (Proc.devRef .tc main_v48_0))
            (broadcastInDim S1x256 ![] bcast_S_S1x256 (constant (F := Ideal) S_ .f32 0x47435000#32)))))
        (broadcastInDim S1x256 ![] bcast_S_S1x256 (constant (F := Ideal) S_ .f32 0x3727C5AC#32))) := by
  after_results; rfl

theorem mean_row (c : Dev nD)
    (hsum : ∀ e : Fin 256, (dat1 (F := Ideal) (En4 m ρ) c).arrAt 2 cfg1.N (ix2 (0 : Fin 1) e)
      = Cert.Spec.colSum (En4 m ρ c main_v44) (En4 m ρ c main_v45) e) :
    (En6 m ρ c main_v50 : S1x256.Idx → EReal) = Cert.Spec.meanRow (En4 m ρ c main_v44) (En4 m ρ c main_v45) := by
  rw [v50_eq]
  refine funext fun (j : S1x256.Idx) => ?_
  obtain ⟨a, e, rfl⟩ : ∃ (a : Fin 1) (e : Fin 256), j = ix2 a e := ⟨j 0, j 1, eq_ix2 j⟩
  obtain rfl : a = 0 := Subsingleton.elim _ _
  have h2 : Bd5 m ρ c (Proc.devRef .tc main_v48_0) = (dat1 (F := Ideal) (En4 m ρ) c).arrAt 2 cfg1.N := Bd5_arr m ρ c 2
  show Ideal.div (Bd5 m ρ c (Proc.devRef .tc main_v48_0) (ix2 (0 : Fin 1) e)) (Ideal.ofBits .f32 0x47435000#32)
    = Ideal.div (Cert.Spec.colSum (En4 m ρ c main_v44) (En4 m ρ c main_v45) e) (Ideal.ofBits .f32 0x47435000#32)
  rw [← hsum e, h2]

theorem rdev_row (c : Dev nD)
    (hsum : ∀ e : Fin 256, (dat1 (F := Ideal) (En4 m ρ) c).arrAt 2 cfg1.N (ix2 (0 : Fin 1) e)
      = Cert.Spec.colSum (En4 m ρ c main_v44) (En4 m ρ c main_v45) e)
    (hsq : ∀ e : Fin 256, (dat1 (F := Ideal) (En4 m ρ) c).arrAt 3 cfg1.N (ix2 (0 : Fin 1) e)
      = Cert.Spec.colSumSq (En4 m ρ c main_v44) (En4 m ρ c main_v45) e) :
    (En6 m ρ c main_v57 : S1x256.Idx → EReal) = Cert.Spec.rdevRow (En4 m ρ c main_v44) (En4 m ρ c main_v45) := by
  rw [v57_eq]
  refine funext fun (j : S1x256.Idx) => ?_
  obtain ⟨a, e, rfl⟩ : ∃ (a : Fin 1) (e : Fin 256), j = ix2 a e := ⟨j 0, j 1, eq_ix2 j⟩
  obtain rfl : a = 0 := Subsingleton.elim _ _
  have h2 : Bd5 m ρ c (Proc.devRef .tc main_v48_0) = (dat1 (F := Ideal) (En4 m ρ) c).arrAt 2 cfg1.N := Bd5_arr m ρ c 2
  have h3 : Bd5 m ρ c (Proc.devRef .tc main_v48_1) = (dat1 (F := Ideal) (En4 m ρ) c).arrAt 3 cfg1.N := Bd5_arr m ρ c 3
  show Ideal.rsqrt (Ideal.div (Bd5 m ρ c (Proc.devRef .tc main_v48_1) (ix2 (0 : Fin 1) e)) (Ideal.ofBits .f32 0x47435000#32)
      - Ideal.div (Bd5 m ρ c (Proc.devRef .tc main_v48_0) (ix2 (0 : Fin 1) e)) (Ideal.ofBits .f32 0x47435000#32)
        * Ideal.div (Bd5 m ρ c (Proc.devRef .tc main_v48_0) (ix2 (0 : Fin 1) e)) (Ideal.ofBits .f32 0x47435000#32)
      + Ideal.ofBits .f32 0x3727C5AC#32)
    = Ideal.rsqrt (Ideal.div (Cert.Spec.colSumSq (En4 m ρ c main_v44) (En4 m ρ c main_v45) e) (Ideal.ofBits .f32 0x47435000#32)
      - Ideal.div (Cert.Spec.colSum (En4 m ρ c main_v44) (En4 m ρ c main_v45) e) (Ideal.ofBits .f32 0x47435000#32)
        * Ideal.div (Cert.Spec.colSum (En4 m ρ c main_v44) (En4 m ρ c main_v45) e) (Ideal.ofBits .f32 0x47435000#32)
      + Ideal.ofBits .f32 0x3727C5AC#32)
  rw [← hsum e, ← hsq e, h2, h3]

end Cert.KernelIdeal.HandVal

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.KI.Val0.lean ====
/-
  Region 0's output array after the region, at the ideal values, entry by entry: entry (r, e) of the
  projected features is the sum over k of x (r, k) · W (e, k). Each grid point writes back the product
  of its 5000-row block of x with the whole of W; the rounding steps are the identity over the
  extended reals and the product into a zero accumulator is the plain sum; the ten row blocks tile the
  50000 rows.
-/
import proofs.«157023_j2937757631000_1_alg».proof.Proof.KI.Reg0
import proofs.«157023_j2937757631000_1_alg».proof.Proof.Spec
import proofs.«157023_j2937757631000_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The body's payload at entry (p, e) of a block: row p of the row block against row e of the weights. -/
theorem pay0_apply (x0 : Vec Ideal S5000x256 .f32) (x1 : Vec Ideal S256x256 .f32) (p : Fin 5000) (e : Fin 256) :
    k0_pay1 (F := Ideal) x0 x1 (ix2 p e) = ∑ k : Fin 256, x0 (ix2 p k) * x1 (ix2 e k) :=
  Cert.DotNT.matmul_zero_apply (M := 5000) (K := 256) (N := 256) (φ₁ := .bf16) (φ₂ := .bf16) dot_S5000x256_S256x256_S5000x256_1_1_0_0_n_n rfl none x0 x1 p e

/-- The printed index maps over the grid: the row windows sit at block (t, 0), the weights at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x window's block at point t is rows 5000 t … 5000 t + 4999 of x. -/
theorem iblk0_0_apply (c : Dev nD) (t : Fin cfg0.N) (p : Fin 5000) (k : Fin 256) (i : S50000x256.Idx)
    (h0 : (i 0).val = t.val * 5000 + p.val) (h1 : (i 1).val = k.val) :
    (iblk0 V c 0 t : Vec Ideal S5000x256 .f32) (ix2 p k) = (V c main_arg0 : S50000x256.Idx → EReal) i := by
  obtain ⟨e0, e1, -, -, -, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = (i 0).val; rw [e0, h0]; omega
  | ⟨1, _⟩ => show win0_0.index t (1 : Fin 2) * 256 + 1 * k.val = (i 1).val; rw [e1, h1]; omega

/-- The weight window's block at every point is the whole of W. -/
theorem iblk0_1_apply (c : Dev nD) (t : Fin cfg0.N) (e : Fin 256) (k : Fin 256) (i : S256x256.Idx)
    (h0 : (i 0).val = e.val) (h1 : (i 1).val = k.val) :
    (iblk0 V c 1 t : Vec Ideal S256x256 .f32) (ix2 e k) = (V c main_arg2 : S256x256.Idx → EReal) i := by
  obtain ⟨-, -, e0, e1, -, -⟩ := idx_facts0 t
  unfold iblk0
  rw [View.read_apply]
  show V c main_arg2 _ = V c main_arg2 _
  refine congrArg (V c main_arg2) ?_
  funext a
  apply Fin.ext
  match a with
  | ⟨0, _⟩ => show win0_1.index t (0 : Fin 2) * 256 + 1 * e.val = (i 0).val; rw [e0, h0]; omega
  | ⟨1, _⟩ => show win0_1.index t (1 : Fin 2) * 256 + 1 * k.val = (i 1).val; rw [e1, h1]; omega

/-- The output array as one function of the region's input arrays. -/
def G0 (c : Dev nD) : S50000x256.Idx → EReal :=
  fun i => Cert.Spec.projAt (V c main_arg0) (V c main_arg2) (i 0) (i 1)

/-- What point t writes back is block t of `G0`. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz0]
  simp only [View.ld_unit_zero (S := S5000x256) hz0, View.ld_unit_zero (S := S256x256) hz0]
  funext j
  obtain ⟨p, e, rfl⟩ : ∃ (p : Fin 5000) (e : Fin 256), j = ix2 p e := ⟨j 0, j 1, eq_ix2 j⟩
  show k0_pay1 (F := Ideal) (iblk0 V c 0 t) (iblk0 V c 1 t) (ix2 p e) = G0 V c (((cfg0.win 2).blk t).view.emb (ix2 p e))
  obtain ⟨-, -, -, -, e4, e5⟩ := idx_facts0 t
  have hr : ((((cfg0.win 2).blk t).view.emb (ix2 p e)) 0).val = t.val * 5000 + p.val := by
    show win0_2.index t (0 : Fin 2) * 5000 + 1 * p.val = _; rw [e4]; omega
  have hc : ((((cfg0.win 2).blk t).view.emb (ix2 p e)) 1).val = e.val := by
    show win0_2.index t (1 : Fin 2) * 256 + 1 * e.val = _; rw [e5]; omega
  refine (pay0_apply _ _ p e).trans ?_
  unfold G0 Cert.Spec.projAt
  refine Finset.sum_congr rfl fun k _ => ?_
  exact congrArg₂ (· * ·) (iblk0_0_apply V c t p k _ hr rfl) (iblk0_1_apply V c t e k _ hc rfl)

/-- An index of the array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Every entry lies in the block of the point its row falls in: row r in block r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- The projected-features array after the region is `G0`. -/
theorem arr0_eq (c : Dev nD) : (dat0 (F := Ideal) V c).arrAt 2 cfg0.N = G0 V c :=
  (dat0 (F := Ideal) V c).arrAt_eq_of_cover 2 (G0 V c) (fun t _ => flushed0_eq V c t) cover0

/-- Entry (r, e) of the projected features after the region. -/
theorem final0 (c : Dev nD) (r : Fin 50000) (e : Fin 256) :
    (dat0 (F := Ideal) V c).arrAt 2 cfg0.N (ix2 r e) = Cert.Spec.projAt (V c main_arg0) (V c main_arg2) r e :=
  congrFun (arr0_eq V c) (ix2 r e)

end Cert.KernelIdeal.HandVal

end
-- ==== Proof.RefProj.lean ====
/-
  The reference's projection at an index.

  The reference computes h = x · Wᵀ as a general dot product of x with the transpose of W, contracting
  x's second axis with the transpose's first. Read at the entry (r, e) this is the sum over k of
  x (r, k) times the transpose at (k, e), and the transpose at (k, e) is W (e, k): the sum over k of
  x (r, k) · W (e, k), the projection formula.
-/
import proofs.«157023_j2937757631000_1_alg».proof.Proof.RefRead
import proofs.«157023_j2937757631000_1_alg».proof.Proof.Spec

noncomputable section

namespace Cert.ReferenceIdeal.RefValue

open Cert.ReferenceIdeal Cert.ReferenceIdeal.Gen Idealize.ShloMosaic Idealize.ShloMosaic.ValueIdx
open scoped BigOperators

/-- The left operand's index at output entry (r, e) and contraction coordinate k is (r, k). -/
theorem lidx_proj (r : Fin 50000) (e : Fin 256) (k : Fin 256) :
    ReadP.lidx_main_v8 (ix2 r e) k = ix2 r k :=
  funext fun a => Fin.ext (by match a with | ⟨0, _⟩ => rfl | ⟨1, _⟩ => rfl)

/-- The right operand is the transpose: its index (k, e) reads W at (e, k). -/
theorem ridx_proj (r : Fin 50000) (e : Fin 256) (k : Fin 256) :
    ReadP.idx_main_v7 (ReadP.ridx_main_v8 (ix2 r e) k) = ix2 e k :=
  funext fun a => Fin.ext (by match a with | ⟨0, _⟩ => rfl | ⟨1, _⟩ => rfl)

/-- Entry (r, e) of the reference's x · Wᵀ is the sum over k of x (r, k) · W (e, k). -/
theorem ref_proj (x : (⟨S50000x256, .f32⟩ : BufTy).Contents (Elt Ideal))
    (W : (⟨S256x256, .f32⟩ : BufTy).Contents (Elt Ideal)) (r : Fin 50000) (e : Fin 256) :
    ReadP.val_main_v8 (F := Ideal) x W (ix2 r e) = Cert.Spec.projAt x W r e := by
  rw [ReadP.val_main_v8_apply]
  unfold Cert.Spec.projAt
  refine Finset.sum_congr rfl fun k _ => ?_
  rw [ReadP.val_main_v7_apply, lidx_proj, ridx_proj]

end Cert.ReferenceIdeal.RefValue

end
-- ==== Proof.KI.ChainOps.lean ====
/-
  The kernel program's three host stretches between the projection and the column statistics, as
  operations on any buffer contents W, read against the reference program's named stages.

  The first stretch appends a self-loop to each of the two edge lists, counts in-degrees by a scatter-add
  of ones, and takes the positivity test and the inverse square root of the degrees; the second puts zero
  where the degree is not positive; the third normalises the three index lists, gathers the inverse
  roots of each edge's two ends and multiplies them, gathers the projected row of each edge's source,
  scales it, and scatter-adds the scaled rows to the destinations. Each result is, operation for
  operation, the reference program's stage of the same name over the same inputs; the gathered rows pass
  through a widening of the float format, which is the identity over the extended reals.
-/
import proofs.«157023_j2937757631000_1_alg».proof.Proof.Gen.KernelIdeal.Launch
import proofs.«157023_j2937757631000_1_alg».proof.Proof.RefRead
import Idealize.ShloMosaic.Lib.StableHlo.Run
import Idealize.ShloMosaic.Lib.Pipeline.Value
import Idealize.ShloMosaic.Lib.ValueIdx

noncomputable section

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

open Cert.ReferenceIdeal.ReadP

variable (W : Valuation τ sig (Elt Ideal))

/-! Each stage lemma computes the stretch's fold at one buffer and compares it, as a term, with the reference's stage. -/

/-! ## The first stretch: the edge lists with self-loops, the degrees, their inverse roots -/

theorem s1_v4 : StableHlo.after hostOps1 W (Proc.devRef .tc main_v4) = val_main_v3 (F := Ideal) (W (Proc.devRef .tc main_arg1)) := by
  after_results
  rfl

theorem s1_v7 : StableHlo.after hostOps1 W (Proc.devRef .tc main_v7) = val_main_v6 (F := Ideal) (W (Proc.devRef .tc main_arg1)) := by
  after_results
  rfl

theorem s1_v13 : StableHlo.after hostOps1 W (Proc.devRef .tc main_v13) = val_main_v14 (F := Ideal) (W (Proc.devRef .tc main_arg1)) := by
  after_results
  rfl

theorem s1_v14 : StableHlo.after hostOps1 W (Proc.devRef .tc main_v14) = val_main_v15 (F := Ideal) (W (Proc.devRef .tc main_arg1)) := by
  after_results
  rfl

theorem s1_cst_2 : StableHlo.after hostOps1 W (Proc.devRef .tc main_cst_2) = val_main_cst_2 (F := Ideal) := by
  after_results
  rfl

/-! ## The second stretch: zero where the degree is not positive -/

theorem s2_v15 (x1 : (⟨Cert.ReferenceIdeal.S2x800000, .i32⟩ : BufTy).Contents (Elt Ideal))
    (h13 : W (Proc.devRef .tc main_v13) = val_main_v14 (F := Ideal) x1)
    (h14 : W (Proc.devRef .tc main_v14) = val_main_v15 (F := Ideal) x1)
    (hc : W (Proc.devRef .tc main_cst_2) = val_main_cst_2 (F := Ideal)) :
    StableHlo.after hostOps1_1 W (Proc.devRef .tc main_v15) = val_main_v16 (F := Ideal) x1 := by
  after_results
  show select (W (Proc.devRef .tc main_v13) : (⟨S50000, .i1⟩ : BufTy).Contents (Elt Ideal))
      (W (Proc.devRef .tc main_v14) : (⟨S50000, .f32⟩ : BufTy).Contents (Elt Ideal))
      (broadcastInDim S50000 ![] bcast_S_S50000 (id (W (Proc.devRef .tc main_cst_2) : (⟨S_, .f32⟩ : BufTy).Contents (Elt Ideal)))) = _
  rw [h13, h14, hc]
  rfl

/-! ## The third stretch: the edge weights, the gathered rows, the scatter-add -/

/-- The results still standing after the one-pass rewriting, one at a time. -/
local macro "results_rest" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

set_option maxHeartbeats 40000000 in
theorem s3_v44 (x1 : (⟨Cert.ReferenceIdeal.S2x800000, .i32⟩ : BufTy).Contents (Elt Ideal))
    (h : (⟨Cert.ReferenceIdeal.S50000x256, .f32⟩ : BufTy).Contents (Elt Ideal))
    (h4 : W (Proc.devRef .tc main_v4) = val_main_v3 (F := Ideal) x1)
    (h7 : W (Proc.devRef .tc main_v7) = val_main_v6 (F := Ideal) x1)
    (h15 : W (Proc.devRef .tc main_v15) = val_main_v16 (F := Ideal) x1)
    (h0 : (W (Proc.devRef .tc main_v0) : S50000x256.Idx → EReal) = h) :
    StableHlo.after hostOps1_2 W (Proc.devRef .tc main_v44)
      = Host.scatterAdd (F := Ideal) (φ := .f32) Cert.ReferenceIdeal.scatter_S50000x256_S850000x1_S850000x256_1_0_0_1
          (val_main_v42 (F := Ideal)) (val_main_v43 (F := Ideal) x1)
          (mulf (F := Ideal) (φ := .f32) (Host.gather Cert.ReferenceIdeal.gather_S50000x256_S850000x1_S850000x256_1_0_n_n_0_1_1256 h (val_main_v37 (F := Ideal) x1))
            (val_main_v40 (F := Ideal) x1)) := by
  after_results_simp
  rw [h4, h7, h15, h0]
  rfl

end Cert.KernelIdeal.HandVal

end
-- ==== Proof.KI.Chain.lean ====
/-
  The kernel program's host stretches between the regions, read at the ideal values.

  Between the projection (region 0) and the column statistics (region 1) the host normalises the graph:
  it appends a self-loop to every node, counts each node's in-degree by a scatter-add of ones, takes the
  inverse square root of the degrees (zero where the degree is not positive), gathers the projected row of
  every edge's source, scales it by the product of the inverse roots of the edge's two ends, and
  scatter-adds the scaled rows to the edges' destinations. The reference program computes the same
  aggregate with the same operations from its own projection; so once the kernel's projected features
  are known to be the reference's, the two aggregates are the same term. The three parameter vectors
  become rows [1, 256] by a reshape, and nothing between the statistics and the normalisation touches the
  aggregate or the rows.
-/
import proofs.«157023_j2937757631000_1_alg».proof.Proof.KI.Run
import proofs.«157023_j2937757631000_1_alg».proof.Proof.KI.Val0
import proofs.«157023_j2937757631000_1_alg».proof.Proof.RefRead
import proofs.«157023_j2937757631000_1_alg».proof.Proof.RefProj
import proofs.«157023_j2937757631000_1_alg».proof.Proof.Spec
import proofs.«157023_j2937757631000_1_alg».proof.Proof.KI.ChainOps
import Idealize.ShloMosaic.Lib.StableHlo.Run
import Idealize.ShloMosaic.Lib.Pipeline.Value
import Idealize.ShloMosaic.Lib.ValueIdx

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The parameter rows -/

/-- A 256-vector reshaped to a row [1, 256], read at an index: the vector at the index's second coordinate. -/
theorem reshape_row (v : S256.Idx → EReal) (j : S1x256.Idx) :
    shapeCast S1x256 v shapeCasts_S256_S1x256 j = v (ix1 (j 1)) :=
  shapeCast_apply v shapeCasts_S256_S1x256 j (ix1 (j 1))
    (by rewrite [Shape.rowMajor_val_one, Shape.rowMajor_val_two]; have h0 : (j 0).val < 1 := (j 0).isLt
        show (j 1).val = (j 0).val * 256 + (j 1).val; omega)

/-- The bias vector reaches the third stretch as launched: region 0 and the first two stretches leave it alone. -/
theorem Bd3_main_arg3 : Bd3 m ρ c (Proc.devRef .tc main_arg3) = m ((c.tc : Thread nD τ).loc main_arg3) :=
  calc Bd3 m ρ c (Proc.devRef .tc main_arg3)
    _ = Bd2 m ρ c (Proc.devRef .tc main_arg3) := StableHlo.after_of_writes_sub hostOps1_1 _ Gen.hostOps1_1_writes (by decide)
    _ = Bd1 m ρ c (Proc.devRef .tc main_arg3) := StableHlo.after_of_writes_sub hostOps1 _ Gen.hostOps1_writes (by decide)
    _ = Bd0 m ρ c (Proc.devRef .tc main_arg3) := Bd1_of_ne m ρ c main_arg3 (by decide)
    _ = m ((c.tc : Thread nD τ).loc main_arg3) := rfl

/-- The gain vector reaches the third stretch as launched: region 0 and the first two stretches leave it alone. -/
theorem Bd3_main_arg4 : Bd3 m ρ c (Proc.devRef .tc main_arg4) = m ((c.tc : Thread nD τ).loc main_arg4) :=
  calc Bd3 m ρ c (Proc.devRef .tc main_arg4)
    _ = Bd2 m ρ c (Proc.devRef .tc main_arg4) := StableHlo.after_of_writes_sub hostOps1_1 _ Gen.hostOps1_1_writes (by decide)
    _ = Bd1 m ρ c (Proc.devRef .tc main_arg4) := StableHlo.after_of_writes_sub hostOps1 _ Gen.hostOps1_writes (by decide)
    _ = Bd0 m ρ c (Proc.devRef .tc main_arg4) := Bd1_of_ne m ρ c main_arg4 (by decide)
    _ = m ((c.tc : Thread nD τ).loc main_arg4) := rfl

/-- The offset vector reaches the third stretch as launched: region 0 and the first two stretches leave it alone. -/
theorem Bd3_main_arg5 : Bd3 m ρ c (Proc.devRef .tc main_arg5) = m ((c.tc : Thread nD τ).loc main_arg5) :=
  calc Bd3 m ρ c (Proc.devRef .tc main_arg5)
    _ = Bd2 m ρ c (Proc.devRef .tc main_arg5) := StableHlo.after_of_writes_sub hostOps1_1 _ Gen.hostOps1_1_writes (by decide)
    _ = Bd1 m ρ c (Proc.devRef .tc main_arg5) := StableHlo.after_of_writes_sub hostOps1 _ Gen.hostOps1_writes (by decide)
    _ = Bd0 m ρ c (Proc.devRef .tc main_arg5) := Bd1_of_ne m ρ c main_arg5 (by decide)
    _ = m ((c.tc : Thread nD τ).loc main_arg5) := rfl

/-- The bias row the later regions read is the launched bias vector as a row. -/
theorem rows_v45 : En4 m ρ c main_v45 = Cert.Spec.rowOf (m ((c.tc : Thread nD τ).loc main_arg3)) := by
  have e : ∀ W : Valuation τ sig (Elt Ideal), StableHlo.after hostOps1_2 W (Proc.devRef .tc main_v45)
      = fun i => shapeCast S1x256 (W (Proc.devRef .tc main_arg3)) shapeCasts_S256_S1x256 i := by
    intro W
    after_results
    rfl
  show StableHlo.after hostOps1_2 (Bd3 m ρ c) (Proc.devRef .tc main_v45) = _
  rw [e, Bd3_main_arg3]
  funext j
  exact reshape_row _ j

/-- The gain row the later regions read is the launched gain vector as a row. -/
theorem rows_v46 : En4 m ρ c main_v46 = Cert.Spec.rowOf (m ((c.tc : Thread nD τ).loc main_arg4)) := by
  have e : ∀ W : Valuation τ sig (Elt Ideal), StableHlo.after hostOps1_2 W (Proc.devRef .tc main_v46)
      = fun i => shapeCast S1x256 (W (Proc.devRef .tc main_arg4)) shapeCasts_S256_S1x256 i := by
    intro W
    after_results
    rfl
  show StableHlo.after hostOps1_2 (Bd3 m ρ c) (Proc.devRef .tc main_v46) = _
  rw [e, Bd3_main_arg4]
  funext j
  exact reshape_row _ j

/-- The offset row the later regions read is the launched offset vector as a row. -/
theorem rows_v47 : En4 m ρ c main_v47 = Cert.Spec.rowOf (m ((c.tc : Thread nD τ).loc main_arg5)) := by
  have e : ∀ W : Valuation τ sig (Elt Ideal), StableHlo.after hostOps1_2 W (Proc.devRef .tc main_v47)
      = fun i => shapeCast S1x256 (W (Proc.devRef .tc main_arg5)) shapeCasts_S256_S1x256 i := by
    intro W
    after_results
    rfl
  show StableHlo.after hostOps1_2 (Bd3 m ρ c) (Proc.devRef .tc main_v47) = _
  rw [e, Bd3_main_arg5]
  funext j
  exact reshape_row _ j

/-! ## Nothing between the statistics and the normalisation touches the aggregate or the rows -/

/-- Region 1 stages the aggregate as an input window and the stretch after it does not write it. -/
theorem pass_v44 : En6 m ρ c main_v44 = En4 m ρ c main_v44 :=
  calc Bd6 m ρ c (Proc.devRef .tc main_v44)
    _ = Bd5 m ρ c (Proc.devRef .tc main_v44) := StableHlo.after_of_writes_sub hostOps2 _ Gen.hostOps2_writes (by decide)
    _ = Bd4 m ρ c (Proc.devRef .tc main_v44) := (Bd5_arr m ρ c 0).trans (((dat1 (En4 m ρ) c).arrAt_in 0 rfl _).trans (A_eq1 (En4 m ρ) c 0))

/-- Region 1 stages the bias row as an input window and the stretch after it does not write it. -/
theorem pass_v45 : En6 m ρ c main_v45 = En4 m ρ c main_v45 :=
  calc Bd6 m ρ c (Proc.devRef .tc main_v45)
    _ = Bd5 m ρ c (Proc.devRef .tc main_v45) := StableHlo.after_of_writes_sub hostOps2 _ Gen.hostOps2_writes (by decide)
    _ = Bd4 m ρ c (Proc.devRef .tc main_v45) := (Bd5_arr m ρ c 1).trans (((dat1 (En4 m ρ) c).arrAt_in 1 rfl _).trans (A_eq1 (En4 m ρ) c 1))

/-- The gain row is no window of region 1 and the stretch after it does not write it. -/
theorem pass_v46 : En6 m ρ c main_v46 = En4 m ρ c main_v46 :=
  calc Bd6 m ρ c (Proc.devRef .tc main_v46)
    _ = Bd5 m ρ c (Proc.devRef .tc main_v46) := StableHlo.after_of_writes_sub hostOps2 _ Gen.hostOps2_writes (by decide)
    _ = Bd4 m ρ c (Proc.devRef .tc main_v46) := Bd5_of_ne m ρ c main_v46 (by decide)

/-- The offset row is no window of region 1 and the stretch after it does not write it. -/
theorem pass_v47 : En6 m ρ c main_v47 = En4 m ρ c main_v47 :=
  calc Bd6 m ρ c (Proc.devRef .tc main_v47)
    _ = Bd5 m ρ c (Proc.devRef .tc main_v47) := StableHlo.after_of_writes_sub hostOps2 _ Gen.hostOps2_writes (by decide)
    _ = Bd4 m ρ c (Proc.devRef .tc main_v47) := Bd5_of_ne m ρ c main_v47 (by decide)

/-! ## The aggregate is the reference's -/

open Cert.ReferenceIdeal.ReadP in
/-- The aggregate the column statistics and the normalisation read is the reference program's aggregate of the
    launched features, edge list and weights: the kernel's projected features are the reference's, entry by
    entry the sum over k of x (r, k) · W (e, k), and from there on the two programs apply the same operations. -/
theorem agg_eq : (En4 m ρ c main_v44 : S50000x256.Idx → EReal)
    = Cert.ReferenceIdeal.ReadP.val_main_v44 (F := Ideal) (m ((c.tc : Thread nD τ).loc main_arg0))
        (m ((c.tc : Thread nD τ).loc main_arg1)) (m ((c.tc : Thread nD τ).loc main_arg2)) := by
  -- the edge list enters the stretches as launched
  have a1 : Bd1 m ρ c (Proc.devRef .tc main_arg1) = m ((c.tc : Thread nD τ).loc main_arg1) :=
    (Bd1_of_ne m ρ c main_arg1 (by decide)).trans rfl
  -- the projected features region 0 leaves are the reference's
  have hK : (Bd1 m ρ c (Proc.devRef .tc main_v0) : S50000x256.Idx → EReal)
      = val_main_v8 (F := Ideal) (m ((c.tc : Thread nD τ).loc main_arg0)) (m ((c.tc : Thread nD τ).loc main_arg2)) := by
    funext i
    obtain ⟨r, e, rfl⟩ : ∃ (r : Fin 50000) (e : Fin 256), i = ix2 r e := ⟨i 0, i 1, eq_ix2 i⟩
    exact (congrFun (Bd1_arr m ρ c 2) (ix2 r e)).trans
      ((final0 (En0 m ρ) c r e).trans (Cert.ReferenceIdeal.RefValue.ref_proj _ _ r e).symm)
  -- the stretches, stage by stage
  have h4 : Bd3 m ρ c (Proc.devRef .tc main_v4) = val_main_v3 (F := Ideal) (m ((c.tc : Thread nD τ).loc main_arg1)) :=
    (StableHlo.after_of_writes_sub hostOps1_1 _ Gen.hostOps1_1_writes (by decide)).trans ((s1_v4 (Bd1 m ρ c)).trans (by rw [a1]))
  have h7 : Bd3 m ρ c (Proc.devRef .tc main_v7) = val_main_v6 (F := Ideal) (m ((c.tc : Thread nD τ).loc main_arg1)) :=
    (StableHlo.after_of_writes_sub hostOps1_1 _ Gen.hostOps1_1_writes (by decide)).trans ((s1_v7 (Bd1 m ρ c)).trans (by rw [a1]))
  have h15 : Bd3 m ρ c (Proc.devRef .tc main_v15) = val_main_v16 (F := Ideal) (m ((c.tc : Thread nD τ).loc main_arg1)) :=
    s2_v15 (Bd2 m ρ c) _ ((s1_v13 (Bd1 m ρ c)).trans (by rw [a1])) ((s1_v14 (Bd1 m ρ c)).trans (by rw [a1])) (s1_cst_2 (Bd1 m ρ c))
  have h0 : (Bd3 m ρ c (Proc.devRef .tc main_v0) : S50000x256.Idx → EReal)
      = val_main_v8 (F := Ideal) (m ((c.tc : Thread nD τ).loc main_arg0)) (m ((c.tc : Thread nD τ).loc main_arg2)) :=
    ((StableHlo.after_of_writes_sub hostOps1_1 _ Gen.hostOps1_1_writes (by decide)).trans
      (StableHlo.after_of_writes_sub hostOps1 _ Gen.hostOps1_writes (by decide))).trans hK
  exact (s3_v44 (Bd3 m ρ c) _ _ h4 h7 h15 h0).trans rfl

end Cert.KernelIdeal.HandVal

end
-- ==== Proof.KI.Out.lean ====
/-
  The kernel program's result, entry by entry, as the specification's dense tail of the reference's own aggregate.

  The last region writes, at entry (r, e), max (gain · (a + bias − mean) · rdev + offset, 0) of the arrays it is
  entered with. Of those, the aggregate a and the three parameter rows come through the second region and the
  last host stretch unchanged; the rows are the parameter vectors reshaped; the mean and reciprocal-deviation rows
  are the last stretch's quotients of the second region's two column sums; and the aggregate is the edge chain
  applied to the first region's projection, which is the reference's aggregate stage of the same arguments.
-/
import proofs.«157023_j2937757631000_1_alg».proof.Proof.KI.Run
import proofs.«157023_j2937757631000_1_alg».proof.Proof.KI.Val1
import proofs.«157023_j2937757631000_1_alg».proof.Proof.KI.Val2
import proofs.«157023_j2937757631000_1_alg».proof.Proof.KI.Stats
import proofs.«157023_j2937757631000_1_alg».proof.Proof.KI.Chain
import proofs.«157023_j2937757631000_1_alg».proof.Proof.Spec

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- Entry (r, e) of what the last region leaves in the result array. -/
theorem kernel_out (c : Dev nD) (r : Fin 50000) (e : Fin 256) :
    (dat2 (F := Ideal) (En6 m ρ) c).arrAt 6 cfg2.N (ix2 r e)
      = Cert.Spec.outAt
          (Cert.ReferenceIdeal.ReadP.val_main_v44 (F := Ideal) (m ((c.tc : Thread nD τ).loc main_arg0))
            (m ((c.tc : Thread nD τ).loc main_arg1)) (m ((c.tc : Thread nD τ).loc main_arg2)))
          (m ((c.tc : Thread nD τ).loc main_arg3)) (m ((c.tc : Thread nD τ).loc main_arg4))
          (m ((c.tc : Thread nD τ).loc main_arg5)) r e := by
  rw [final2 (En6 m ρ) c r e,
    mean_row m ρ c (fun e => final1_sum (En4 m ρ) c e),
    rdev_row m ρ c (fun e => final1_sum (En4 m ρ) c e) (fun e => final1_sumsq (En4 m ρ) c e),
    pass_v44 m ρ c, pass_v45 m ρ c, pass_v46 m ρ c, pass_v47 m ρ c,
    rows_v45 m ρ c, rows_v46 m ρ c, rows_v47 m ρ c, agg_eq m ρ c]
  rfl

end Cert.KernelIdeal.HandVal

end
-- ==== Proof.LibBatchNorm.lean ====
/-
  Batch normalisation over the extended reals: the two ways of writing it are one function.

  For a column of n = 10000 finite values y with sum S1 and sum of squares S2, write μ = S1 / n.
  One form takes the variance as S2 / n − μ², folds the reciprocal square root with the gain γ into
  one factor and the offset β with the mean into one summand; the other form takes the variance as
  the mean of the centred squares (y − μ)², centres the value, divides by the square root and then
  applies γ and β. Since n is the number of terms, (1/n) Σ (y − μ)² = (1/n) Σ y² − μ², which is ≥ 0,
  so with ε > 0 both radicands are one positive real v and both forms are
  (y − μ) · γ / √v + β. All operations are those of the ideal float values at one index
  (the division "Ideal.div", "Ideal.rsqrt", "Ideal.sqrt" and the sum, product and difference of the
  extended reals); on coerced reals with a positive radicand and a nonzero divisor they are the real
  operations, so the statement reduces to an identity of real numbers.
-/
import Idealize.ShloMosaic.PureOps.Ideal
import Idealize.ShloMosaic.PureOps.Ideal.Laws

noncomputable section

namespace Cert.BatchNorm

open Idealize.ShloMosaic
open scoped BigOperators

/-! ## The constants -/

/-- The f32 pattern "0x461C4000" denotes the real number 10000 (= (2^23 + 1851392) · 2^(−10)). -/
theorem ofBits_count : (Ideal.ofBits .f32 0x461C4000#32 : EReal) = ((10000 : ℝ) : EReal) := by
  simp [Ideal.ofBits, Ideal.ieee, -EReal.coe_mul]; norm_num

/-- The f32 pattern "0x3727C5AC" denotes a positive real number (10995116 · 2^(−40), about 10⁻⁵). -/
theorem ofBits_eps : ∃ e : ℝ, 0 < e ∧ (Ideal.ofBits .f32 0x3727C5AC#32 : EReal) = (e : EReal) := by
  refine ⟨(10995116 : ℝ) * (2 : ℝ) ^ (-40 : ℤ), by positivity, ?_⟩
  simp [Ideal.ofBits, Ideal.ieee, -EReal.coe_mul]

/-- The all-zero f32 pattern denotes 0. -/
theorem ofBits_zero' : (Ideal.ofBits .f32 0x00000000#32 : EReal) = 0 :=
  Ideal.ofBits_zero_f32

/-- Subtracting zero from the count leaves the count. -/
theorem count_sub_zero :
    (Ideal.ofBits .f32 0x461C4000#32 : EReal) - 0 = Ideal.ofBits .f32 0x461C4000#32 :=
  sub_zero _

/-- The count is positive. -/
theorem count_pos : (0 : EReal) < Ideal.ofBits .f32 0x461C4000#32 := by
  rw [ofBits_count]; exact_mod_cast (by norm_num : (0 : ℝ) < 10000)

/-! ## Finite sums of coerced reals -/

/-- A finite sum of coerced reals is the coerced real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals that are all coerced reals is a coerced real. -/
theorem exists_real_sum {ι : Type} [Fintype ι] (a : ι → EReal) (ha : ∀ i, ∃ x : ℝ, a i = x) :
    ∃ z : ℝ, (∑ i, a i) = (z : EReal) := by
  choose x hx using ha
  exact ⟨∑ i, x i, by rw [← coe_sum]; exact Finset.sum_congr rfl (fun i _ => hx i)⟩

/-- A finite sum of products of extended reals that are all coerced reals is a coerced real. -/
theorem exists_real_sum_mul {ι : Type} [Fintype ι] (a b : ι → EReal) (ha : ∀ i, ∃ x : ℝ, a i = x)
    (hb : ∀ i, ∃ x : ℝ, b i = x) : ∃ z : ℝ, (∑ i, a i * b i) = (z : EReal) := by
  choose x hx using ha
  choose w hw using hb
  refine ⟨∑ i, x i * w i, ?_⟩
  rw [← coe_sum]
  exact Finset.sum_congr rfl (fun i _ => by rw [hx, hw, EReal.coe_mul])

/-! ## The real identities -/

/-- The mean of the centred squares is the mean of the squares minus the square of the mean, when
    the divisor n is the number of terms. -/
theorem centred_mean_sq {m : ℕ} (y : Fin m → ℝ) (n : ℝ) (hm : (m : ℝ) = n) (hn : n ≠ 0) :
    (∑ k, (y k - (∑ j, y j) * (1 / n)) * (y k - (∑ j, y j) * (1 / n))) * (1 / n)
      = (∑ k, y k * y k) * (1 / n) - (∑ j, y j) * (1 / n) * ((∑ j, y j) * (1 / n)) := by
  have h : ∀ k, (y k - (∑ j, y j) * (1 / n)) * (y k - (∑ j, y j) * (1 / n))
      = y k * y k - 2 * ((∑ j, y j) * (1 / n)) * y k
        + (∑ j, y j) * (1 / n) * ((∑ j, y j) * (1 / n)) := fun k => by ring
  simp only [h, Finset.sum_add_distrib, Finset.sum_sub_distrib, ← Finset.mul_sum, Finset.sum_const,
    Finset.card_univ, Fintype.card_fin, nsmul_eq_mul, hm]
  field_simp
  ring

/-- The mean of the centred squares is not negative. -/
theorem centred_mean_sq_nonneg {m : ℕ} (y : Fin m → ℝ) (μ n : ℝ) (hn : 0 < n) :
    0 ≤ (∑ k, (y k - μ) * (y k - μ)) * (1 / n) :=
  mul_nonneg (Finset.sum_nonneg fun k _ => mul_self_nonneg _) (by positivity)

/-! ## The two forms -/

/-- The reciprocal square root of a positive coerced real is the coerced real reciprocal root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The square root of a nonnegative coerced real is the coerced real root. -/
theorem sqrt_coe_nonneg {v : ℝ} (hv : 0 ≤ v) : Ideal.sqrt (v : EReal) = ((Real.sqrt v : ℝ) : EReal) := by
  rw [Ideal.sqrt_coe, if_neg (not_lt.mpr hv)]

/-- The quotient of coerced reals by a nonzero divisor is the coerced real quotient. -/
theorem div_coe_coe (x : ℝ) {d : ℝ} (hd : d ≠ 0) : Ideal.div (x : EReal) (d : EReal) = ((x * (1 / d) : ℝ) : EReal) := by
  rw [Ideal.div_coe hd, ← EReal.coe_mul]

/-- The two forms with the count a real n equal to the number of terms and ε a positive real. -/
theorem norm_two_forms_real {m : ℕ} (y : Fin m → ℝ) (g b n e : ℝ) (hm : (m : ℝ) = n) (hn : 0 < n)
    (he : 0 < e) (r : Fin m) :
    (y r : EReal)
        * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal))
      + ((b : EReal) - Ideal.div (∑ k, (y k : EReal)) (n : EReal)
          * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal)))
    = Ideal.div ((y r : EReal) - Ideal.div (∑ k, (y k : EReal)) (n : EReal))
        (Ideal.sqrt (Ideal.div (∑ k, ((y k : EReal) - Ideal.div (∑ k, (y k : EReal)) (n : EReal))
            * ((y k : EReal) - Ideal.div (∑ k, (y k : EReal)) (n : EReal))) (n : EReal) + (e : EReal)))
        * (g : EReal) + (b : EReal) := by
  have hn0 : n ≠ 0 := hn.ne'
  -- the mean is a coerced real
  have hmean : Ideal.div (∑ k, (y k : EReal)) (n : EReal) = (((∑ k, y k) * (1 / n) : ℝ) : EReal) := by
    rw [coe_sum, div_coe_coe _ hn0]
  -- the mean of the squares is a coerced real
  have hsq : Ideal.div (∑ k, (y k : EReal) * (y k : EReal)) (n : EReal)
      = (((∑ k, y k * y k) * (1 / n) : ℝ) : EReal) := by
    have : (∑ k, (y k : EReal) * (y k : EReal)) = ∑ k, ((y k * y k : ℝ) : EReal) :=
      Finset.sum_congr rfl (fun k _ => (EReal.coe_mul _ _).symm)
    rw [this, coe_sum, div_coe_coe _ hn0]
  rw [hmean, hsq]
  set μ : ℝ := (∑ k, y k) * (1 / n) with hμ
  -- the mean of the centred squares is a coerced real
  have hcen : Ideal.div (∑ k, ((y k : EReal) - (μ : EReal)) * ((y k : EReal) - (μ : EReal))) (n : EReal)
      = (((∑ k, (y k - μ) * (y k - μ)) * (1 / n) : ℝ) : EReal) := by
    have : (∑ k, ((y k : EReal) - (μ : EReal)) * ((y k : EReal) - (μ : EReal)))
        = ∑ k, (((y k - μ) * (y k - μ) : ℝ) : EReal) :=
      Finset.sum_congr rfl (fun k _ => by rw [← EReal.coe_sub, ← EReal.coe_mul])
    rw [this, coe_sum, div_coe_coe _ hn0]
  rw [hcen]
  -- the two radicands are one positive real
  have hvar : (∑ k, (y k - μ) * (y k - μ)) * (1 / n) = (∑ k, y k * y k) * (1 / n) - μ * μ :=
    centred_mean_sq y n hm hn0
  have hnn : 0 ≤ (∑ k, (y k - μ) * (y k - μ)) * (1 / n) := centred_mean_sq_nonneg y μ n hn
  set v : ℝ := (∑ k, y k * y k) * (1 / n) - μ * μ + e with hv
  have hvpos : 0 < v := by rw [hv, ← hvar]; linarith
  have hrad1 : ((((∑ k, y k * y k) * (1 / n) : ℝ) : EReal) - (μ : EReal) * (μ : EReal) + (e : EReal)) = (v : EReal) := by
    rw [← EReal.coe_mul, ← EReal.coe_sub, ← EReal.coe_add]
  have hrad2 : ((((∑ k, (y k - μ) * (y k - μ)) * (1 / n) : ℝ) : EReal) + (e : EReal)) = (v : EReal) := by
    rw [← EReal.coe_add, hvar]
  rw [hrad1, hrad2, rsqrt_coe_pos hvpos, sqrt_coe_nonneg hvpos.le]
  have hs : Real.sqrt v ≠ 0 := (Real.sqrt_pos.mpr hvpos).ne'
  rw [← EReal.coe_sub, div_coe_coe _ hs]
  simp only [← EReal.coe_mul, ← EReal.coe_sub, ← EReal.coe_add]
  congr 1
  rw [one_div]
  ring

/-- The two forms of the normalisation of one value of a column of 10000 finite values agree: with
    μ = S1 / N, the folded form y · s + (β − μ · s), s = rsqrt (S2 / N − μ · μ + ε) · γ, equals the
    centred form ((y − μ) / sqrt ((Σ (y − μ)²) / N + ε)) · γ + β. -/
theorem norm_two_forms (y : Fin 10000 → ℝ) (g b : ℝ) (r : Fin 10000) :
    let N : EReal := Ideal.ofBits .f32 0x461C4000#32
    let E : EReal := Ideal.ofBits .f32 0x3727C5AC#32
    let S1 : EReal := ∑ k, (y k : EReal)
    let S2 : EReal := ∑ k, (y k : EReal) * (y k : EReal)
    let mean : EReal := Ideal.div S1 N
    let scale : EReal := Ideal.rsqrt (Ideal.div S2 N - mean * mean + E) * (g : EReal)
    let shift : EReal := (b : EReal) - mean * scale
    let var' : EReal := Ideal.div (∑ k, ((y k : EReal) - mean) * ((y k : EReal) - mean)) N
    (y r : EReal) * scale + shift
      = Ideal.div ((y r : EReal) - mean) (Ideal.sqrt (var' + E)) * (g : EReal) + (b : EReal) := by
  intro N E S1 S2 mean scale shift var'
  obtain ⟨e, he, hE⟩ := ofBits_eps
  have hN : N = ((10000 : ℝ) : EReal) := ofBits_count
  have hE' : E = (e : EReal) := hE
  simp only [scale, shift, var', mean, S1, S2, hN, hE']
  exact norm_two_forms_real y g b 10000 e (by norm_num) (by norm_num) he r

/-- The same with the definitions written out (no "let"). -/
theorem norm_two_forms_inline (y : Fin 10000 → ℝ) (g b : ℝ) (r : Fin 10000) :
    (y r : EReal)
        * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal))
      + ((b : EReal) - Ideal.div (∑ k, (y k : EReal)) (Ideal.ofBits .f32 0x461C4000#32)
          * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal)))
    = Ideal.div ((y r : EReal) - Ideal.div (∑ k, (y k : EReal)) (Ideal.ofBits .f32 0x461C4000#32))
        (Ideal.sqrt (Ideal.div (∑ k, ((y k : EReal) - Ideal.div (∑ k, (y k : EReal)) (Ideal.ofBits .f32 0x461C4000#32))
            * ((y k : EReal) - Ideal.div (∑ k, (y k : EReal)) (Ideal.ofBits .f32 0x461C4000#32)))
              (Ideal.ofBits .f32 0x461C4000#32) + Ideal.ofBits .f32 0x3727C5AC#32))
        * (g : EReal) + (b : EReal) :=
  norm_two_forms y g b r

/-- The same for extended-real data known to be coerced reals: Y, γ, β finite. -/
theorem norm_two_forms_of_real (Y : Fin 10000 → EReal) (G B : EReal) (hY : ∀ k, ∃ x : ℝ, Y k = x)
    (hG : ∃ x : ℝ, G = x) (hB : ∃ x : ℝ, B = x) (r : Fin 10000) :
    let N : EReal := Ideal.ofBits .f32 0x461C4000#32
    let E : EReal := Ideal.ofBits .f32 0x3727C5AC#32
    let S1 : EReal := ∑ k, Y k
    let S2 : EReal := ∑ k, Y k * Y k
    let mean : EReal := Ideal.div S1 N
    let scale : EReal := Ideal.rsqrt (Ideal.div S2 N - mean * mean + E) * G
    let shift : EReal := B - mean * scale
    let var' : EReal := Ideal.div (∑ k, (Y k - mean) * (Y k - mean)) N
    Y r * scale + shift = Ideal.div (Y r - mean) (Ideal.sqrt (var' + E)) * G + B := by
  choose y hy using hY
  obtain ⟨g, rfl⟩ := hG
  obtain ⟨b, rfl⟩ := hB
  obtain rfl : Y = fun k => (y k : EReal) := funext hy
  exact norm_two_forms y g b r

end Cert.BatchNorm

end
-- ==== Proof.NormLaw.lean ====
/-
  The variance of a column of 50000 finite values, written two ways.

  For real values y_0, …, y_49999 with mean μ = (Σ y) / 50000, the mean of the centred squares
  (Σ (y − μ)²) / 50000 equals the mean of the squares minus the square of the mean,
  (Σ y²) / 50000 − μ². Both sides are stated with the operations of the extended reals: the quotient
  "Ideal.div" by the f32 word that denotes 50000, and the extended-real sum, product and difference.
  On coerced reals with a nonzero real divisor these are the real operations, so the statement is the
  real identity Σ (y − μ)² = Σ y² − n μ² divided by n, which holds because n is the number of terms.
-/
import Idealize.ShloMosaic.PureOps.Ideal
import Idealize.ShloMosaic.PureOps.Ideal.Laws
import proofs.«157023_j2937757631000_1_alg».proof.Proof.LibBatchNorm

noncomputable section

namespace Cert.NormLaw

open Idealize.ShloMosaic
open scoped BigOperators

/-- The f32 word "0x47435000" denotes the real number 50000 (= (2^23 + 4411392) · 2^(−8)). -/
theorem ofBits_count : (Ideal.ofBits .f32 0x47435000#32 : EReal) = ((50000 : ℝ) : EReal) := by
  simp [Ideal.ofBits, Ideal.ieee, -EReal.coe_mul]; norm_num

/-- The count is a real number other than zero. -/
theorem count_ne_zero : (50000 : ℝ) ≠ 0 := by norm_num

/-- The quotient of a finite sum of coerced reals by the count is a coerced real: the real mean. -/
theorem mean_coe (y : Fin 50000 → ℝ) :
    Ideal.div (∑ k, (y k : EReal)) (Ideal.ofBits .f32 0x47435000#32)
      = (((∑ k, y k) * (1 / 50000) : ℝ) : EReal) := by
  rw [ofBits_count, Cert.BatchNorm.coe_sum, Cert.BatchNorm.div_coe_coe _ count_ne_zero]

/-- The mean of the squares of coerced reals is a coerced real. -/
theorem mean_sq_coe (y : Fin 50000 → ℝ) :
    Ideal.div (∑ k, (y k : EReal) * (y k : EReal)) (Ideal.ofBits .f32 0x47435000#32)
      = (((∑ k, y k * y k) * (1 / 50000) : ℝ) : EReal) := by
  have h : (∑ k, (y k : EReal) * (y k : EReal)) = ∑ k, ((y k * y k : ℝ) : EReal) :=
    Finset.sum_congr rfl (fun k _ => (EReal.coe_mul _ _).symm)
  rw [h, ofBits_count, Cert.BatchNorm.coe_sum, Cert.BatchNorm.div_coe_coe _ count_ne_zero]

/-- The mean of the squares of coerced reals centred at a real is a coerced real. -/
theorem mean_centred_coe (y : Fin 50000 → ℝ) (μ : ℝ) :
    Ideal.div (∑ k, ((y k : EReal) - (μ : EReal)) * ((y k : EReal) - (μ : EReal)))
        (Ideal.ofBits .f32 0x47435000#32)
      = (((∑ k, (y k - μ) * (y k - μ)) * (1 / 50000) : ℝ) : EReal) := by
  have h : (∑ k, ((y k : EReal) - (μ : EReal)) * ((y k : EReal) - (μ : EReal)))
      = ∑ k, (((y k - μ) * (y k - μ) : ℝ) : EReal) :=
    Finset.sum_congr rfl (fun k _ => by rw [← EReal.coe_sub, ← EReal.coe_mul])
  rw [h, ofBits_count, Cert.BatchNorm.coe_sum, Cert.BatchNorm.div_coe_coe _ count_ne_zero]

/-- The two radicands agree on 50000 real values: the mean of the centred squares is the mean of the
    squares minus the square of the mean. -/
theorem radicand_eq (y : Fin 50000 → ℝ) :
    Ideal.div (∑ k, ((y k : EReal) - Ideal.div (∑ j, (y j : EReal)) (Ideal.ofBits .f32 0x47435000#32))
          * ((y k : EReal) - Ideal.div (∑ j, (y j : EReal)) (Ideal.ofBits .f32 0x47435000#32)))
        (Ideal.ofBits .f32 0x47435000#32)
      = Ideal.div (∑ k, (y k : EReal) * (y k : EReal)) (Ideal.ofBits .f32 0x47435000#32)
        - Ideal.div (∑ j, (y j : EReal)) (Ideal.ofBits .f32 0x47435000#32)
          * Ideal.div (∑ j, (y j : EReal)) (Ideal.ofBits .f32 0x47435000#32) := by
  rw [mean_coe, mean_sq_coe, mean_centred_coe, ← EReal.coe_mul, ← EReal.coe_sub]
  exact congrArg _ (Cert.BatchNorm.centred_mean_sq y 50000 (by norm_num) count_ne_zero)

/-- The same for extended-real data known to be real. -/
theorem radicand_eq_of_real (Y : Fin 50000 → EReal) (hY : ∀ k, ∃ t : ℝ, Y k = t) :
    Ideal.div (∑ k, (Y k - Ideal.div (∑ j, Y j) (Ideal.ofBits .f32 0x47435000#32))
          * (Y k - Ideal.div (∑ j, Y j) (Ideal.ofBits .f32 0x47435000#32)))
        (Ideal.ofBits .f32 0x47435000#32)
      = Ideal.div (∑ k, Y k * Y k) (Ideal.ofBits .f32 0x47435000#32)
        - Ideal.div (∑ j, Y j) (Ideal.ofBits .f32 0x47435000#32)
          * Ideal.div (∑ j, Y j) (Ideal.ofBits .f32 0x47435000#32) := by
  choose y hy using hY
  obtain rfl : Y = fun k => (y k : EReal) := funext hy
  exact radicand_eq y

/-- The mean of a column of real values is real. -/
theorem mean_real (Y : Fin 50000 → EReal) (hY : ∀ k, ∃ t : ℝ, Y k = t) :
    ∃ t : ℝ, Ideal.div (∑ j, Y j) (Ideal.ofBits .f32 0x47435000#32) = t := by
  choose y hy using hY
  obtain rfl : Y = fun k => (y k : EReal) := funext hy
  exact ⟨_, mean_coe y⟩

end Cert.NormLaw

end
-- ==== Proof.RefValue.lean ====
/-
  The reference's dense tail at an index.

  After the aggregate a (the scatter-add of the scaled, gathered rows), the reference adds the bias row,
  takes the mean of each column over the 50000 rows, the mean of the centred squares of each column,
  and writes max (gain · (y − mean) · rsqrt (variance + ε) + offset, 0) with y = a + bias. Every one of
  these steps is an elementwise operation, a broadcast of a row, or a sum over the rows, so the value
  at entry (r, e) is read off step by step. The target formula takes the variance in its one-pass form,
  the mean of the squares minus the square of the mean; the two variances agree when every entry of
  the column y (·, e) is a real number, which is the hypothesis of the statement.
-/
import proofs.«157023_j2937757631000_1_alg».proof.Proof.RefRead
import proofs.«157023_j2937757631000_1_alg».proof.Proof.Spec
import proofs.«157023_j2937757631000_1_alg».proof.Proof.NormLaw

noncomputable section

namespace Cert.ReferenceIdeal.RefValue

open Cert.ReferenceIdeal Cert.ReferenceIdeal.Gen Idealize.ShloMosaic Idealize.ShloMosaic.ValueIdx Idealize.ShloMosaic.TcCoe Idealize.SL.Sem
open scoped BigOperators

section
variable (x0 : (⟨S50000x256, .f32⟩ : BufTy).Contents (Elt Ideal))
  (x1 : (⟨S2x800000, .i32⟩ : BufTy).Contents (Elt Ideal))
  (x2 : (⟨S256x256, .f32⟩ : BufTy).Contents (Elt Ideal))
  (x3 x4 x5 : (⟨S256, .f32⟩ : BufTy).Contents (Elt Ideal))

/-! ## Rows broadcast over the nodes -/

/-- A feature vector broadcast to a row and then over the nodes reads, at (r, e), the vector at e. -/
theorem row_idx (r : Fin 50000) (e : Fin 256) :
    ReadP.idx_main_v45 (ReadP.idx_main_v46 (ix2 r e)) = ix1 e :=
  funext fun a => Fin.ext (by match a with | ⟨0, _⟩ => rfl)

/-- The column index of the sum over the rows: term k of column e is entry (k, e). -/
theorem col_idx (e : Fin 256) (k : Fin 50000) : ReadP.idx_main_v48 (ix1 e) k = ix2 k e :=
  funext fun a => Fin.ext (by match a with | ⟨0, _⟩ => rfl | ⟨1, _⟩ => rfl)

/-! ## The stages at an index -/

/-- y = a + bias at (r, e). -/
theorem y_at (r : Fin 50000) (e : Fin 256) :
    ReadP.val_main_v47 (F := Ideal) x0 x1 x2 x3 (ix2 r e)
      = ReadP.val_main_v44 (F := Ideal) x0 x1 x2 (ix2 r e) + x3 (ix1 e) := by
  rw [ReadP.val_main_v47_apply, ReadP.val_main_v46_apply, ReadP.val_main_v45_apply, row_idx]
  rfl

/-- The mean of column e. -/
theorem mean_at (e : Fin 256) :
    ReadP.val_main_v50 (F := Ideal) x0 x1 x2 x3 (ix1 e)
      = Ideal.div (∑ k : Fin 50000, (ReadP.val_main_v44 (F := Ideal) x0 x1 x2 (ix2 k e) + x3 (ix1 e)))
          (Ideal.ofBits .f32 0x47435000#32) := by
  rw [ReadP.val_main_v50_apply, ReadP.val_main_v48_apply, ReadP.val_main_v49_apply,
    ReadP.val_main_cst_10_apply, ReadP.val_main_cst_9_apply]
  simp only [Ideal.hostDivf_def, Ideal.ofBits_def, Ideal.ofBits_zero_f32, zero_add]
  refine congrArg (fun s => Ideal.div s (Ideal.ofBits .f32 0x47435000#32)) ?_
  refine Finset.sum_congr rfl fun k _ => ?_
  rw [col_idx, y_at]

/-- The broadcast of the mean row over the nodes (for the centred squares), at (k, e), is the mean at e. -/
theorem mean_idx (k : Fin 50000) (e : Fin 256) :
    ReadP.idx_main_v51 (ReadP.idx_main_v52 (ix2 k e)) = ix1 e :=
  funext fun a => Fin.ext (by match a with | ⟨0, _⟩ => rfl)

/-- The second broadcast of the mean row over the nodes (for the output), at (r, e), is the mean at e. -/
theorem mean_idx' (r : Fin 50000) (e : Fin 256) :
    ReadP.idx_main_v58 (ReadP.idx_main_v59 (ix2 r e)) = ix1 e :=
  funext fun a => Fin.ext (by match a with | ⟨0, _⟩ => rfl)

/-- The column index of the second sum over the rows: term k of column e is entry (k, e). -/
theorem col_idx' (e : Fin 256) (k : Fin 50000) : ReadP.idx_main_v55 (ix1 e) k = ix2 k e :=
  funext fun a => Fin.ext (by match a with | ⟨0, _⟩ => rfl | ⟨1, _⟩ => rfl)

/-- The reciprocal-deviation row broadcast over the nodes, at (r, e), is the row at e. -/
theorem rdev_idx (r : Fin 50000) (e : Fin 256) :
    ReadP.idx_main_v67 (ReadP.idx_main_v68 (ix2 r e)) = ix1 e :=
  funext fun a => Fin.ext (by match a with | ⟨0, _⟩ => rfl)

/-- The gain vector broadcast over the nodes, at (r, e), is the gain at e. -/
theorem gain_idx (r : Fin 50000) (e : Fin 256) :
    ReadP.idx_main_v61 (ReadP.idx_main_v62 (ix2 r e)) = ix1 e :=
  funext fun a => Fin.ext (by match a with | ⟨0, _⟩ => rfl)

/-- The offset vector broadcast over the nodes, at (r, e), is the offset at e. -/
theorem offs_idx (r : Fin 50000) (e : Fin 256) :
    ReadP.idx_main_v70 (ReadP.idx_main_v71 (ix2 r e)) = ix1 e :=
  funext fun a => Fin.ext (by match a with | ⟨0, _⟩ => rfl)

/-- The variance of column e in the reference's two-pass form: the mean of the squares of y − mean. -/
theorem var_at (e : Fin 256) :
    ReadP.val_main_v57 (F := Ideal) x0 x1 x2 x3 (ix1 e)
      = Ideal.div (∑ k : Fin 50000,
            ((ReadP.val_main_v44 (F := Ideal) x0 x1 x2 (ix2 k e) + x3 (ix1 e))
                - ReadP.val_main_v50 (F := Ideal) x0 x1 x2 x3 (ix1 e))
              * ((ReadP.val_main_v44 (F := Ideal) x0 x1 x2 (ix2 k e) + x3 (ix1 e))
                - ReadP.val_main_v50 (F := Ideal) x0 x1 x2 x3 (ix1 e)))
          (Ideal.ofBits .f32 0x47435000#32) := by
  rw [ReadP.val_main_v57_apply, ReadP.val_main_v55_apply, ReadP.val_main_v56_apply,
    ReadP.val_main_cst_12_apply, ReadP.val_main_cst_11_apply]
  simp only [Ideal.hostDivf_def, Ideal.ofBits_def, Ideal.ofBits_zero_f32, zero_add]
  refine congrArg (fun s => Ideal.div s (Ideal.ofBits .f32 0x47435000#32)) ?_
  refine Finset.sum_congr rfl fun k _ => ?_
  rw [col_idx', ReadP.val_main_v54_apply, ReadP.val_main_v53_apply, y_at, ReadP.val_main_v52_apply,
    ReadP.val_main_v51_apply, mean_idx]
  simp only [Ideal.mulf_def, Ideal.subf_def]

/-- The reciprocal deviation of column e: the reciprocal square root of the variance plus ε. -/
theorem rdev_at (e : Fin 256) :
    ReadP.val_main_v66 (F := Ideal) x0 x1 x2 x3 (ix1 e)
      = Ideal.rsqrt (ReadP.val_main_v57 (F := Ideal) x0 x1 x2 x3 (ix1 e) + Ideal.ofBits .f32 0x3727C5AC#32) := by
  rw [ReadP.val_main_v66_apply, ReadP.val_main_v65_apply, ReadP.val_main_v64_apply, ReadP.val_main_cst_13_apply]
  simp only [Ideal.hostUnary_rsqrt_def, Ideal.addf_def, Ideal.ofBits_def]

/-- The output at (r, e) from the mean and the reciprocal deviation of column e. -/
theorem out_at (r : Fin 50000) (e : Fin 256) :
    ReadP.val_main_v73 (F := Ideal) x0 x1 x2 x3 x4 x5 (ix2 r e)
      = max (x4 (ix1 e)
              * ((ReadP.val_main_v44 (F := Ideal) x0 x1 x2 (ix2 r e) + x3 (ix1 e))
                  - ReadP.val_main_v50 (F := Ideal) x0 x1 x2 x3 (ix1 e))
              * ReadP.val_main_v66 (F := Ideal) x0 x1 x2 x3 (ix1 e) + x5 (ix1 e))
          (Ideal.ofBits .f32 0x00000000#32) := by
  rw [ReadP.val_main_v73_apply, ReadP.val_main_v72_apply, ReadP.val_main_v69_apply, ReadP.val_main_v63_apply,
    ReadP.val_main_v62_apply, ReadP.val_main_v61_apply, gain_idx, ReadP.val_main_v60_apply, y_at,
    ReadP.val_main_v59_apply, ReadP.val_main_v58_apply, mean_idx', ReadP.val_main_v68_apply,
    ReadP.val_main_v67_apply, rdev_idx, ReadP.val_main_v71_apply, ReadP.val_main_v70_apply, offs_idx,
    ReadP.val_main_call1_v0_apply, ReadP.val_main_call1_cst_apply]
  simp only [Ideal.maximumf_def, Ideal.addf_def, Ideal.mulf_def, Ideal.subf_def, Ideal.ofBits_def]

end

/-! ## The target formula written out -/

/-- The whole dense tail at (r, e) with its rows written out. -/
theorem outAt_eq (a : Cert.Spec.SND.Idx → EReal) (bias gain offset : (⟨1, ![256]⟩ : Shape).Idx → EReal)
    (r : Fin 50000) (e : Fin 256) :
    Cert.Spec.outAt a bias gain offset r e
      = max (gain (ix1 e)
              * ((a (ix2 r e) + bias (ix1 e))
                  - Ideal.div (∑ k : Fin 50000, (a (ix2 k e) + bias (ix1 e))) (Ideal.ofBits .f32 0x47435000#32))
              * Ideal.rsqrt
                  (Ideal.div (∑ k : Fin 50000, (a (ix2 k e) + bias (ix1 e)) * (a (ix2 k e) + bias (ix1 e)))
                      (Ideal.ofBits .f32 0x47435000#32)
                    - Ideal.div (∑ k : Fin 50000, (a (ix2 k e) + bias (ix1 e))) (Ideal.ofBits .f32 0x47435000#32)
                      * Ideal.div (∑ k : Fin 50000, (a (ix2 k e) + bias (ix1 e))) (Ideal.ofBits .f32 0x47435000#32)
                    + Ideal.ofBits .f32 0x3727C5AC#32)
              + offset (ix1 e))
          (Ideal.ofBits .f32 0x00000000#32) := rfl

/-! ## The reference is the target formula -/

section
variable (x0 : (⟨S50000x256, .f32⟩ : BufTy).Contents (Elt Ideal))
  (x1 : (⟨S2x800000, .i32⟩ : BufTy).Contents (Elt Ideal))
  (x2 : (⟨S256x256, .f32⟩ : BufTy).Contents (Elt Ideal))
  (x3 x4 x5 : (⟨S256, .f32⟩ : BufTy).Contents (Elt Ideal))

/-- When every entry of a + bias is real, the reference's output at (r, e) is the target formula of its own
    aggregate a, the bias, the gain and the offset. -/
theorem ref_out_of_real
    (hy : ∀ (r : Fin 50000) (e : Fin 256), ∃ t : ℝ,
      ReadP.val_main_v44 (F := Ideal) x0 x1 x2 (ix2 r e) + x3 (ix1 e) = (t : EReal))
    (r : Fin 50000) (e : Fin 256) :
    ReadP.val_main_v73 (F := Ideal) x0 x1 x2 x3 x4 x5 (ix2 r e)
      = Cert.Spec.outAt (ReadP.val_main_v44 (F := Ideal) x0 x1 x2) x3 x4 x5 r e := by
  rw [out_at, rdev_at, var_at, mean_at, outAt_eq]
  generalize ReadP.val_main_v44 (F := Ideal) x0 x1 x2 = a at hy ⊢
  rw [Cert.NormLaw.radicand_eq_of_real (fun k => a (ix2 k e) + x3 (ix1 e)) (fun k => hy k e)]

/-- The same with the gain and the offset known to be real (the equation does not need it). -/
theorem ref_out
    (hy : ∀ (r : Fin 50000) (e : Fin 256), ∃ t : ℝ,
      ReadP.val_main_v44 (F := Ideal) x0 x1 x2 (ix2 r e) + x3 (ix1 e) = (t : EReal))
    (hg : ∀ e : Fin 256, ∃ t : ℝ, x4 (ix1 e) = (t : EReal))
    (hb : ∀ e : Fin 256, ∃ t : ℝ, x5 (ix1 e) = (t : EReal))
    (r : Fin 50000) (e : Fin 256) :
    ReadP.val_main_v73 (F := Ideal) x0 x1 x2 x3 x4 x5 (ix2 r e)
      = Cert.Spec.outAt (ReadP.val_main_v44 (F := Ideal) x0 x1 x2) x3 x4 x5 r e :=
  ref_out_of_real x0 x1 x2 x3 x4 x5 hy r e

end

/-- The run's result term is the last stage of the reference read at the launch contents of its arguments. -/
theorem ref_run_eq (m : (ℓ : Loc nD τ sig) → Buf (Elt Ideal) ℓ) (c : Dev nD) :
    Cert.ReferenceIdeal.ValueP.res_main_v73 m c
      = ReadP.val_main_v73 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  ReadP.val_main_v73_eq (F := Ideal) m c

end Cert.ReferenceIdeal.RefValue

end
-- ==== Proof.RefFinite.lean ====
/-
  The reference's aggregate is finite when the node features and the weights are.

  The aggregate is an accumulating scatter, into zeros, of the gathered rows of x · Wᵀ each scaled by a
  product of two gathered entries of the inverse-square-root degree vector. Being a real number (neither
  infinity) is kept by every step, whatever the edge indices are: an entry of an accumulating scatter is
  the operand's entry plus a finite sum of update entries; an entry of a gather is an entry of its
  operand; a product or a finite sum of real numbers is real; and the degree vector's entry, the
  reciprocal square root of the degree count where the count is positive and zero elsewhere, is real
  for every count — a positive extended real is a positive real or +∞, whose reciprocal roots are a
  positive real and 0. So no index of the gathers or scatters is ever computed.
-/
import proofs.«157023_j2937757631000_1_alg».proof.Proof.RefRead

noncomputable section

namespace Cert.ReferenceIdeal.RefValue

open Cert.ReferenceIdeal Cert.ReferenceIdeal.Gen Idealize.ShloMosaic Idealize.ShloMosaic.ValueIdx
open scoped BigOperators

/-! ## Real numbers among the extended reals -/

/-- A product of two real numbers is real. -/
theorem real_mul {a b : EReal} (ha : ∃ t : ℝ, a = t) (hb : ∃ t : ℝ, b = t) : ∃ t : ℝ, a * b = t := by
  obtain ⟨p, rfl⟩ := ha
  obtain ⟨q, rfl⟩ := hb
  exact ⟨p * q, (EReal.coe_mul p q).symm⟩

/-- A sum of two real numbers is real. -/
theorem real_add {a b : EReal} (ha : ∃ t : ℝ, a = t) (hb : ∃ t : ℝ, b = t) : ∃ t : ℝ, a + b = t := by
  obtain ⟨p, rfl⟩ := ha
  obtain ⟨q, rfl⟩ := hb
  exact ⟨p + q, (EReal.coe_add p q).symm⟩

/-- A finite sum of real numbers is real. -/
theorem real_sum {ι : Type} (s : Finset ι) (f : ι → EReal) (h : ∀ i, ∃ t : ℝ, f i = t) :
    ∃ t : ℝ, ∑ i ∈ s, f i = t := by
  classical
  induction s using Finset.induction_on with
  | empty => exact ⟨0, by simp⟩
  | insert a s ha ih => rw [Finset.sum_insert ha]; exact real_add (h a) ih

/-- The all-zero f32 word denotes a real number. -/
theorem real_zero_word : ∃ t : ℝ, (Ideal.ofBits .f32 0x00000000#32 : EReal) = t :=
  ⟨0, Ideal.ofBits_zero_f32⟩

/-! ## The operations that carry the edge indices -/

/-- Every entry of an accumulating scatter is real when every entry of the operand and of the updates is. -/
theorem scatterAdd_real {s si u : Shape} {w : Nat} {φ : FTy} (d : ScatterDims s si u) (x : FVec Ideal s φ)
    (idx : IVec si w) (upd : FVec Ideal u φ) (hx : ∀ i, ∃ t : ℝ, x i = t) (hu : ∀ j, ∃ t : ℝ, upd j = t)
    (i : s.Idx) : ∃ t : ℝ, Host.scatterAdd (F := Ideal) d x idx upd i = t := by
  show ∃ t : ℝ, x i + ∑ j ∈ Finset.univ.filter (fun j => d.resultIdx? j idx = some i), upd j = t
  exact real_add (hx i) (real_sum _ _ hu)

/-- Every entry of a gather is real when every entry of its operand is. -/
theorem gather_real {s si t : Shape} {w : Nat} (d : GatherDims s si t) (x : s.Idx → EReal) (idx : IVec si w)
    (hx : ∀ i, ∃ r : ℝ, x i = r) (j : t.Idx) : ∃ r : ℝ, Host.gather d x idx j = r :=
  hx _

/-- The inverse-square-root degree at one node is real whatever the count z is: the reciprocal square root of z
    where z is positive, zero elsewhere. -/
theorem dinv_real (z : EReal) :
    ∃ t : ℝ, Scalar.select (Ideal.cmp .ogt z 0) (Ideal.rsqrt z) (0 : EReal) = t := by
  by_cases h : (0 : EReal) < z
  · have hc : Ideal.cmp .ogt z 0 = 1#1 := by
      show BitVec.ofBool (decide ((0 : EReal) < z)) = 1#1
      rw [decide_eq_true h]; rfl
    rw [hc, ValueIdx.select_one]
    induction z using EReal.rec with
    | bot => exact absurd h (not_lt.mpr bot_le)
    | top => exact ⟨0, rfl⟩
    | coe r =>
      have hr : 0 < r := EReal.coe_pos.mp h
      rw [Ideal.rsqrt_coe, if_neg (not_lt.mpr hr.le), if_neg hr.ne']
      exact ⟨_, rfl⟩
  · have hc : Ideal.cmp .ogt z 0 = 0#1 := by
      show BitVec.ofBool (decide ((0 : EReal) < z)) = 0#1
      rw [decide_eq_false h]; rfl
    rw [hc, ValueIdx.select_zero]
    exact ⟨0, rfl⟩

/-! ## The stages of the aggregate -/

section
variable (x0 : (⟨S50000x256, .f32⟩ : BufTy).Contents (Elt Ideal))
  (x1 : (⟨S2x800000, .i32⟩ : BufTy).Contents (Elt Ideal))
  (x2 : (⟨S256x256, .f32⟩ : BufTy).Contents (Elt Ideal))

/-- Every entry of x · Wᵀ is real: a finite sum of products of entries of x and of W. -/
theorem proj_real (hx : ∀ i, ∃ t : ℝ, x0 i = t) (hW : ∀ i, ∃ t : ℝ, x2 i = t) (i : S50000x256.Idx) :
    ∃ t : ℝ, ReadP.val_main_v8 (F := Ideal) x0 x2 i = t := by
  rw [ReadP.val_main_v8_apply]
  refine real_sum _ _ fun k => real_mul (hx _) ?_
  rw [ReadP.val_main_v7_apply]
  exact hW _

/-- Every entry of the inverse-square-root degree vector is real, whatever the degree counts are. -/
theorem dinv_vec_real (i : S50000.Idx) : ∃ t : ℝ, ReadP.val_main_v16 (F := Ideal) x1 i = t := by
  rw [ReadP.val_main_v16_apply, ReadP.val_main_v14_apply, ReadP.val_main_v15_apply, ReadP.val_main_v13_apply,
    ReadP.val_main_cst_1_apply, ReadP.val_main_call0_v1_apply, ReadP.val_main_call0_v0_apply,
    ReadP.val_main_cst_2_apply]
  generalize ReadP.val_main_v12 (F := Ideal) x1 i = z
  simp only [Ideal.hostUnary_rsqrt_def, Ideal.ofBits_def, Ideal.ofBits_zero_f32, Ideal.cmpf_def]
  exact dinv_real z

/-- Every edge weight, the product of two gathered entries of the degree vector, is real. -/
theorem norm_real (i : S850000.Idx) : ∃ t : ℝ, ReadP.val_main_v31 (F := Ideal) x1 i = t := by
  rw [ReadP.val_main_v31_apply]
  simp only [Ideal.mulf_def]
  refine real_mul ?_ ?_
  · unfold ReadP.val_main_v23
    exact gather_real _ _ _ (dinv_vec_real x1) _
  · unfold ReadP.val_main_v30
    exact gather_real _ _ _ (dinv_vec_real x1) _

/-- Every entry of the messages, a gathered row of x · Wᵀ times its edge weight, is real. -/
theorem msg_real (hx : ∀ i, ∃ t : ℝ, x0 i = t) (hW : ∀ i, ∃ t : ℝ, x2 i = t) (j : S850000x256.Idx) :
    ∃ t : ℝ, ReadP.val_main_v41 (F := Ideal) x0 x1 x2 j = t := by
  rw [ReadP.val_main_v41_apply]
  simp only [Ideal.mulf_def]
  refine real_mul ?_ ?_
  · unfold ReadP.val_main_v38
    exact gather_real _ _ _ (proj_real x0 x2 hx hW) _
  · rw [ReadP.val_main_v40_apply, ReadP.val_main_v39_apply]
    exact norm_real x1 _

/-- Every entry of the aggregate is real when every entry of x and of W is. -/
theorem agg_real (hx : ∀ i, ∃ t : ℝ, x0 i = t) (hW : ∀ i, ∃ t : ℝ, x2 i = t) :
    ∀ i, ∃ t : ℝ, ReadP.val_main_v44 (F := Ideal) x0 x1 x2 i = t := by
  intro i
  unfold ReadP.val_main_v44
  refine scatterAdd_real _ _ _ _ (fun i' => ?_) (msg_real x0 x1 x2 hx hW) i
  rw [ReadP.val_main_v42_apply, ReadP.val_main_cst_8_apply]
  exact real_zero_word

/-- Every entry of the aggregate plus the bias is real when every entry of x, W and the bias is. -/
theorem y_real (x3 : (⟨S256, .f32⟩ : BufTy).Contents (Elt Ideal)) (hx : ∀ i, ∃ t : ℝ, x0 i = t)
    (hW : ∀ i, ∃ t : ℝ, x2 i = t) (hb : ∀ i, ∃ t : ℝ, x3 i = t) (r : Fin 50000) (e : Fin 256) :
    ∃ t : ℝ, ReadP.val_main_v44 (F := Ideal) x0 x1 x2 (ix2 r e) + x3 (ix1 e) = (t : EReal) :=
  real_add (agg_real x0 x1 x2 hx hW _) (hb _)

end

end Cert.ReferenceIdeal.RefValue

end
-- ==== Proof.Finite.lean ====
/-
  The precondition read back: when every float input is finite, every entry of every float input is a real.

  The printed predicate is a conjunction of five "all entries satisfy |v| < +∞" tests, each an and-reduction of a
  comparison array from the constant 1. If the whole is 1 then each conjunct is 1, so each comparison array is 1
  at every index, and an extended real whose absolute value is below +∞ is neither infinity: it is a real.
-/
import proofs.«157023_j2937757631000_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value compares below the word of +∞ is a real. -/
theorem real_of_abs_lt (x : EReal)
    (h : FloatOps.cmpf (F := Ideal) (φ := .f32) .olt (FloatOps.absf (F := Ideal) (φ := .f32) x) (Ideal.ofBits .f32 0x7F800000#32) = 1#1) :
    ∃ t : ℝ, x = t := by
  have h' : Ideal.cmp .olt (max x (-x)) ⊤ = 1#1 := by
    simpa [FloatOps.cmpf, FloatOps.absf, Ideal.ofBits, Ideal.ieee] using h
  have hlt : max x (-x) < ⊤ := by
    unfold Ideal.cmp at h'
    by_contra hc
    simp [hc] at h'
  induction x using EReal.rec with
  | bot => simp at hlt
  | coe t => exact ⟨t, rfl⟩
  | top => simp at hlt

/-- One conjunct: an and-reduction of "|v| < +∞" over all of an array that came out 1 says every entry is a real. -/
theorem all_real {s : Shape} {axes : List (Fin s.rank)} (v : FVec Ideal s .f32) (hb : S_.BroadcastsInDim s (![] : Fin 0 → Fin s.rank))
    (hr : s.ReducesTo axes S_) (hu : 0 < S_.numel)
    (h : Host.reduce IntOp.andi (cmpf .olt (Host.absf v) (broadcastInDim s ![] hb (constant (F := Ideal) S_ .f32 0x7F800000#32)))
        (constantI S_ 1 1#1) hr hu ix0 = 1#1) (i : s.Idx) : ∃ t : ℝ, v i = t :=
  real_of_abs_lt (v i) (Host.reduce_andi_all _ _ hr hu ix0 h i)

variable [Facts]

/-- Under the precondition every entry of x, W, bias, gain and offset is a real. -/
theorem reals_of_pre (x : FVec Ideal S50000x256 .f32) (ei : IVec S2x800000 32) (W : FVec Ideal S256x256 .f32)
    (b g be : FVec Ideal S256 .f32) (h : fn (F := Ideal) x ei W b g be = fun _ => 1#1) :
    (∀ i, ∃ t : ℝ, x i = t) ∧ (∀ i, ∃ t : ℝ, W i = t) ∧ (∀ i, ∃ t : ℝ, b i = t) ∧ (∀ i, ∃ t : ℝ, g i = t)
      ∧ (∀ i, ∃ t : ℝ, be i = t) := by
  have h0 := congrFun h ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_real x _ _ _ h1, all_real W _ _ _ h2, all_real b _ _ _ h3, all_real g _ _ _ h4, all_real be _ _ _ h5⟩

end Cert.Finite

end
-- ==== Proof.Claims.lean ====
/-
  Two of the certificate's claims, from the reference's run and one fact about the kernel.

  The reference runs from every memory and leaves its arguments unchanged: that is its frame claim.
  For the value claim, suppose the kernel program is known to run, to leave its arguments unchanged, and
  to end with a result whose entry (r, e) is the dense-tail formula of the reference's own aggregate stage
  of the kernel's arguments, the bias, the gain and the offset. The precondition makes every entry of the
  float arguments a real number, so every entry of the aggregate plus the bias is real, and then the
  reference's result entry is the same formula. The two memories agree on the arguments, so the two
  results are equal entry by entry.
-/
import proofs.«157023_j2937757631000_1_alg».proof.Defs
import proofs.«157023_j2937757631000_1_alg».proof.Proof.Gen.KernelIdeal
import proofs.«157023_j2937757631000_1_alg».proof.Proof.Gen.ReferenceIdeal
import proofs.«157023_j2937757631000_1_alg».proof.Proof.Gen.Pre_finite_inputs
import proofs.«157023_j2937757631000_1_alg».proof.Proof.RefRead
import proofs.«157023_j2937757631000_1_alg».proof.Proof.RefValue
import proofs.«157023_j2937757631000_1_alg».proof.Proof.RefFinite
import proofs.«157023_j2937757631000_1_alg».proof.Proof.Finite
import proofs.«157023_j2937757631000_1_alg».proof.Proof.Spec

noncomputable section

namespace Cert.Proof.Parts

open Idealize.ShloMosaic Idealize.ShloMosaic.TcCoe Idealize.SL.Sem Idealize.ShloMosaic.ValueIdx

/-- The reference runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- The value claim, from the kernel's run and its result read at an entry. -/
theorem algebraic_of
    (out : (m : (ℓ : Loc Cert.KernelIdeal.nD Cert.KernelIdeal.τ Cert.KernelIdeal.sig) → Buf (Elt Ideal) ℓ) → (ρ : Dev Cert.KernelIdeal.nD → PrngReg) → (c : Dev Cert.KernelIdeal.nD) →
      Buf (Elt Ideal) ((c.tc : Thread Cert.KernelIdeal.nD Cert.KernelIdeal.τ).loc Cert.KernelIdeal.main_v58))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v58) = out m ρ c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)))
    (hout : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (r : Fin 50000) (e : Fin 256),
      out m ρ c (ix2 r e)
        = Cert.Spec.outAt (Cert.ReferenceIdeal.ReadP.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r e) :
    Cert.algebraic_KernelIdeal_ReferenceIdeal := by
  intro m ρ m' ρ' hpre hagree
  refine ⟨fun c => out m ρ c, hrun m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  obtain ⟨hx, hW, hb, hg, hbe⟩ := Cert.Finite.reals_of_pre _ _ _ _ _ _ (hpre c)
  rw [Cert.ReferenceIdeal.RefValue.ref_run_eq, h0, h1, h2, h3, h4, h5]
  refine funext fun i => ?_
  obtain ⟨r, e, rfl⟩ : ∃ (r : Fin 50000) (e : Fin 256), i = ix2 r e :=
    ⟨i 0, i 1, eq_ix2 (n0 := 50000) (n1 := 256) i⟩
  rw [Cert.ReferenceIdeal.RefValue.ref_out _ _ _ _ _ _ (Cert.ReferenceIdeal.RefValue.y_real _ _ _ _ hx hW hb) (fun e => hg _) (fun e => hbe _)]
  exact (hout m ρ c r e).symm

end Cert.Proof.Parts

end
-- ==== Proof.lean ====
/-
  A graph-convolution layer with batch normalisation and a rectifier, as a pipelined kernel program against its
  plain reference: the proof of the five claims.

  Both programs compute, for node features x, weights W, an edge list and three parameter vectors,
      h = x · Wᵀ,   a = the degree-normalised sum of h over each node's in-edges (self-loops added),
      y = a + bias,   out = max (gain · (y − mean y) · (var y + ε)^(−1/2) + offset, 0),
  the statistics taken over the 50000 nodes, column by column. The kernel program computes h, the two column sums
  Σ y and Σ y², and the final normalisation in three pipelined regions over ten blocks of 5000 rows, with the edge
  gather and scatter and the two quotients on the host between them, and takes the variance as
  (Σ y²)/n − (mean)²; the reference takes it as the mean of the centred squares.

  Frames. Each of the kernel program's regions is run block by block (the body by symbolic execution, the
  second region's two accumulators carried between blocks through the region's invariant); the host stretches
  are lines of operations; chained, every execution terminates and the argument arrays end as launched. The
  reference is a line of host operations.

  Values, over the extended reals. Region by region the kernel program's arrays are plain formulas of the
  arrays before them: the projection entry by entry, the column sums as sums over all rows (ten block sums
  make one sum), the normalised output entry by entry. The edge chain between them is the reference's own,
  operation for operation, so the aggregate a is one function of h and the edge list in both programs. The
  reference's result is the same final formula with the two-pass variance, and for real y — which finite
  inputs give, every stage of the chain preserving reality — the two variances are one number, since
  Σ (y − μ)² = Σ y² − n μ² when μ = (Σ y)/n.
-/
import proofs.«157023_j2937757631000_1_alg».proof.Defs
import proofs.«157023_j2937757631000_1_alg».proof.Proof.Gen.Kernel
import proofs.«157023_j2937757631000_1_alg».proof.Proof.Gen.KernelIdeal
import proofs.«157023_j2937757631000_1_alg».proof.Proof.Gen.ReferenceIdeal
import proofs.«157023_j2937757631000_1_alg».proof.Proof.Gen.Pre_finite_inputs
import proofs.«157023_j2937757631000_1_alg».proof.Proof.K.Run
import proofs.«157023_j2937757631000_1_alg».proof.Proof.KI.Run
import proofs.«157023_j2937757631000_1_alg».proof.Proof.KI.Out
import proofs.«157023_j2937757631000_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.Parts.frame_ri,
  trivial,
  Cert.Proof.Parts.algebraic_of
    (fun m ρ c => (Cert.KernelIdeal.Hand.dat2 (F := Ideal) (Cert.KernelIdeal.Hand.En6 m ρ) c).arrAt 6 Cert.KernelIdeal.cfg2.N)
    (fun m ρ => Cert.KernelIdeal.Hand.run_value m ρ)
    (fun m ρ c r e => Cert.KernelIdeal.HandVal.kernel_out m ρ c r e)⟩

end Cert.Proof

end
